-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S8x128 : Shape := ⟨2, ![8, 128]⟩
abbrev S8 : Shape := ⟨1, ![8]⟩
abbrev S128 : Shape := ⟨1, ![128]⟩
abbrev S256x128 : Shape := ⟨2, ![256, 128]⟩
abbrev S256 : Shape := ⟨1, ![256]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S256 .f32) (main_arg13 : FVec F S128x256 .f32) (main_arg14 : FVec F S128 .f32) (main_arg15 : FVec F S128 .f32) (main_arg16 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S8 .f32) (main_arg9 : FVec F S128 .f32) (main_arg10 : FVec F S128 .f32) (main_arg11 : FVec F S256x128 .f32) (main_arg12 : FVec F S256 .f32) (main_arg13 : FVec F S128x256 .f32) (main_arg14 : FVec F S128 .f32) (main_arg15 : FVec F S128 .f32) (main_arg16 : FVec F S128 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128x128 .f32) (main_arg7 : FVec F S8x128 .f32) (main_arg8 : FVec F S8 .f32) (main_arg9 : FVec F S128 .f32) (main_arg10 : FVec F S128 .f32) (main_arg11 : FVec F S256x128 .f32) (main_arg12 : FVec F S256 .f32) (main_arg13 : FVec F S128x256 .f32) (main_arg14 : FVec F S128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S8x128 .f32 := Host.absf main_arg7
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x1600000 32) (main_arg2 : FVec F S1600000x128 .f32) (main_arg3 : FVec F S128x128 .f32) (main_arg4 : FVec F S128x128 .f32) (main_arg5 : FVec F S128x128 .f32) (main_arg6 : FVec F S128x128 .f32) (main_arg7 : FVec F S8x128 .f32) (main_arg8 : FVec F S8 .f32) (main_arg9 : FVec F S128 .f32) (main_arg10 : FVec F S128 .f32) (main_arg11 : FVec F S256x128 .f32) (main_arg12 : FVec F S256 .f32) (main_arg13 : FVec F S128x256 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S8x128 : Shape := ⟨2, ![8, 128]⟩
abbrev S8 : Shape := ⟨1, ![8]⟩
abbrev S128 : Shape := ⟨1, ![128]⟩
abbrev S256x128 : Shape := ⟨2, ![256, 128]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S384x128 : Shape := ⟨2, ![384, 128]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S50000x8x16 : Shape := ⟨3, ![50000, 8, 16]⟩
abbrev S128x8 : Shape := ⟨2, ![128, 8]⟩
abbrev S1x8 : Shape := ⟨2, ![1, 8]⟩
abbrev S1600000x8 : Shape := ⟨2, ![1600000, 8]⟩
abbrev S8000x128 : Shape := ⟨2, ![8000, 128]⟩
abbrev S8000x8 : Shape := ⟨2, ![8000, 8]⟩
abbrev S1600000x8x16 : Shape := ⟨3, ![1600000, 8, 16]⟩
abbrev S_ : Shape := ⟨0, ![]⟩
abbrev S1600000x1 : Shape := ⟨2, ![1600000, 1]⟩
abbrev S1600000x8x1 : Shape := ⟨3, ![1600000, 8, 1]⟩
abbrev S50000x8 : Shape := ⟨2, ![50000, 8]⟩
abbrev S50000x8x1 : Shape := ⟨3, ![50000, 8, 1]⟩
abbrev S1x128 : Shape := ⟨2, ![1, 128]⟩
abbrev S1x256 : Shape := ⟨2, ![1, 256]⟩
abbrev S5000x256 : Shape := ⟨2, ![5000, 256]⟩

abbrev nBuf : Space → Nat
  | .hbm => 193
  | .vmem => 22
  | .smem => 0
  | _ => 0

abbrev hbmTy0_0 (i : Nat) : BufTy := match i % 128 with
  | 0 => ⟨S50000x128, .f32⟩
  | 1 => ⟨S2x1600000, .i32⟩
  | 2 => ⟨S1600000x128, .f32⟩
  | 3 => ⟨S128x128, .f32⟩
  | 4 => ⟨S128x128, .f32⟩
  | 5 => ⟨S128x128, .f32⟩
  | 6 => ⟨S128x128, .f32⟩
  | 7 => ⟨S8x128, .f32⟩
  | 8 => ⟨S8, .f32⟩
  | 9 => ⟨S128, .f32⟩
  | 10 => ⟨S128, .f32⟩
  | 11 => ⟨S256x128, .f32⟩
  | 12 => ⟨S256, .f32⟩
  | 13 => ⟨S128x256, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S384x128, .f32⟩
  | 22 => ⟨S128x384, .f32⟩
  | 23 => ⟨S50000x384, .f32⟩
  | 24 => ⟨S50000x128, .f32⟩
  | 25 => ⟨S50000x8x16, .f32⟩
  | 26 => ⟨S50000x128, .f32⟩
  | 27 => ⟨S50000x8x16, .f32⟩
  | 28 => ⟨S50000x128, .f32⟩
  | 29 => ⟨S50000x8x16, .f32⟩
  | 30 => ⟨S128x128, .f32⟩
  | 31 => ⟨S128x8, .f32⟩
  | 32 => ⟨S1x8, .f32⟩
  | 33 => ⟨S1600000x128, .f32⟩
  | 34 => ⟨S1600000x8, .f32⟩
  | 35 => ⟨S1600000x8x16, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x8x16, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x8x16, .f32⟩
  | 54 => ⟨S1600000x8x16, .f32⟩
  | 55 => ⟨S1600000x8x16, .f32⟩
  | 56 => ⟨S_, .f32⟩
  | 57 => ⟨S1600000x8, .f32⟩
  | 58 => ⟨S_, .f32⟩
  | 59 => ⟨S1600000x8, .f32⟩
  | 60 => ⟨S1600000x8, .f32⟩
  | 61 => ⟨S1600000x8, .f32⟩
  | 62 => ⟨S_, .f32⟩
  | 63 => ⟨S_, .f32⟩
  | 64 => ⟨S_, .f32⟩
  | 65 => ⟨S1600000x8, .f32⟩
  | 66 => ⟨S1600000x8, .f32⟩
  | 67 => ⟨S_, .f32⟩
  | 68 => ⟨S1600000x8, .f32⟩
  | 69 => ⟨S1600000x8, .f32⟩
  | 70 => ⟨S1600000x8, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x8x16, .f32⟩
  | 80 => ⟨S1600000x8x1, .f32⟩
  | 81 => ⟨S1600000x8x16, .f32⟩
  | 82 => ⟨S1600000x8x16, .f32⟩
  | 83 => ⟨S_, .f32⟩
  | 84 => ⟨S50000x8x16, .f32⟩
  | 85 => ⟨S1600000x1, .i32⟩
  | 86 => ⟨S50000x8x16, .f32⟩
  | 87 => ⟨S_, .f32⟩
  | 88 => ⟨S50000x8, .f32⟩
  | 89 => ⟨S1600000x1, .i32⟩
  | 90 => ⟨S50000x8, .f32⟩
  | 91 => ⟨S50000x8x1, .f32⟩
  | 92 => ⟨S_, .f32⟩
  | 93 => ⟨S50000x8x1, .f32⟩
  | 94 => ⟨S50000x8x1, .f32⟩
  | 95 => ⟨S50000x8x16, .f32⟩
  | 96 => ⟨S50000x8x16, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S128x256, .f32⟩
  | 16 => ⟨S256x128, .f32⟩
  | 17 => ⟨S1x256, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S8000x128, .f32⟩
  | .local _ .vmem, ⟨6, _⟩ => ⟨S8000x128, .f32⟩
  | .local _ .vmem, ⟨7, _⟩ => ⟨S128x128, .f32⟩
  | .local _ .vmem, ⟨8, _⟩ => ⟨S128x8, .f32⟩
  | .local _ .vmem, ⟨9, _⟩ => ⟨S1x8, .f32⟩
  | .local _ .vmem, ⟨10, _⟩ => ⟨S8000x128, .f32⟩
  | .local _ .vmem, ⟨11, _⟩ => ⟨S8000x128, .f32⟩
  | .local _ .vmem, ⟨12, _⟩ => ⟨S8000x8, .f32⟩
  | .local _ .vmem, ⟨13, _⟩ => ⟨S8000x8, .f32⟩
  | .local _ .vmem, ⟨14, _⟩ => ⟨S5000x128, .f32⟩
  | .local _ .vmem, ⟨15, _⟩ => ⟨S5000x128, .f32⟩
  | .local _ .vmem, ⟨16, _⟩ => ⟨S128x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v38 : Ref sig .tc := ⟨.hbm, 69, rfl⟩
abbrev main_v39 : Ref sig .tc := ⟨.hbm, 70, rfl⟩
abbrev main_c_6 : Ref sig .tc := ⟨.hbm, 71, rfl⟩
abbrev main_v40 : Ref sig .tc := ⟨.hbm, 72, rfl⟩
abbrev main_v41 : Ref sig .tc := ⟨.hbm, 73, rfl⟩
abbrev main_c_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_c_13 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_cst_3 : Ref sig .tc := ⟨.hbm, 121, rfl⟩
abbrev main_call1_v12 : Ref sig .tc := ⟨.hbm, 122, rfl⟩
abbrev main_call1_cst_4 : Ref sig .tc := ⟨.hbm, 123, rfl⟩
abbrev main_call1_call0_v0 : Ref sig .tc := ⟨.hbm, 124, rfl⟩
abbrev main_call1_call0_v1 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_14 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_15 : Ref sig .tc := ⟨.hbm, 149, rfl⟩
abbrev main_v88 : Ref sig .tc := ⟨.hbm, 150, rfl⟩
abbrev main_cst_16 : Ref sig .tc := ⟨.hbm, 151, rfl⟩
abbrev main_v89 : Ref sig .tc := ⟨.hbm, 152, rfl⟩
abbrev main_v90 : Ref sig .tc := ⟨.hbm, 153, rfl⟩
abbrev main_c_17 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_cst_0 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_v7 : Ref sig .tc := ⟨.hbm, 164, rfl⟩
abbrev main_call2_cst_1 : Ref sig .tc := ⟨.hbm, 165, rfl⟩
abbrev main_call2_v8 : Ref sig .tc := ⟨.hbm, 166, rfl⟩
abbrev main_call2_cst_2 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_cst_3 : Ref sig .tc := ⟨.hbm, 171, rfl⟩
abbrev main_call2_v12 : Ref sig .tc := ⟨.hbm, 172, rfl⟩
abbrev main_call2_cst_4 : Ref sig .tc := ⟨.hbm, 173, rfl⟩
abbrev main_call2_call0_v0 : Ref sig .tc := ⟨.hbm, 174, rfl⟩
abbrev main_call2_call0_v1 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_18 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S128x128_S128x128_S128x128_S384x128_d0 : Shape.Concatenates [S128x128, S128x128, S128x128] S384x128 0
  transposes_S384x128_S128x384_1_0 : S384x128.Transposes [1, 0] S128x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  shapeCasts_S50000x128_S50000x8x16 : S50000x128.ShapeCasts S50000x8x16
  slices_S50000x384_S50000x128_0_128 : S50000x384.Slices ![0, 128] S50000x128
  slices_S50000x384_S50000x128_0_256 : S50000x384.Slices ![0, 256] S50000x128
  transposes_S128x128_S128x128_1_0 : S128x128.Transposes [1, 0] S128x128
  transposes_S8x128_S128x8_1_0 : S8x128.Transposes [1, 0] S128x8
  shapeCasts_S8_S1x8 : S8.ShapeCasts S1x8
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  shapeCasts_S1600000x128_S1600000x8x16 : S1600000x128.ShapeCasts S1600000x8x16
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  transposes_S256x128_S128x256_1_0 : S256x128.Transposes [1, 0] S128x256
  transposes_S128x256_S256x128_1_0 : S128x256.Transposes [1, 0] S256x128
  shapeCasts_S256_S1x256 : S256.ShapeCasts S1x256
  shapeCasts_S128_S1x128 : S128.ShapeCasts S1x128
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x384_S5000x384_1_0_0_1_n_n_wf : DotDims.WF S5000x128 S128x384 S5000x384 [1] [0] [0] [1] [] []
  dot_S8000x128_S128x128_S8000x128_1_0_0_1_n_n_wf : DotDims.WF S8000x128 S128x128 S8000x128 [1] [0] [0] [1] [] []
  dot_S8000x128_S128x8_S8000x8_1_0_0_1_n_n_wf : DotDims.WF S8000x128 S128x8 S8000x8 [1] [0] [0] [1] [] []
  gather_S50000x8x16_S1600000x1_S1600000x8x16_12_0_n_n_0_1_1816_wf : GatherDims.WF S50000x8x16 S1600000x1 S1600000x8x16 [1, 2] [0] [] [0] [] 1 ![1, 8, 16]
  scatter_S50000x8x16_S1600000x1_S1600000x8x16_12_0_0_1_wf : ScatterDims.WF S50000x8x16 S1600000x1 S1600000x8x16 [1, 2] [0] [0] 1
  scatter_S50000x8_S1600000x1_S1600000x8_1_0_0_1_wf : ScatterDims.WF S50000x8 S1600000x1 S1600000x8 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S1600000x128.size a
  hwx1_4 : ∀ i : grid1.Coords, EltTy.bits .f32 = 32 ∨ (Rect.block (s := S1600000x128) S8000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x8.size a ≤ S1600000x8.size a
  hwx1_5 : ∀ i : grid1.Coords, EltTy.bits .f32 = 32 ∨ (Rect.block (s := S1600000x8) S8000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf
def gather_S50000x8x16_S1600000x1_S1600000x8x16_12_0_n_n_0_1_1816 : GatherDims S50000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S50000x8x16_S1600000x1_S1600000x8x16_12_0_n_n_0_1_1816_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16_0) S8000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_1) S8000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v81) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v86) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S8x128 : Shape := ⟨2, ![8, 128]⟩
abbrev S8 : Shape := ⟨1, ![8]⟩
abbrev S128 : Shape := ⟨1, ![128]⟩
abbrev S256x128 : Shape := ⟨2, ![256, 128]⟩
abbrev S256 : Shape := ⟨1, ![256]⟩
abbrev S128x256 : Shape := ⟨2, ![128, 256]⟩
abbrev S1x1600000 : Shape := ⟨2, ![1, 1600000]⟩
abbrev S1600000 : Shape := ⟨1, ![1600000]⟩
abbrev S50000x8x16 : Shape := ⟨3, ![50000, 8, 16]⟩
abbrev S1600000x8x16 : Shape := ⟨3, ![1600000, 8, 16]⟩
abbrev S128x8 : Shape := ⟨2, ![128, 8]⟩
abbrev S1600000x8 : Shape := ⟨2, ![1600000, 8]⟩
abbrev S1x8 : Shape := ⟨2, ![1, 8]⟩
abbrev S_ : Shape := ⟨0, ![]⟩
abbrev S1600000x1 : Shape := ⟨2, ![1600000, 1]⟩
abbrev S1600000x8x1 : Shape := ⟨3, ![1600000, 8, 1]⟩
abbrev S50000x8 : Shape := ⟨2, ![50000, 8]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 203
  | .vmem => 0
  | .smem => 0
  | _ => 0

abbrev hbmTy0_0 (i : Nat) : BufTy := match i % 128 with
  | 0 => ⟨S50000x128, .f32⟩
  | 1 => ⟨S2x1600000, .i32⟩
  | 2 => ⟨S1600000x128, .f32⟩
  | 3 => ⟨S128x128, .f32⟩
  | 4 => ⟨S128x128, .f32⟩
  | 5 => ⟨S128x128, .f32⟩
  | 6 => ⟨S128x128, .f32⟩
  | 7 => ⟨S8x128, .f32⟩
  | 8 => ⟨S8, .f32⟩
  | 9 => ⟨S128, .f32⟩
  | 10 => ⟨S128, .f32⟩
  | 11 => ⟨S256x128, .f32⟩
  | 12 => ⟨S256, .f32⟩
  | 13 => ⟨S128x256, .f32⟩
  | 14 => ⟨S128, .f32⟩
  | 15 => ⟨S128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S128x128, .f32⟩
  | 22 => ⟨S50000x128, .f32⟩
  | 23 => ⟨S50000x8x16, .f32⟩
  | 24 => ⟨S128x128, .f32⟩
  | 25 => ⟨S50000x128, .f32⟩
  | 26 => ⟨S50000x8x16, .f32⟩
  | 27 => ⟨S128x128, .f32⟩
  | 28 => ⟨S50000x128, .f32⟩
  | 29 => ⟨S50000x8x16, .f32⟩
  | 30 => ⟨S128x128, .f32⟩
  | 31 => ⟨S1600000x128, .f32⟩
  | 32 => ⟨S1600000x8x16, .f32⟩
  | 33 => ⟨S128x8, .f32⟩
  | 34 => ⟨S1600000x8, .f32⟩
  | 35 => ⟨S1x8, .f32⟩
  | 36 => ⟨S1600000x8, .f32⟩
  | 37 => ⟨S1600000x8, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x8x16, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x8x16, .f32⟩
  | 56 => ⟨S1600000x8x16, .f32⟩
  | 57 => ⟨S1600000x8x16, .f32⟩
  | 58 => ⟨S_, .f32⟩
  | 59 => ⟨S1600000x8, .f32⟩
  | 60 => ⟨S_, .f32⟩
  | 61 => ⟨S1600000x8, .f32⟩
  | 62 => ⟨S1600000x8, .f32⟩
  | 63 => ⟨S1600000x8, .f32⟩
  | 64 => ⟨S_, .f32⟩
  | 65 => ⟨S_, .f32⟩
  | 66 => ⟨S_, .f32⟩
  | 67 => ⟨S1600000x8, .f32⟩
  | 68 => ⟨S1600000x8, .f32⟩
  | 69 => ⟨S_, .f32⟩
  | 70 => ⟨S1600000x8, .f32⟩
  | 71 => ⟨S1600000x8, .f32⟩
  | 72 => ⟨S1600000x8, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x8x16, .f32⟩
  | 82 => ⟨S1600000x8x1, .f32⟩
  | 83 => ⟨S1600000x8x16, .f32⟩
  | 84 => ⟨S1600000x8x16, .f32⟩
  | 85 => ⟨S_, .f32⟩
  | 86 => ⟨S50000x8x16, .f32⟩
  | 87 => ⟨S1600000x1, .i32⟩
  | 88 => ⟨S50000x8x16, .f32⟩
  | 89 => ⟨S_, .f32⟩
  | 90 => ⟨S50000x8, .f32⟩
  | 91 => ⟨S1600000x1, .i32⟩
  | 92 => ⟨S50000x8, .f32⟩
  | 93 => ⟨S50000x8x1, .f32⟩
  | 94 => ⟨S_, .f32⟩
  | 95 => ⟨S50000x8x1, .f32⟩
  | 96 => ⟨S50000x8x1, .f32⟩
  | 97 => ⟨S50000x8x16, .f32⟩
  | 98 => ⟨S50000x8x16, .f32⟩
  | 99 => ⟨S50000x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S128x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S256x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_1 : Ref sig .tc := ⟨.hbm, 47, rfl⟩
abbrev main_v28 : Ref sig .tc := ⟨.hbm, 48, rfl⟩
abbrev main_v29 : Ref sig .tc := ⟨.hbm, 49, rfl⟩
abbrev main_c_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_cst_1 : Ref sig .tc := ⟨.hbm, 117, rfl⟩
abbrev main_call1_v8 : Ref sig .tc := ⟨.hbm, 118, rfl⟩
abbrev main_call1_cst_2 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_cst_3 : Ref sig .tc := ⟨.hbm, 123, rfl⟩
abbrev main_call1_v12 : Ref sig .tc := ⟨.hbm, 124, rfl⟩
abbrev main_call1_cst_4 : Ref sig .tc := ⟨.hbm, 125, rfl⟩
abbrev main_call1_call0_v0 : Ref sig .tc := ⟨.hbm, 126, rfl⟩
abbrev main_call1_call0_v1 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_14 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call2_cst : Ref sig .tc := ⟨.hbm, 150, rfl⟩
abbrev main_call2_v0 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_cst_15 : Ref sig .tc := ⟨.hbm, 159, rfl⟩
abbrev main_v97 : Ref sig .tc := ⟨.hbm, 160, rfl⟩
abbrev main_cst_16 : Ref sig .tc := ⟨.hbm, 161, rfl⟩
abbrev main_v98 : Ref sig .tc := ⟨.hbm, 162, rfl⟩
abbrev main_v99 : Ref sig .tc := ⟨.hbm, 163, rfl⟩
abbrev main_c_17 : Ref sig .tc := ⟨.hbm, 164, rfl⟩
abbrev main_call3_cst : Ref sig .tc := ⟨.hbm, 165, rfl⟩
abbrev main_call3_v0 : Ref sig .tc := ⟨.hbm, 166, rfl⟩
abbrev main_call3_v1 : Ref sig .tc := ⟨.hbm, 167, rfl⟩
abbrev main_call3_cst_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_v6 : Ref sig .tc := ⟨.hbm, 173, rfl⟩
abbrev main_call3_v7 : Ref sig .tc := ⟨.hbm, 174, rfl⟩
abbrev main_call3_cst_1 : Ref sig .tc := ⟨.hbm, 175, rfl⟩
abbrev main_call3_v8 : Ref sig .tc := ⟨.hbm, 176, rfl⟩
abbrev main_call3_cst_2 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_call3_cst_3 : Ref sig .tc := ⟨.hbm, 181, rfl⟩
abbrev main_call3_v12 : Ref sig .tc := ⟨.hbm, 182, rfl⟩
abbrev main_call3_cst_4 : Ref sig .tc := ⟨.hbm, 183, rfl⟩
abbrev main_call3_call0_v0 : Ref sig .tc := ⟨.hbm, 184, rfl⟩
abbrev main_call3_call0_v1 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_18 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  shapeCasts_S50000x128_S50000x8x16 : S50000x128.ShapeCasts S50000x8x16
  shapeCasts_S1600000x128_S1600000x8x16 : S1600000x128.ShapeCasts S1600000x8x16
  transposes_S8x128_S128x8_1_0 : S8x128.Transposes [1, 0] S128x8
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  dot_S50000x128_S128x128_S50000x128_1_0_0_1_n_n_wf : DotDims.WF S50000x128 S128x128 S50000x128 [1] [0] [0] [1] [] []
  dot_S1600000x128_S128x128_S1600000x128_1_0_0_1_n_n_wf : DotDims.WF S1600000x128 S128x128 S1600000x128 [1] [0] [0] [1] [] []
  dot_S1600000x128_S128x8_S1600000x8_1_0_0_1_n_n_wf : DotDims.WF S1600000x128 S128x8 S1600000x8 [1] [0] [0] [1] [] []
  gather_S50000x8x16_S1600000x1_S1600000x8x16_12_0_n_n_0_1_1816_wf : GatherDims.WF S50000x8x16 S1600000x1 S1600000x8x16 [1, 2] [0] [] [0] [] 1 ![1, 8, 16]
  scatter_S50000x8x16_S1600000x1_S1600000x8x16_12_0_0_1_wf : ScatterDims.WF S50000x8x16 S1600000x1 S1600000x8x16 [1, 2] [0] [0] 1
  scatter_S50000x8_S1600000x1_S1600000x8_1_0_0_1_wf : ScatterDims.WF S50000x8 S1600000x1 S1600000x8 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x8_S1600000x8_1_0_0_1_n_n : DotDims S1600000x128 S128x8 S1600000x8 where
  lhsContracting := [1]
  rhsContracting := [0]
  lhsNonContracting := [0]
  rhsNonContracting := [1]
  lhsBatch := []
  rhsBatch := []
  wf := dot_S1600000x128_S128x8_S1600000x8_1_0_0_1_n_n_wf
def gather_S50000x8x16_S1600000x1_S1600000x8x16_12_0_n_n_0_1_1816 : GatherDims S50000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S50000x8x16_S1600000x1_S1600000x8x16_12_0_n_n_0_1_1816_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Data.lean ====
/-
  The three kernel regions' data at a parameter `V` (the buffer contents when a region is entered): for each
  region the block a window shows at a grid point, what the body stores in each output tile as a function of
  the input tiles, and the pipeline's proof data built from them (arrays as entered, inputs left in place,
  outputs at the stored value, nothing owed, full shares).
-/
import proofs.«101283_j438086664594_1_alg».proof.Proof.Gen.Kernel.Launch
import proofs.«101283_j438086664594_1_alg».proof.Proof.Gen.Kernel.Skeleton
import proofs.«101283_j438086664594_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # Region 0: the fused projection `h · [Wq; Wk; Wv]ᵀ`, ten row tiles of 5000 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-- What the body leaves in the output tile: one whole-tile store of the product of the row tile with the weight block. -/
def out0_2 (x0 : Vec F S5000x128 .f32) (x1 : Vec F S128x384 .f32) : Vec F S5000x384 .f32 :=
  View.canon [⟨r0_2, k0_pay1 (View.ld x0 r0_0) (View.ld x1 r0_1)⟩]

/-- The proof data of region 0: arrays as entered; after the body each input tile in place, the output tile at `out0_2`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # Region 1: the two edge projections sharing one read of the edge tile, two hundred row tiles of 8000 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S128x8 := Rect.unit (s := S128x8) ![0, 0] S128x8.size inb_S128x8_S128x8_0_0
abbrev r1_3 : Rect S1x8 := Rect.unit (s := S1x8) ![0, 0] S1x8.size inb_S1x8_S1x8_0_0
abbrev r1_5 : Rect S8000x8 := Rect.unit (s := S8000x8) ![0, 0] S8000x8.size inb_S8000x8_S8000x8_0_0

/-- The edge-feature tile: the edge tile times the feature weight. -/
def out1_4 (x0 : Vec F S8000x128 .f32) (x1 : Vec F S128x128 .f32) : Vec F S8000x128 .f32 :=
  View.canon [⟨r1_0, k1_pay2 (View.ld x0 r1_0) (View.ld x1 r1_1)⟩]
/-- The edge-bias tile: the edge tile times the bias weight, plus the bias row. -/
def out1_5 (x0 : Vec F S8000x128 .f32) (x2 : Vec F S128x8 .f32) (x3 : Vec F S1x8 .f32) : Vec F S8000x8 .f32 :=
  View.canon [⟨r1_5, k1_pay3 (View.ld x0 r1_0) (View.ld x2 r1_2) (View.ld x3 r1_3)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 2 t) (iblk1 V c 3 t) := by dsimp only [dat1]

/-! # Region 2: the two-layer feed-forward block on a row tile, ten row tiles of 5000 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0

/-- The output tile: the second layer applied to the rectified first layer of the row tile. -/
def out2_5 (x0 : Vec F S5000x128 .f32) (x1 : Vec F S128x256 .f32) (x2 : Vec F S1x256 .f32) (x3 : Vec F S256x128 .f32) (x4 : Vec F S1x128 .f32) : Vec F S5000x128 .f32 :=
  View.canon [⟨r0_0, k2_pay1 (View.ld x0 r0_0) (View.ld x1 r2_1) (View.ld x2 r2_2) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Cert.Kernel.Hand

end
-- ==== Proof.K.Fold.lean ====
/-
  The buffer contents of a core at each boundary between two items of the program (a stretch of host operations,
  or a kernel region), as a fold from the launch memory: a host stretch applies its operations; a region leaves
  each of its windows' arrays at what its pipeline's write-backs produce and every other buffer as entered.
-/
import proofs.«101283_j438086664594_1_alg».proof.Proof.Gen.Kernel.Launch
import proofs.«101283_j438086664594_1_alg».proof.Proof.Gen.Kernel.Skeleton
import proofs.«101283_j438086664594_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101283_j438086664594_1_alg».proof.Proof.K.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After the host stretch `hostOps2_1`. -/
abbrev W6 : Dev nD → Valuation τ sig (Elt F) := fun c => StableHlo.after hostOps2_1 (W5 m c)
abbrev V6 : (c : Dev nD) → (b : Ref sig .tc) → Buf (Elt F) ((c : Thread nD τ).loc b) := fun c b => W6 m c b

/-- After the host stretch `hostOps2_2`. -/
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b

/-- After the host stretch `hostOps2_3`. -/
abbrev W8 : Dev nD → Valuation τ sig (Elt F) := fun c => StableHlo.after hostOps2_3 (W7 m c)
abbrev V8 : (c : Dev nD) → (b : Ref sig .tc) → Buf (Elt F) ((c : Thread nD τ).loc b) := fun c b => W8 m c b

/-- After the host stretch `hostOps2_4`. -/
abbrev W9 : Dev nD → Valuation τ sig (Elt F) := fun c => StableHlo.after hostOps2_4 (W8 m c)
abbrev V9 : (c : Dev nD) → (b : Ref sig .tc) → Buf (Elt F) ((c : Thread nD τ).loc b) := fun c b => W9 m c b

/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the host stretch `hostOps3`. -/
abbrev W11 : Dev nD → Valuation τ sig (Elt F) := fun c => StableHlo.after hostOps3 (W10 m c)
abbrev V11 : (c : Dev nD) → (b : Ref sig .tc) → Buf (Elt F) ((c : Thread nD τ).loc b) := fun c b => W11 m c b

/-- After the host stretch `hostOps3_1`. -/
abbrev W12 : Dev nD → Valuation τ sig (Elt F) := fun c => StableHlo.after hostOps3_1 (W11 m c)
abbrev V12 : (c : Dev nD) → (b : Ref sig .tc) → Buf (Elt F) ((c : Thread nD τ).loc b) := fun c b => W12 m c b

/-- After the host stretch `hostOps3_2`. -/
abbrev W13 : Dev nD → Valuation τ sig (Elt F) := fun c => StableHlo.after hostOps3_2 (W12 m c)
abbrev V13 : (c : Dev nD) → (b : Ref sig .tc) → Buf (Elt F) ((c : Thread nD τ).loc b) := fun c b => W13 m c b

end Cert.Kernel.Hand

end
-- ==== Proof.K.Run.lean ====
/-
  The run of the program. @main is thirteen items in order: ten stretches of host operations and three kernel
  regions. Each item is a segment over one thread state — every unscoped buffer of the core held whole at the
  contents the fold names at that boundary (`W0` … `W13`), beside the generator register at some state and the
  core owing nothing. A host stretch takes the buffers from one boundary's contents to the next by applying its
  operations; a region splits its windows' arrays out of the buffers, runs its pipeline over them, and puts them
  back at what the write-backs leave. The launch theorem over the thirteen segments gives: every weakly fair
  execution terminates, nothing faults, and the final memory holds, at every unscoped buffer, the last fold.
  A buffer that no host stretch writes and that is no region's output array is read back through the fold to the
  launch memory: in particular each of the seventeen arguments.
-/
import proofs.«101283_j438086664594_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101283_j438086664594_1_alg».proof.Proof.K.Fold
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer nothing writes holds at the end what it held at launch

A host stretch leaves a reference outside the list of those it writes as it was. A region leaves a reference that
is none of its arrays as it was; and an array of one of its INPUT windows too, since the write-backs only touch
output arrays. -/

/-- Region 0 leaves `b` as entered when every window whose array is `b` is an input window. -/
theorem W2_keep (c : Dev nD) (b : Ref sig .tc)
    (hb : ∀ w : Fin cfg0.W, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩

/-- Region 1 leaves `b` as entered when every window whose array is `b` is an input window. -/
theorem W4_keep (c : Dev nD) (b : Ref sig .tc)
    (hb : ∀ w : Fin cfg1.W, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (V3 m) c).arrAt_in w (hb w rfl) _).trans (A_eq1 (V3 m) c w))
  · exact W4_of_ne m c b fun w e => h ⟨w, e⟩

/-- Region 2 leaves `b` as entered when every window whose array is `b` is an input window. -/
theorem W10_keep (c : Dev nD) (b : Ref sig .tc)
    (hb : ∀ w : Fin cfg2.W, Pipeline.arrRef spec2 w = b → (cfg2.win w).isOut = false) :
    W10 m c (Proc.devRef .tc b) = W9 m c (Proc.devRef .tc b) := by
  by_cases h : ∃ w, Pipeline.arrRef spec2 w = b
  · obtain ⟨w, rfl⟩ := h
    exact (W10_arr m c w).trans (((dat2 (V9 m) c).arrAt_in w (hb w rfl) _).trans (A_eq2 (V9 m) c w))
  · exact W10_of_ne m c b fun w e => h ⟨w, e⟩

/-- A reference written by no host stretch and the output array of no region reads, at the last boundary, what the
    launch memory holds there: the fold walked back item by item. -/
theorem W13_keep (c : Dev nD) (b : Ref sig .tc)
    (h0 : b ∉ hostOps0_W) (r0 : ∀ w : Fin cfg0.W, Pipeline.arrRef spec0 w = b → (cfg0.win w).isOut = false)
    (h1 : b ∉ hostOps1_W) (r1 : ∀ w : Fin cfg1.W, Pipeline.arrRef spec1 w = b → (cfg1.win w).isOut = false)
    (h2 : b ∉ hostOps2_W) (h2_1 : b ∉ hostOps2_1_W) (h2_2 : b ∉ hostOps2_2_W) (h2_3 : b ∉ hostOps2_3_W) (h2_4 : b ∉ hostOps2_4_W)
    (r2 : ∀ w : Fin cfg2.W, Pipeline.arrRef spec2 w = b → (cfg2.win w).isOut = false)
    (h3 : b ∉ hostOps3_W) (h3_1 : b ∉ hostOps3_1_W) (h3_2 : b ∉ hostOps3_2_W) :
    W13 m c (Proc.devRef .tc b) = m ((c : Thread nD τ).loc b) :=
  calc W13 m c (Proc.devRef .tc b)
    _ = W12 m c (Proc.devRef .tc b) := StableHlo.after_of_writes_sub hostOps3_2 _ hostOps3_2_writes h3_2
    _ = W11 m c (Proc.devRef .tc b) := StableHlo.after_of_writes_sub hostOps3_1 _ hostOps3_1_writes h3_1
    _ = W10 m c (Proc.devRef .tc b) := StableHlo.after_of_writes_sub hostOps3 _ hostOps3_writes h3
    _ = W9 m c (Proc.devRef .tc b) := W10_keep m c b r2
    _ = W8 m c (Proc.devRef .tc b) := StableHlo.after_of_writes_sub hostOps2_4 _ hostOps2_4_writes h2_4
    _ = W7 m c (Proc.devRef .tc b) := StableHlo.after_of_writes_sub hostOps2_3 _ hostOps2_3_writes h2_3
    _ = W6 m c (Proc.devRef .tc b) := StableHlo.after_of_writes_sub hostOps2_2 _ hostOps2_2_writes h2_2
    _ = W5 m c (Proc.devRef .tc b) := StableHlo.after_of_writes_sub hostOps2_1 _ hostOps2_1_writes h2_1
    _ = W4 m c (Proc.devRef .tc b) := StableHlo.after_of_writes_sub hostOps2 _ hostOps2_writes h2
    _ = W3 m c (Proc.devRef .tc b) := W4_keep m c b r1
    _ = W2 m c (Proc.devRef .tc b) := StableHlo.after_of_writes_sub hostOps1 _ hostOps1_writes h1
    _ = W1 m c (Proc.devRef .tc b) := W2_keep m c b r0
    _ = W0 m c (Proc.devRef .tc b) := StableHlo.after_of_writes_sub hostOps0 _ hostOps0_writes h0
    _ = m ((c : Thread nD τ).loc b) := rfl

/-! ### The seventeen arguments: none is written by a host stretch, none is a region's output array -/

theorem W13_main_arg0 (c : Dev nD) : W13 m c (Proc.devRef .tc main_arg0) = m ((c : Thread nD τ).loc main_arg0) :=
  W13_keep m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_keep m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_keep m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_keep m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_keep m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_keep m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_keep m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_keep m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_keep m c main_arg8 (by decide) (by decide) (by decide) (by decide) (by decide) (by decide) (by decide) (by decide) (by decide) (by decide) (by decide) (by decide) (by decide)
theorem W13_main_arg9 (c : Dev nD) : W13 m c (Proc.devRef .tc main_arg9) = m ((c : Thread nD τ).loc main_arg9) :=
  W13_keep m c main_arg9 (by decide) (by decide) (by decide) (by decide) (by decide) (by decide) (by decide) (by decide) (by decide) (by decide) (by decide) (by decide) (by decide)
theorem W13_main_arg10 (c : Dev nD) : W13 m c (Proc.devRef .tc main_arg10) = m ((c : Thread nD τ).loc main_arg10) :=
  W13_keep m c main_arg10 (by decide) (by decide) (by decide) (by decide) (by decide) (by decide) (by decide) (by decide) (by decide) (by decide) (by decide) (by decide) (by decide)
theorem W13_main_arg11 (c : Dev nD) : W13 m c (Proc.devRef .tc main_arg11) = m ((c : Thread nD τ).loc main_arg11) :=
  W13_keep m c main_arg11 (by decide) (by decide) (by decide) (by decide) (by decide) (by decide) (by decide) (by decide) (by decide) (by decide) (by decide) (by decide) (by decide)
theorem W13_main_arg12 (c : Dev nD) : W13 m c (Proc.devRef .tc main_arg12) = m ((c : Thread nD τ).loc main_arg12) :=
  W13_keep m c main_arg12 (by decide) (by decide) (by decide) (by decide) (by decide) (by decide) (by decide) (by decide) (by decide) (by decide) (by decide) (by decide) (by decide)
theorem W13_main_arg13 (c : Dev nD) : W13 m c (Proc.devRef .tc main_arg13) = m ((c : Thread nD τ).loc main_arg13) :=
  W13_keep m c main_arg13 (by decide) (by decide) (by decide) (by decide) (by decide) (by decide) (by decide) (by decide) (by decide) (by decide) (by decide) (by decide) (by decide)
theorem W13_main_arg14 (c : Dev nD) : W13 m c (Proc.devRef .tc main_arg14) = m ((c : Thread nD τ).loc main_arg14) :=
  W13_keep m c main_arg14 (by decide) (by decide) (by decide) (by decide) (by decide) (by decide) (by decide) (by decide) (by decide) (by decide) (by decide) (by decide) (by decide)
theorem W13_main_arg15 (c : Dev nD) : W13 m c (Proc.devRef .tc main_arg15) = m ((c : Thread nD τ).loc main_arg15) :=
  W13_keep m c main_arg15 (by decide) (by decide) (by decide) (by decide) (by decide) (by decide) (by decide) (by decide) (by decide) (by decide) (by decide) (by decide) (by decide)
theorem W13_main_arg16 (c : Dev nD) : W13 m c (Proc.devRef .tc main_arg16) = m ((c : Thread nD τ).loc main_arg16) :=
  W13_keep m c main_arg16 (by decide) (by decide) (by decide) (by decide) (by decide) (by decide) (by decide) (by decide) (by decide) (by decide) (by decide) (by decide) (by decide)

/-! ## The proof data family and the thread state -/

/-- Every pipeline's proof data, each at the contents its region is entered from — a literal match on the pipeline's
    index, so that the pinned configuration at a numeral reduces to the region's own. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the stretch's operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed (the launch ends at it BESIDE the core owing nothing): every unscoped
    buffer at the last boundary's contents, the generator register at some state. -/
abbrev Tₙ (c : Dev nD) : sProp 𝕄 := iprop(StableHlo.held (c : Thread nD τ) (Pipeline.ucRefs τ sig) (W13 m c) ∗ ∃ r, prngReg c r)

/-! ## The regions as segments

Each region is entered from every unscoped buffer at the boundary's contents and left with them at the next
boundary's: its arrays are split out of the unscoped buffers at entry and put back at the exit contents; the
generator register goes into the pipeline's invariant and comes out; nothing is owed; the kernel has no semaphore
of its own. The body obligation is a hypothesis here. -/

-- applying a library lemma stated over the pinned configuration unifies with the region's own configuration only
-- when unification may unfold plain definitions in a metavariable's type
set_option backward.isDefEq.respectTransparency.types false in
/-- REGION 0 over the thread state: entered from every unscoped buffer at `W1`, left at `W2` (what the second host stretch is entered from). -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the region's own configuration only
-- when unification may unfold plain definitions in a metavariable's type
set_option backward.isDefEq.respectTransparency.types false in
/-- REGION 1 over the thread state: entered from every unscoped buffer at `W3`, left at `W4` (what the third host stretch is entered from). -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the region's own configuration only
-- when unification may unfold plain definitions in a metavariable's type
set_option backward.isDefEq.respectTransparency.types false in
/-- REGION 2 over the thread state: entered from every unscoped buffer at `W9`, left at `W10` (what the eighth host stretch is entered from). -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch's exit state regrouped: the buffers and the generator register on one side, the core owing
    nothing on the other (the shape the launch theorem ends at). -/
theorem last_regroup (c : Dev nD) :
    (iprop(StableHlo.held (c : Thread nD τ) (Pipeline.ucRefs τ sig) (W13 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

/-- @main's thirteen segments in order: a host segment per stretch from its boundary's contents, a region per kernel. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m hb2),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)) ]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final memory holds at every unscoped buffer of every core what the fold names at the
    last boundary. @main is the chain of its items, which is the segments' run; the thread states chain by name (the
    last one reassociated to stand beside the core owing nothing); the first is made from what the launch deals; the
    last is read against the final state. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W13 m c b) :=
  Pipeline.θ_run_regions_kit (pcfgs (F := F)) adm (pdats m) () cellOf_inj emb₁ defs₀ 𝒱₀ L lv m ρ main (segs m hb0 hb1 hb2)
    (fun c Q => by
      rewrite [main_chain c, Pipeline.Seg.run_eq_chain,
        show (segs m hb0 hb1 hb2).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-! ## What the run says of the arguments and of the result -/

/-- THE FRAME: the run, read at the seventeen arguments — each is an unscoped buffer, and the last fold holds there
    what the launch memory held. -/
theorem frame (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c),
      (h c _ (mem_uc main_arg11 (by decide))).trans (W13_main_arg11 m c),
      (h c _ (mem_uc main_arg12 (by decide))).trans (W13_main_arg12 m c),
      (h c _ (mem_uc main_arg13 (by decide))).trans (W13_main_arg13 m c),
      (h c _ (mem_uc main_arg14 (by decide))).trans (W13_main_arg14 m c),
      (h c _ (mem_uc main_arg15 (by decide))).trans (W13_main_arg15 m c),
      (h c _ (mem_uc main_arg16 (by decide))).trans (W13_main_arg16 m c)⟩) (run_all hb0 hb1 hb2 m ρ)

/-- THE VALUE: the run, read at the result buffer — it ends at what the last fold names there — beside the
    seventeen arguments as launched. -/
theorem run_value (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v106) = W13 m c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v106 (by decide)),
      (h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c),
      (h c _ (mem_uc main_arg11 (by decide))).trans (W13_main_arg11 m c),
      (h c _ (mem_uc main_arg12 (by decide))).trans (W13_main_arg12 m c),
      (h c _ (mem_uc main_arg13 (by decide))).trans (W13_main_arg13 m c),
      (h c _ (mem_uc main_arg14 (by decide))).trans (W13_main_arg14 m c),
      (h c _ (mem_uc main_arg15 (by decide))).trans (W13_main_arg15 m c),
      (h c _ (mem_uc main_arg16 (by decide))).trans (W13_main_arg16 m c)⟩) (run_all hb0 hb1 hb2 m ρ)

end Cert.Kernel.Hand

end
-- ==== Proof.K.Body0.lean ====
/-
  Region 0's body obligation: at every grid point the projection kernel, handed the row tile and the weight
  block in its two input staging buffers and anything in the output staging buffer, leaves the inputs as they
  were and the output tile at the product (`out0_2`), the region's invariant and debts passing through unread.
-/
import proofs.«101283_j438086664594_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: what the input staging buffers hold when the body runs -/

/-- The row tile: the staging buffer the body is handed for window 0 holds the window's block at every grid
    point, whether or not the block was copied in at that point (where it was not, the block index has not moved
    since the point before, and the body left the block in place), for any proof data over the entry arrays whose
    body leaves the block where it found it. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- The weight block (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-! # The body's one store covers the output tile -/

/-- The single whole-tile rectangle contains every index of the output tile. -/
theorem tile_cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! # The kernel's triple -/

set_option maxHeartbeats 1000000 in
/-- The projection kernel on whole staging memrefs — the row tile at `x0`, the weight block at `x1`, the output
    tile at anything — runs to the continuation holding the inputs as they were and the output tile at
    `out0_2 x0 x1`: it reads both inputs whole, reads the output tile (a value nothing uses), and overwrites the
    output tile whole with the product. -/
theorem sound_kernel0 (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover0_2 _)

/-! # The body obligation, at a generic grid point -/

/-- What the body is handed at point `t`: the region's invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, each staging buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: each input staging buffer holds its window's block (`before0_w`), so the kernel's
    triple applies with the blocks for the inputs; the invariant and the debts are the same before and after, and pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's body obligation: at every grid point the edge-projection kernel, handed the edge tile, the two weight
  blocks and the bias row in its four input staging buffers and anything in the two output staging buffers, leaves
  the inputs as they were, the edge-feature tile at `out1_4` and the edge-bias tile at `out1_5`, the region's
  invariant and debts passing through unread.
-/
import proofs.«101283_j438086664594_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 1: what the input staging buffers hold when the body runs -/

/-- The edge tile: the staging buffer the body is handed for window 0 holds the window's block at every grid
    point, whether or not the block was copied in at that point (where it was not, the block index has not moved
    since the point before, and the body left the block in place), for any proof data over the entry arrays whose
    body leaves the block where it found it. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- The feature weight (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- The bias weight (constant index): the staging buffer the body is handed for window 2 holds the window's block at every grid
    point, whether or not the block was copied in at that point (where it was not, the block index has not moved
    since the point before, and the body left the block in place), for any proof data over the entry arrays whose
    body leaves the block where it found it. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The bias row (constant index): the staging buffer the body is handed for window 3 holds the window's block at every grid
    point, whether or not the block was copied in at that point (where it was not, the block index has not moved
    since the point before, and the body left the block in place), for any proof data over the entry arrays whose
    body leaves the block where it found it. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-! # Each output tile's one store covers it -/

/-- The single whole-tile rectangle contains every index of the edge-feature tile. -/
theorem tile_cover1_4 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

/-- The single whole-tile rectangle contains every index of the edge-bias tile. -/
theorem tile_cover1_5 (p0 : Vec F S8000x8 .f32) (y : S8000x8.Idx) :
    ∃ pc ∈ ([⟨r1_5, p0⟩] : List (View.Piece (Elt F) S8000x8 .f32)), y ∈ pc.1.set :=
  View.cover_of_tiled [⟨r1_5, p0⟩] S8000x8.size (by rfl) y

/-! # The kernel's triple -/

set_option maxHeartbeats 1000000 in
/-- The edge-projection kernel on whole staging memrefs — the edge tile at `x0`, the feature weight at `x1`, the bias
    weight at `x2`, the bias row at `x3`, the two output tiles at anything — runs to the continuation holding the
    inputs as they were, the edge-feature tile at `out1_4 x0 x1` and the edge-bias tile at `out1_5 x0 x2 x3`: it
    reads the edge tile and both weights whole, overwrites the edge-feature tile whole with the first product, then
    reads the bias row and overwrites the edge-bias tile whole with the second product plus the bias row (before each
    store it also reads the tile it is about to overwrite, a value nothing uses). -/
theorem sound_kernel1 (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S128x8 .f32) (harg3 : arg3.IsWhole)
    (arg4 : Memref sig .tc .vmem S1x8 .f32) (harg4 : arg4.IsWhole)
    (arg5 : Memref sig .tc .vmem S8000x128 .f32) (harg5 : arg5.IsWhole)
    (arg6 : Memref sig .tc .vmem S8000x8 .f32) (harg6 : arg6.IsWhole)
    (x0 : Vec F S8000x128 .f32) (x1 : Vec F S128x128 .f32) (x2 : Vec F S128x8 .f32) (x3 : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1)
            ∗ owns (c : Thread nD τ) arg6 fullShare (out1_5 x0 x2 x3)) -∗ K ⟨⟩))
      ⊢ wp frame (wpE (defs₀ (F := F)) Variants.none c none) E
          (cc1__edge_proj_kernel i arg1 harg1 arg2 harg2 arg3 harg3 arg4 harg4 arg5 harg5 arg6 harg6) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (tile_cover1_4 _)
  iexists _; isplitr
  swap; · iexact H5
  ipureintro
  exact View.read_writes_eq_canon _ _ _ (tile_cover1_5 _)

/-! # The body obligation, at a generic grid point -/

/-- What the body is handed at point `t`: the region's invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each staging buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: each input staging buffer holds its window's block (`before1_w`), so the kernel's
    triple applies with the blocks for the inputs; the invariant and the debts are the same before and after, and pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2's body obligation: at every grid point the feed-forward kernel, handed the row tile, the two layers'
  weights and bias rows in its five input staging buffers and anything in the output staging buffer, leaves the
  inputs as they were and the output tile at `out2_5`, the region's invariant and debts passing through unread.
-/
import proofs.«101283_j438086664594_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 2: what the input staging buffers hold when the body runs -/

/-- The row tile: the staging buffer the body is handed for window 0 holds the window's block at every grid
    point, whether or not the block was copied in at that point (where it was not, the block index has not moved
    since the point before, and the body left the block in place), for any proof data over the entry arrays whose
    body leaves the block where it found it. The window is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- The first layer's weight (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- The first layer's bias row (constant index): the staging buffer the body is handed for window 2 holds the window's block at every grid
    point, whether or not the block was copied in at that point (where it was not, the block index has not moved
    since the point before, and the body left the block in place), for any proof data over the entry arrays whose
    body leaves the block where it found it. The window is never cut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- The second layer's weight (constant index): the staging buffer the body is handed for window 3 holds the window's block at every grid
    point, whether or not the block was copied in at that point (where it was not, the block index has not moved
    since the point before, and the body left the block in place), for any proof data over the entry arrays whose
    body leaves the block where it found it. The window is never cut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-- The second layer's bias row (constant index): the staging buffer the body is handed for window 4 holds the window's block at every grid
    point, whether or not the block was copied in at that point (where it was not, the block index has not moved
    since the point before, and the body left the block in place), for any proof data over the entry arrays whose
    body leaves the block where it found it. The window is never cut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

/-! # The body's one store covers the output tile -/

/-- The single whole-tile rectangle contains every index of the output tile. -/
theorem tile_cover2_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! # The kernel's triple -/

set_option maxHeartbeats 1000000 in
/-- The feed-forward kernel on whole staging memrefs — the row tile at `x0`, the first layer's weight and bias row at
    `x1`, `x2`, the second layer's at `x3`, `x4`, the output tile at anything — runs to the continuation holding the
    inputs as they were and the output tile at `out2_5 x0 x1 x2 x3 x4`: it reads the five inputs whole, reads the
    output tile (a value nothing uses), and overwrites the output tile whole with the second layer of the rectified
    first layer. -/
theorem sound_kernel2 (c : Dev nD) (E : Set ℕ) (i : grid2.Coords)
    (arg1 : Memref sig .tc .vmem S5000x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S128x256 .f32) (x2 : Vec F S1x256 .f32) (x3 : Vec F S256x128 .f32)
    (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__ffn_kernel i arg1 harg1 arg2 harg2 arg3 harg3 arg4 harg4 arg5 harg5 arg6 harg6) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover2_5 _)

/-! # The body obligation, at a generic grid point -/

/-- What the body is handed at point `t`: the region's invariant, the core's debts, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it hands back: the same invariant and debts, each staging buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: each input staging buffer holds its window's block (`before2_w`), so the kernel's
    triple applies with the blocks for the inputs; the invariant and the debts are the same before and after, and pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KI.Data.lean ====
/-
  The three kernel regions' data at a parameter `V` (the buffer contents when a region is entered): for each
  region the block a window shows at a grid point, what the body stores in each output tile as a function of
  the input tiles, and the pipeline's proof data built from them (arrays as entered, inputs left in place,
  outputs at the stored value, nothing owed, full shares).
-/
import proofs.«101283_j438086664594_1_alg».proof.Proof.Gen.KernelIdeal.Launch
import proofs.«101283_j438086664594_1_alg».proof.Proof.Gen.KernelIdeal.Skeleton
import proofs.«101283_j438086664594_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every region's half is stated at this parameter
variable (V : (c : Dev nD) → (b : Ref sig .tc) → Buf (Elt F) ((c : Thread nD τ).loc b))

/-! # Region 0: the fused projection `h · [Wq; Wk; Wv]ᵀ`, ten row tiles of 5000 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-- What the body leaves in the output tile: one whole-tile store of the product of the row tile with the weight block. -/
def out0_2 (x0 : Vec F S5000x128 .f32) (x1 : Vec F S128x384 .f32) : Vec F S5000x384 .f32 :=
  View.canon [⟨r0_2, k0_pay1 (View.ld x0 r0_0) (View.ld x1 r0_1)⟩]

/-- The proof data of region 0: arrays as entered; after the body each input tile in place, the output tile at `out0_2`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! # Region 1: the two edge projections sharing one read of the edge tile, two hundred row tiles of 8000 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8000x128 := Rect.unit (s := S8000x128) ![0, 0] S8000x128.size inb_S8000x128_S8000x128_0_0
abbrev r1_1 : Rect S128x128 := Rect.unit (s := S128x128) ![0, 0] S128x128.size inb_S128x128_S128x128_0_0
abbrev r1_2 : Rect S128x8 := Rect.unit (s := S128x8) ![0, 0] S128x8.size inb_S128x8_S128x8_0_0
abbrev r1_3 : Rect S1x8 := Rect.unit (s := S1x8) ![0, 0] S1x8.size inb_S1x8_S1x8_0_0
abbrev r1_5 : Rect S8000x8 := Rect.unit (s := S8000x8) ![0, 0] S8000x8.size inb_S8000x8_S8000x8_0_0

/-- The edge-feature tile: the edge tile times the feature weight. -/
def out1_4 (x0 : Vec F S8000x128 .f32) (x1 : Vec F S128x128 .f32) : Vec F S8000x128 .f32 :=
  View.canon [⟨r1_0, k1_pay2 (View.ld x0 r1_0) (View.ld x1 r1_1)⟩]
/-- The edge-bias tile: the edge tile times the bias weight, plus the bias row. -/
def out1_5 (x0 : Vec F S8000x128 .f32) (x2 : Vec F S128x8 .f32) (x3 : Vec F S1x8 .f32) : Vec F S8000x8 .f32 :=
  View.canon [⟨r1_5, k1_pay3 (View.ld x0 r1_0) (View.ld x2 r1_2) (View.ld x3 r1_3)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 2 t) (iblk1 V c 3 t) := by dsimp only [dat1]

/-! # Region 2: the two-layer feed-forward block on a row tile, ten row tiles of 5000 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x128 := Rect.unit (s := S256x128) ![0, 0] S256x128.size inb_S256x128_S256x128_0_0
abbrev r2_4 : Rect S1x128 := Rect.unit (s := S1x128) ![0, 0] S1x128.size inb_S1x128_S1x128_0_0

/-- The output tile: the second layer applied to the rectified first layer of the row tile. -/
def out2_5 (x0 : Vec F S5000x128 .f32) (x1 : Vec F S128x256 .f32) (x2 : Vec F S1x256 .f32) (x3 : Vec F S256x128 .f32) (x4 : Vec F S1x128 .f32) : Vec F S5000x128 .f32 :=
  View.canon [⟨r0_0, k2_pay1 (View.ld x0 r0_0) (View.ld x1 r2_1) (View.ld x2 r2_2) (View.ld x3 r2_3) (View.ld x4 r2_4)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Cert.KernelIdeal.Hand

end
-- ==== Proof.KI.Fold.lean ====
/-
  The buffer contents of a core at each boundary between two items of the program (a stretch of host operations,
  or a kernel region), as a fold from the launch memory: a host stretch applies its operations; a region leaves
  each of its windows' arrays at what its pipeline's write-backs produce and every other buffer as entered.
-/
import proofs.«101283_j438086664594_1_alg».proof.Proof.Gen.KernelIdeal.Launch
import proofs.«101283_j438086664594_1_alg».proof.Proof.Gen.KernelIdeal.Skeleton
import proofs.«101283_j438086664594_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101283_j438086664594_1_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After the host stretch `hostOps2_1`. -/
abbrev W6 : Dev nD → Valuation τ sig (Elt F) := fun c => StableHlo.after hostOps2_1 (W5 m c)
abbrev V6 : (c : Dev nD) → (b : Ref sig .tc) → Buf (Elt F) ((c : Thread nD τ).loc b) := fun c b => W6 m c b

/-- After the host stretch `hostOps2_2`. -/
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b

/-- After the host stretch `hostOps2_3`. -/
abbrev W8 : Dev nD → Valuation τ sig (Elt F) := fun c => StableHlo.after hostOps2_3 (W7 m c)
abbrev V8 : (c : Dev nD) → (b : Ref sig .tc) → Buf (Elt F) ((c : Thread nD τ).loc b) := fun c b => W8 m c b

/-- After the host stretch `hostOps2_4`. -/
abbrev W9 : Dev nD → Valuation τ sig (Elt F) := fun c => StableHlo.after hostOps2_4 (W8 m c)
abbrev V9 : (c : Dev nD) → (b : Ref sig .tc) → Buf (Elt F) ((c : Thread nD τ).loc b) := fun c b => W9 m c b

/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the host stretch `hostOps3`. -/
abbrev W11 : Dev nD → Valuation τ sig (Elt F) := fun c => StableHlo.after hostOps3 (W10 m c)
abbrev V11 : (c : Dev nD) → (b : Ref sig .tc) → Buf (Elt F) ((c : Thread nD τ).loc b) := fun c b => W11 m c b

/-- After the host stretch `hostOps3_1`. -/
abbrev W12 : Dev nD → Valuation τ sig (Elt F) := fun c => StableHlo.after hostOps3_1 (W11 m c)
abbrev V12 : (c : Dev nD) → (b : Ref sig .tc) → Buf (Elt F) ((c : Thread nD τ).loc b) := fun c b => W12 m c b

/-- After the host stretch `hostOps3_2`. -/
abbrev W13 : Dev nD → Valuation τ sig (Elt F) := fun c => StableHlo.after hostOps3_2 (W12 m c)
abbrev V13 : (c : Dev nD) → (b : Ref sig .tc) → Buf (Elt F) ((c : Thread nD τ).loc b) := fun c b => W13 m c b

end Cert.KernelIdeal.Hand

end
-- ==== Proof.KI.Run.lean ====
/-
  The run of the program. @main is thirteen items in order: ten stretches of host operations and three kernel
  regions. Each item is a segment over one thread state — every unscoped buffer of the core held whole at the
  contents the fold names at that boundary (`W0` … `W13`), beside the generator register at some state and the
  core owing nothing. A host stretch takes the buffers from one boundary's contents to the next by applying its
  operations; a region splits its windows' arrays out of the buffers, runs its pipeline over them, and puts them
  back at what the write-backs leave. The launch theorem over the thirteen segments gives: every weakly fair
  execution terminates, nothing faults, and the final memory holds, at every unscoped buffer, the last fold.
  A buffer that no host stretch writes and that is no region's output array is read back through the fold to the
  launch memory: in particular each of the seventeen arguments.
-/
import proofs.«101283_j438086664594_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101283_j438086664594_1_alg».proof.Proof.KI.Fold
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer nothing writes holds at the end what it held at launch

A host stretch leaves a reference outside the list of those it writes as it was. A region leaves a reference that
is none of its arrays as it was; and an array of one of its INPUT windows too, since the write-backs only touch
output arrays. -/

/-- Region 0 leaves `b` as entered when every window whose array is `b` is an input window. -/
theorem W2_keep (c : Dev nD) (b : Ref sig .tc)
    (hb : ∀ w : Fin cfg0.W, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩

/-- Region 1 leaves `b` as entered when every window whose array is `b` is an input window. -/
theorem W4_keep (c : Dev nD) (b : Ref sig .tc)
    (hb : ∀ w : Fin cfg1.W, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (V3 m) c).arrAt_in w (hb w rfl) _).trans (A_eq1 (V3 m) c w))
  · exact W4_of_ne m c b fun w e => h ⟨w, e⟩

/-- Region 2 leaves `b` as entered when every window whose array is `b` is an input window. -/
theorem W10_keep (c : Dev nD) (b : Ref sig .tc)
    (hb : ∀ w : Fin cfg2.W, Pipeline.arrRef spec2 w = b → (cfg2.win w).isOut = false) :
    W10 m c (Proc.devRef .tc b) = W9 m c (Proc.devRef .tc b) := by
  by_cases h : ∃ w, Pipeline.arrRef spec2 w = b
  · obtain ⟨w, rfl⟩ := h
    exact (W10_arr m c w).trans (((dat2 (V9 m) c).arrAt_in w (hb w rfl) _).trans (A_eq2 (V9 m) c w))
  · exact W10_of_ne m c b fun w e => h ⟨w, e⟩

/-- A reference written by no host stretch and the output array of no region reads, at the last boundary, what the
    launch memory holds there: the fold walked back item by item. -/
theorem W13_keep (c : Dev nD) (b : Ref sig .tc)
    (h0 : b ∉ hostOps0_W) (r0 : ∀ w : Fin cfg0.W, Pipeline.arrRef spec0 w = b → (cfg0.win w).isOut = false)
    (h1 : b ∉ hostOps1_W) (r1 : ∀ w : Fin cfg1.W, Pipeline.arrRef spec1 w = b → (cfg1.win w).isOut = false)
    (h2 : b ∉ hostOps2_W) (h2_1 : b ∉ hostOps2_1_W) (h2_2 : b ∉ hostOps2_2_W) (h2_3 : b ∉ hostOps2_3_W) (h2_4 : b ∉ hostOps2_4_W)
    (r2 : ∀ w : Fin cfg2.W, Pipeline.arrRef spec2 w = b → (cfg2.win w).isOut = false)
    (h3 : b ∉ hostOps3_W) (h3_1 : b ∉ hostOps3_1_W) (h3_2 : b ∉ hostOps3_2_W) :
    W13 m c (Proc.devRef .tc b) = m ((c : Thread nD τ).loc b) :=
  calc W13 m c (Proc.devRef .tc b)
    _ = W12 m c (Proc.devRef .tc b) := StableHlo.after_of_writes_sub hostOps3_2 _ hostOps3_2_writes h3_2
    _ = W11 m c (Proc.devRef .tc b) := StableHlo.after_of_writes_sub hostOps3_1 _ hostOps3_1_writes h3_1
    _ = W10 m c (Proc.devRef .tc b) := StableHlo.after_of_writes_sub hostOps3 _ hostOps3_writes h3
    _ = W9 m c (Proc.devRef .tc b) := W10_keep m c b r2
    _ = W8 m c (Proc.devRef .tc b) := StableHlo.after_of_writes_sub hostOps2_4 _ hostOps2_4_writes h2_4
    _ = W7 m c (Proc.devRef .tc b) := StableHlo.after_of_writes_sub hostOps2_3 _ hostOps2_3_writes h2_3
    _ = W6 m c (Proc.devRef .tc b) := StableHlo.after_of_writes_sub hostOps2_2 _ hostOps2_2_writes h2_2
    _ = W5 m c (Proc.devRef .tc b) := StableHlo.after_of_writes_sub hostOps2_1 _ hostOps2_1_writes h2_1
    _ = W4 m c (Proc.devRef .tc b) := StableHlo.after_of_writes_sub hostOps2 _ hostOps2_writes h2
    _ = W3 m c (Proc.devRef .tc b) := W4_keep m c b r1
    _ = W2 m c (Proc.devRef .tc b) := StableHlo.after_of_writes_sub hostOps1 _ hostOps1_writes h1
    _ = W1 m c (Proc.devRef .tc b) := W2_keep m c b r0
    _ = W0 m c (Proc.devRef .tc b) := StableHlo.after_of_writes_sub hostOps0 _ hostOps0_writes h0
    _ = m ((c : Thread nD τ).loc b) := rfl

/-! ### The seventeen arguments: none is written by a host stretch, none is a region's output array -/

theorem W13_main_arg0 (c : Dev nD) : W13 m c (Proc.devRef .tc main_arg0) = m ((c : Thread nD τ).loc main_arg0) :=
  W13_keep m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_keep m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_keep m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_keep m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_keep m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_keep m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_keep m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_keep m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_keep m c main_arg8 (by decide) (by decide) (by decide) (by decide) (by decide) (by decide) (by decide) (by decide) (by decide) (by decide) (by decide) (by decide) (by decide)
theorem W13_main_arg9 (c : Dev nD) : W13 m c (Proc.devRef .tc main_arg9) = m ((c : Thread nD τ).loc main_arg9) :=
  W13_keep m c main_arg9 (by decide) (by decide) (by decide) (by decide) (by decide) (by decide) (by decide) (by decide) (by decide) (by decide) (by decide) (by decide) (by decide)
theorem W13_main_arg10 (c : Dev nD) : W13 m c (Proc.devRef .tc main_arg10) = m ((c : Thread nD τ).loc main_arg10) :=
  W13_keep m c main_arg10 (by decide) (by decide) (by decide) (by decide) (by decide) (by decide) (by decide) (by decide) (by decide) (by decide) (by decide) (by decide) (by decide)
theorem W13_main_arg11 (c : Dev nD) : W13 m c (Proc.devRef .tc main_arg11) = m ((c : Thread nD τ).loc main_arg11) :=
  W13_keep m c main_arg11 (by decide) (by decide) (by decide) (by decide) (by decide) (by decide) (by decide) (by decide) (by decide) (by decide) (by decide) (by decide) (by decide)
theorem W13_main_arg12 (c : Dev nD) : W13 m c (Proc.devRef .tc main_arg12) = m ((c : Thread nD τ).loc main_arg12) :=
  W13_keep m c main_arg12 (by decide) (by decide) (by decide) (by decide) (by decide) (by decide) (by decide) (by decide) (by decide) (by decide) (by decide) (by decide) (by decide)
theorem W13_main_arg13 (c : Dev nD) : W13 m c (Proc.devRef .tc main_arg13) = m ((c : Thread nD τ).loc main_arg13) :=
  W13_keep m c main_arg13 (by decide) (by decide) (by decide) (by decide) (by decide) (by decide) (by decide) (by decide) (by decide) (by decide) (by decide) (by decide) (by decide)
theorem W13_main_arg14 (c : Dev nD) : W13 m c (Proc.devRef .tc main_arg14) = m ((c : Thread nD τ).loc main_arg14) :=
  W13_keep m c main_arg14 (by decide) (by decide) (by decide) (by decide) (by decide) (by decide) (by decide) (by decide) (by decide) (by decide) (by decide) (by decide) (by decide)
theorem W13_main_arg15 (c : Dev nD) : W13 m c (Proc.devRef .tc main_arg15) = m ((c : Thread nD τ).loc main_arg15) :=
  W13_keep m c main_arg15 (by decide) (by decide) (by decide) (by decide) (by decide) (by decide) (by decide) (by decide) (by decide) (by decide) (by decide) (by decide) (by decide)
theorem W13_main_arg16 (c : Dev nD) : W13 m c (Proc.devRef .tc main_arg16) = m ((c : Thread nD τ).loc main_arg16) :=
  W13_keep m c main_arg16 (by decide) (by decide) (by decide) (by decide) (by decide) (by decide) (by decide) (by decide) (by decide) (by decide) (by decide) (by decide) (by decide)

/-! ## The proof data family and the thread state -/

/-- Every pipeline's proof data, each at the contents its region is entered from — a literal match on the pipeline's
    index, so that the pinned configuration at a numeral reduces to the region's own. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the stretch's operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed (the launch ends at it BESIDE the core owing nothing): every unscoped
    buffer at the last boundary's contents, the generator register at some state. -/
abbrev Tₙ (c : Dev nD) : sProp 𝕄 := iprop(StableHlo.held (c : Thread nD τ) (Pipeline.ucRefs τ sig) (W13 m c) ∗ ∃ r, prngReg c r)

/-! ## The regions as segments

Each region is entered from every unscoped buffer at the boundary's contents and left with them at the next
boundary's: its arrays are split out of the unscoped buffers at entry and put back at the exit contents; the
generator register goes into the pipeline's invariant and comes out; nothing is owed; the kernel has no semaphore
of its own. The body obligation is a hypothesis here. -/

-- applying a library lemma stated over the pinned configuration unifies with the region's own configuration only
-- when unification may unfold plain definitions in a metavariable's type
set_option backward.isDefEq.respectTransparency.types false in
/-- REGION 0 over the thread state: entered from every unscoped buffer at `W1`, left at `W2` (what the second host stretch is entered from). -/
def reg0 (hb0 : ∀ (V : (c : Dev nD) → (b : Ref sig .tc) → Buf (Elt F) ((c : Thread nD τ).loc b)) (c : Dev nD), BodyObligation (dat0 (F := F) V c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the region's own configuration only
-- when unification may unfold plain definitions in a metavariable's type
set_option backward.isDefEq.respectTransparency.types false in
/-- REGION 1 over the thread state: entered from every unscoped buffer at `W3`, left at `W4` (what the third host stretch is entered from). -/
def reg1 (hb1 : ∀ (V : (c : Dev nD) → (b : Ref sig .tc) → Buf (Elt F) ((c : Thread nD τ).loc b)) (c : Dev nD), BodyObligation (dat1 (F := F) V c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the region's own configuration only
-- when unification may unfold plain definitions in a metavariable's type
set_option backward.isDefEq.respectTransparency.types false in
/-- REGION 2 over the thread state: entered from every unscoped buffer at `W9`, left at `W10` (what the eighth host stretch is entered from). -/
def reg2 (hb2 : ∀ (V : (c : Dev nD) → (b : Ref sig .tc) → Buf (Elt F) ((c : Thread nD τ).loc b)) (c : Dev nD), BodyObligation (dat2 (F := F) V c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch's exit state regrouped: the buffers and the generator register on one side, the core owing
    nothing on the other (the shape the launch theorem ends at). -/
theorem last_regroup (c : Dev nD) :
    (iprop(StableHlo.held (c : Thread nD τ) (Pipeline.ucRefs τ sig) (W13 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## @main as segments, and the launch -/

/-- @main's thirteen segments in order: a host segment per stretch from its boundary's contents, a region per kernel. -/
abbrev segs (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ) :
    List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m hb2),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)) ]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final memory holds at every unscoped buffer of every core what the fold names at the
    last boundary. @main is the chain of its items, which is the segments' run; the thread states chain by name (the
    last one reassociated to stand beside the core owing nothing); the first is made from what the launch deals; the
    last is read against the final state. -/
theorem run_all (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W13 m c b) :=
  Pipeline.θ_run_regions_kit (pcfgs (F := F)) adm (pdats m) () cellOf_inj emb₁ defs₀ 𝒱₀ L lv m ρ main (segs m hb0 hb1 hb2)
    (fun c Q => by
      rewrite [main_chain c, Pipeline.Seg.run_eq_chain,
        show (segs m hb0 hb1 hb2).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => last_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-! ## What the run says of the arguments and of the result -/

/-- THE FRAME: the run, read at the seventeen arguments — each is an unscoped buffer, and the last fold holds there
    what the launch memory held. -/
theorem frame (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c),
      (h c _ (mem_uc main_arg11 (by decide))).trans (W13_main_arg11 m c),
      (h c _ (mem_uc main_arg12 (by decide))).trans (W13_main_arg12 m c),
      (h c _ (mem_uc main_arg13 (by decide))).trans (W13_main_arg13 m c),
      (h c _ (mem_uc main_arg14 (by decide))).trans (W13_main_arg14 m c),
      (h c _ (mem_uc main_arg15 (by decide))).trans (W13_main_arg15 m c),
      (h c _ (mem_uc main_arg16 (by decide))).trans (W13_main_arg16 m c)⟩) (run_all hb0 hb1 hb2 m ρ)

/-- THE VALUE: the run, read at the result buffer — it ends at what the last fold names there — beside the
    seventeen arguments as launched. -/
theorem run_value (hb0 : ∀ (V : (c : Dev nD) → (b : Ref sig .tc) → Buf (Elt F) ((c : Thread nD τ).loc b)) (c : Dev nD), BodyObligation (dat0 (F := F) V c) (defs₀ (F := F)) Variants.none () Set.univ)
    (hb1 : ∀ (V : (c : Dev nD) → (b : Ref sig .tc) → Buf (Elt F) ((c : Thread nD τ).loc b)) (c : Dev nD), BodyObligation (dat1 (F := F) V c) (defs₀ (F := F)) Variants.none () Set.univ)
    (hb2 : ∀ (V : (c : Dev nD) → (b : Ref sig .tc) → Buf (Elt F) ((c : Thread nD τ).loc b)) (c : Dev nD), BodyObligation (dat2 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v106) = W13 m c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v106 (by decide)),
      (h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c),
      (h c _ (mem_uc main_arg6 (by decide))).trans (W13_main_arg6 m c),
      (h c _ (mem_uc main_arg7 (by decide))).trans (W13_main_arg7 m c),
      (h c _ (mem_uc main_arg8 (by decide))).trans (W13_main_arg8 m c),
      (h c _ (mem_uc main_arg9 (by decide))).trans (W13_main_arg9 m c),
      (h c _ (mem_uc main_arg10 (by decide))).trans (W13_main_arg10 m c),
      (h c _ (mem_uc main_arg11 (by decide))).trans (W13_main_arg11 m c),
      (h c _ (mem_uc main_arg12 (by decide))).trans (W13_main_arg12 m c),
      (h c _ (mem_uc main_arg13 (by decide))).trans (W13_main_arg13 m c),
      (h c _ (mem_uc main_arg14 (by decide))).trans (W13_main_arg14 m c),
      (h c _ (mem_uc main_arg15 (by decide))).trans (W13_main_arg15 m c),
      (h c _ (mem_uc main_arg16 (by decide))).trans (W13_main_arg16 m c)⟩) (run_all hb0 hb1 hb2 m ρ)

end Cert.KernelIdeal.Hand

end
-- ==== Proof.KI.Body0.lean ====
/-
  Region 0's body obligation: at every grid point the projection kernel, handed the row tile and the weight
  block in its two input staging buffers and anything in the output staging buffer, leaves the inputs as they
  were and the output tile at the product (`out0_2`), the region's invariant and debts passing through unread.
-/
import proofs.«101283_j438086664594_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: what the input staging buffers hold when the body runs -/

/-- The row tile: the staging buffer the body is handed for window 0 holds the window's block at every grid
    point, whether or not the block was copied in at that point (where it was not, the block index has not moved
    since the point before, and the body left the block in place), for any proof data over the entry arrays whose
    body leaves the block where it found it. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- The weight block (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-! # The body's one store covers the output tile -/

/-- The single whole-tile rectangle contains every index of the output tile. -/
theorem tile_cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-! # The kernel's triple -/

set_option maxHeartbeats 1000000 in
/-- The projection kernel on whole staging memrefs — the row tile at `x0`, the weight block at `x1`, the output
    tile at anything — runs to the continuation holding the inputs as they were and the output tile at
    `out0_2 x0 x1`: it reads both inputs whole, reads the output tile (a value nothing uses), and overwrites the
    output tile whole with the product. -/
theorem sound_kernel0 (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover0_2 _)

/-! # The body obligation, at a generic grid point -/

/-- What the body is handed at point `t`: the region's invariant, the core's debts, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, each staging buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: each input staging buffer holds its window's block (`before0_w`), so the kernel's
    triple applies with the blocks for the inputs; the invariant and the debts are the same before and after, and pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body obligation: at every grid point the edge-projection kernel, handed the edge tile, the two weight
  blocks and the bias row in its four input staging buffers and anything in the two output staging buffers, leaves
  the inputs as they were, the edge-feature tile at `out1_4` and the edge-bias tile at `out1_5`, the region's
  invariant and debts passing through unread.
-/
import proofs.«101283_j438086664594_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 1: what the input staging buffers hold when the body runs -/

/-- The edge tile: the staging buffer the body is handed for window 0 holds the window's block at every grid
    point, whether or not the block was copied in at that point (where it was not, the block index has not moved
    since the point before, and the body left the block in place), for any proof data over the entry arrays whose
    body leaves the block where it found it. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- The feature weight (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- The bias weight (constant index): the staging buffer the body is handed for window 2 holds the window's block at every grid
    point, whether or not the block was copied in at that point (where it was not, the block index has not moved
    since the point before, and the body left the block in place), for any proof data over the entry arrays whose
    body leaves the block where it found it. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The bias row (constant index): the staging buffer the body is handed for window 3 holds the window's block at every grid
    point, whether or not the block was copied in at that point (where it was not, the block index has not moved
    since the point before, and the body left the block in place), for any proof data over the entry arrays whose
    body leaves the block where it found it. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-! # Each output tile's one store covers it -/

/-- The single whole-tile rectangle contains every index of the edge-feature tile. -/
theorem tile_cover1_4 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

/-- The single whole-tile rectangle contains every index of the edge-bias tile. -/
theorem tile_cover1_5 (p0 : Vec F S8000x8 .f32) (y : S8000x8.Idx) :
    ∃ pc ∈ ([⟨r1_5, p0⟩] : List (View.Piece (Elt F) S8000x8 .f32)), y ∈ pc.1.set :=
  View.cover_of_tiled [⟨r1_5, p0⟩] S8000x8.size (by rfl) y

/-! # The kernel's triple -/

set_option maxHeartbeats 1000000 in
/-- The edge-projection kernel on whole staging memrefs — the edge tile at `x0`, the feature weight at `x1`, the bias
    weight at `x2`, the bias row at `x3`, the two output tiles at anything — runs to the continuation holding the
    inputs as they were, the edge-feature tile at `out1_4 x0 x1` and the edge-bias tile at `out1_5 x0 x2 x3`: it
    reads the edge tile and both weights whole, overwrites the edge-feature tile whole with the first product, then
    reads the bias row and overwrites the edge-bias tile whole with the second product plus the bias row (before each
    store it also reads the tile it is about to overwrite, a value nothing uses). -/
theorem sound_kernel1 (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S128x8 .f32) (harg3 : arg3.IsWhole)
    (arg4 : Memref sig .tc .vmem S1x8 .f32) (harg4 : arg4.IsWhole)
    (arg5 : Memref sig .tc .vmem S8000x128 .f32) (harg5 : arg5.IsWhole)
    (arg6 : Memref sig .tc .vmem S8000x8 .f32) (harg6 : arg6.IsWhole)
    (x0 : Vec F S8000x128 .f32) (x1 : Vec F S128x128 .f32) (x2 : Vec F S128x8 .f32) (x3 : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1)
            ∗ owns (c : Thread nD τ) arg6 fullShare (out1_5 x0 x2 x3)) -∗ K ⟨⟩))
      ⊢ wp frame (wpE (defs₀ (F := F)) Variants.none c none) E
          (cc1__edge_proj_kernel i arg1 harg1 arg2 harg2 arg3 harg3 arg4 harg4 arg5 harg5 arg6 harg6) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (tile_cover1_4 _)
  iexists _; isplitr
  swap; · iexact H5
  ipureintro
  exact View.read_writes_eq_canon _ _ _ (tile_cover1_5 _)

/-! # The body obligation, at a generic grid point -/

/-- What the body is handed at point `t`: the region's invariant, the core's debts, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, each staging buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point: each input staging buffer holds its window's block (`before1_w`), so the kernel's
    triple applies with the blocks for the inputs; the invariant and the debts are the same before and after, and pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2's body obligation: at every grid point the feed-forward kernel, handed the row tile, the two layers'
  weights and bias rows in its five input staging buffers and anything in the output staging buffer, leaves the
  inputs as they were and the output tile at `out2_5`, the region's invariant and debts passing through unread.
-/
import proofs.«101283_j438086664594_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 2: what the input staging buffers hold when the body runs -/

/-- The row tile: the staging buffer the body is handed for window 0 holds the window's block at every grid
    point, whether or not the block was copied in at that point (where it was not, the block index has not moved
    since the point before, and the body left the block in place), for any proof data over the entry arrays whose
    body leaves the block where it found it. The window is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- The first layer's weight (its index is constant: copied in at the first point only): the staging buffer the body is handed for window 1 holds the window's block at every grid
    point, whether or not the block was copied in at that point (where it was not, the block index has not moved
    since the point before, and the body left the block in place), for any proof data over the entry arrays whose
    body leaves the block where it found it. The window is never cut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- The first layer's bias row (constant index): the staging buffer the body is handed for window 2 holds the window's block at every grid
    point, whether or not the block was copied in at that point (where it was not, the block index has not moved
    since the point before, and the body left the block in place), for any proof data over the entry arrays whose
    body leaves the block where it found it. The window is never cut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- The second layer's weight (constant index): the staging buffer the body is handed for window 3 holds the window's block at every grid
    point, whether or not the block was copied in at that point (where it was not, the block index has not moved
    since the point before, and the body left the block in place), for any proof data over the entry arrays whose
    body leaves the block where it found it. The window is never cut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-- The second layer's bias row (constant index): the staging buffer the body is handed for window 4 holds the window's block at every grid
    point, whether or not the block was copied in at that point (where it was not, the block index has not moved
    since the point before, and the body left the block in place), for any proof data over the entry arrays whose
    body leaves the block where it found it. The window is never cut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

/-! # The body's one store covers the output tile -/

/-- The single whole-tile rectangle contains every index of the output tile. -/
theorem tile_cover2_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! # The kernel's triple -/

set_option maxHeartbeats 1000000 in
/-- The feed-forward kernel on whole staging memrefs — the row tile at `x0`, the first layer's weight and bias row at
    `x1`, `x2`, the second layer's at `x3`, `x4`, the output tile at anything — runs to the continuation holding the
    inputs as they were and the output tile at `out2_5 x0 x1 x2 x3 x4`: it reads the five inputs whole, reads the
    output tile (a value nothing uses), and overwrites the output tile whole with the second layer of the rectified
    first layer. -/
theorem sound_kernel2 (c : Dev nD) (E : Set ℕ) (i : grid2.Coords)
    (arg1 : Memref sig .tc .vmem S5000x128 .f32) (harg1 : arg1.IsWhole)
    (arg2 : Memref sig .tc .vmem S128x256 .f32) (harg2 : arg2.IsWhole)
    (arg3 : Memref sig .tc .vmem S1x256 .f32) (harg3 : arg3.IsWhole)
    (arg4 : Memref sig .tc .vmem S256x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S128x256 .f32) (x2 : Vec F S1x256 .f32) (x3 : Vec F S256x128 .f32)
    (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__ffn_kernel i arg1 harg1 arg2 harg2 arg3 harg3 arg4 harg4 arg5 harg5 arg6 harg6) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover2_5 _)

/-! # The body obligation, at a generic grid point -/

/-- What the body is handed at point `t`: the region's invariant, the core's debts, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it hands back: the same invariant and debts, each staging buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point: each input staging buffer holds its window's block (`before2_w`), so the kernel's
    triple applies with the blocks for the inputs; the invariant and the debts are the same before and after, and pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ref.Run.lean ====
/- The reference program's run: @main of `ReferenceIdeal` as one list of StableHLO operations (the four
   module-local functions it calls unfolded at their call sites over each call's buffer record), the equation
   `main = seq ops`, and from it — `StableHlo.run_seq` — that every weakly fair execution ends with each buffer at
   the fold `after ops` of the launch contents. The list is cut where the mathematics is: projections, attention
   with the first normalisation, perceptron, second normalisation. -/
import proofs.«101283_j438086664594_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The two index rows of the edge table (`main_v1` the sources, `main_v3` the targets), the three node projections of `main_arg0` split into 8 heads of 16 (`main_v6`, `main_v9`, `main_v12`), the edge projection of `main_arg2` (`main_v15`) and the edge score projection with its bias (`main_v20`): `main_v0` … `main_v20`. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg3 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v5 main_v6 rfl shapeCasts_S50000x128_S50000x8x16,
    unary main_arg4 main_v7 ((transpose S128x128 [1, 0] · transposes_S128x128_S128x128_1_0) : (⟨S128x128, .f32⟩ : BufTy).Contents (Elt F) → (⟨S128x128, .f32⟩ : BufTy).Contents (Elt F)),
    binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v8 main_v9 rfl shapeCasts_S50000x128_S50000x8x16,
    unary main_arg5 main_v10 ((transpose S128x128 [1, 0] · transposes_S128x128_S128x128_1_0) : (⟨S128x128, .f32⟩ : BufTy).Contents (Elt F) → (⟨S128x128, .f32⟩ : BufTy).Contents (Elt F)),
    binary main_arg0 main_v10 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v11 main_v12 rfl shapeCasts_S50000x128_S50000x8x16,
    unary main_arg6 main_v13 ((transpose S128x128 [1, 0] · transposes_S128x128_S128x128_1_0) : (⟨S128x128, .f32⟩ : BufTy).Contents (Elt F) → (⟨S128x128, .f32⟩ : BufTy).Contents (Elt F)),
    binary main_arg2 main_v13 main_v14 ((fun l r => Host.dotGeneral dot_S1600000x128_S128x128_S1600000x128_1_0_0_1_n_n none l r) : (⟨S1600000x128, .f32⟩ : BufTy).Contents (Elt F) → (⟨S128x128, .f32⟩ : BufTy).Contents (Elt F) → (⟨S1600000x128, .f32⟩ : BufTy).Contents (Elt F)),
    reshape main_v14 main_v15 rfl shapeCasts_S1600000x128_S1600000x8x16,
    unary main_arg7 main_v16 ((transpose S128x8 [1, 0] · transposes_S8x128_S128x8_1_0) : (⟨S8x128, .f32⟩ : BufTy).Contents (Elt F) → (⟨S128x8, .f32⟩ : BufTy).Contents (Elt F)),
    binary main_arg2 main_v16 main_v17 ((fun l r => Host.dotGeneral dot_S1600000x128_S128x8_S1600000x8_1_0_0_1_n_n none l r) : (⟨S1600000x128, .f32⟩ : BufTy).Contents (Elt F) → (⟨S128x8, .f32⟩ : BufTy).Contents (Elt F) → (⟨S1600000x8, .f32⟩ : BufTy).Contents (Elt F)),
    unary main_arg8 main_v18 (broadcastInDim S1x8 ![1] bcast_S8_S1x8_1 : (⟨S8, .f32⟩ : BufTy).Contents (Elt F) → (⟨S1x8, .f32⟩ : BufTy).Contents (Elt F)),
    unary main_v18 main_v19 (broadcastInDim S1600000x8 ![0, 1] bcast_S1x8_S1600000x8_0_1 : (⟨S1x8, .f32⟩ : BufTy).Contents (Elt F) → (⟨S1600000x8, .f32⟩ : BufTy).Contents (Elt F)),
    binary main_v17 main_v19 main_v20 (addf : (⟨S1600000x8, .f32⟩ : BufTy).Contents (Elt F) → (⟨S1600000x8, .f32⟩ : BufTy).Contents (Elt F) → (⟨S1600000x8, .f32⟩ : BufTy).Contents (Elt F)) ]

/-- The attention layer proper, `main_c` … `main_v84`: the gathers of the projected nodes along the (wrapped) index rows, the per-head score (product, sum over the 16 lanes, divided by 4, plus the edge bias), its clip to [-5, 5] (the call of @clip, six operations over the record `main_call0`), the exponential, the two scatter-adds onto the target nodes (numerator `main_v55`, denominator `main_v58`), the division, the residual sum `main_v65`, its column mean `main_v68`, its column variance (the call of @_var over `main_call1`, whose last three operations are its own call of @_where over `main_call1.call0`; result `main_v69`), and the first batch normalisation `main_v84`. -/
abbrev opsB : List (HloOp τ sig (Elt F)) :=
  [ nullary main_c (constantI S_ 32 0#32),
    unary main_c main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v9 main_v26 main_v27 ((fun x i => Host.gather gather_S50000x8x16_S1600000x1_S1600000x8x16_12_0_n_n_0_1_1816 x i) : (⟨S50000x8x16, .f32⟩ : BufTy).Contents (Elt F) → (⟨S1600000x1, .i32⟩ : BufTy).Contents (Elt F) → (⟨S1600000x8x16, .f32⟩ : BufTy).Contents (Elt F)),
    nullary main_c_1 (constantI S_ 32 0#32),
    unary main_c_1 main_v28 (broadcastInDim S1600000 ![] bcast_S_S1600000 : (⟨S_, .i32⟩ : BufTy).Contents (Elt F) → (⟨S1600000, .i32⟩ : BufTy).Contents (Elt F)),
    binary main_v3 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v30 (broadcastInDim S1600000 ![] bcast_S_S1600000 : (⟨S_, .i32⟩ : BufTy).Contents (Elt F) → (⟨S1600000, .i32⟩ : BufTy).Contents (Elt F)),
    binary main_v3 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v6 main_v33 main_v34 ((fun x i => Host.gather gather_S50000x8x16_S1600000x1_S1600000x8x16_12_0_n_n_0_1_1816 x i) : (⟨S50000x8x16, .f32⟩ : BufTy).Contents (Elt F) → (⟨S1600000x1, .i32⟩ : BufTy).Contents (Elt F) → (⟨S1600000x8x16, .f32⟩ : BufTy).Contents (Elt F)),
    binary main_v27 main_v34 main_v35 (mulf : (⟨S1600000x8x16, .f32⟩ : BufTy).Contents (Elt F) → (⟨S1600000x8x16, .f32⟩ : BufTy).Contents (Elt F) → (⟨S1600000x8x16, .f32⟩ : BufTy).Contents (Elt F)),
    binary main_v35 main_v15 main_v36 (mulf : (⟨S1600000x8x16, .f32⟩ : BufTy).Contents (Elt F) → (⟨S1600000x8x16, .f32⟩ : BufTy).Contents (Elt F) → (⟨S1600000x8x16, .f32⟩ : BufTy).Contents (Elt F)),
    nullary main_cst (constant S_ .f32 0x00000000#32),
    binary main_v36 main_cst main_v37 ((fun x v => Host.reduceAdd x v reducesTo_S1600000x8x16_S1600000x8_d2 h_S_) : (⟨S1600000x8x16, .f32⟩ : BufTy).Contents (Elt F) → (⟨S_, .f32⟩ : BufTy).Contents (Elt F) → (⟨S1600000x8, .f32⟩ : BufTy).Contents (Elt F)),
    nullary main_cst_3 (constant S_ .f32 0x40800000#32),
    unary main_cst_3 main_v38 (broadcastInDim S1600000x8 ![] bcast_S_S1600000x8 : (⟨S_, .f32⟩ : BufTy).Contents (Elt F) → (⟨S1600000x8, .f32⟩ : BufTy).Contents (Elt F)),
    binary main_v37 main_v38 main_v39 (Host.divf : (⟨S1600000x8, .f32⟩ : BufTy).Contents (Elt F) → (⟨S1600000x8, .f32⟩ : BufTy).Contents (Elt F) → (⟨S1600000x8, .f32⟩ : BufTy).Contents (Elt F)),
    binary main_v39 main_v20 main_v40 (addf : (⟨S1600000x8, .f32⟩ : BufTy).Contents (Elt F) → (⟨S1600000x8, .f32⟩ : BufTy).Contents (Elt F) → (⟨S1600000x8, .f32⟩ : BufTy).Contents (Elt F)),
    nullary main_cst_4 (constant S_ .f32 0xC0A00000#32),
    nullary main_cst_5 (constant S_ .f32 0x40A00000#32),
    TRef.unary (.of main_cst_4 : TRef sig ⟨S_, .f32⟩) main_call0.v0 id,
    TRef.unary main_call0.v0 main_call0.v1 (broadcastInDim S1600000x8 ![] bcast_S_S1600000x8),
    TRef.binary main_call0.v1 (.of main_v40 : TRef sig ⟨S1600000x8, .f32⟩) main_call0.v2 maximumf,
    TRef.unary (.of main_cst_5 : TRef sig ⟨S_, .f32⟩) main_call0.v3 id,
    TRef.unary main_call0.v3 main_call0.v4 (broadcastInDim S1600000x8 ![] bcast_S_S1600000x8),
    TRef.binary main_call0.v4 main_call0.v2 main_call0.v5 minimumf,
    unary main_v41 main_v42 (Host.exp : (⟨S1600000x8, .f32⟩ : BufTy).Contents (Elt F) → (⟨S1600000x8, .f32⟩ : BufTy).Contents (Elt F)),
    nullary main_c_6 (constantI S_ 32 0#32),
    unary main_c_6 main_v43 (broadcastInDim S1600000 ![] bcast_S_S1600000 : (⟨S_, .i32⟩ : BufTy).Contents (Elt F) → (⟨S1600000, .i32⟩ : BufTy).Contents (Elt F)),
    binary main_v1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 50000#32),
    unary main_c_7 main_v45 (broadcastInDim S1600000 ![] bcast_S_S1600000 : (⟨S_, .i32⟩ : BufTy).Contents (Elt F) → (⟨S1600000, .i32⟩ : BufTy).Contents (Elt F)),
    binary main_v1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v12 main_v48 main_v49 ((fun x i => Host.gather gather_S50000x8x16_S1600000x1_S1600000x8x16_12_0_n_n_0_1_1816 x i) : (⟨S50000x8x16, .f32⟩ : BufTy).Contents (Elt F) → (⟨S1600000x1, .i32⟩ : BufTy).Contents (Elt F) → (⟨S1600000x8x16, .f32⟩ : BufTy).Contents (Elt F)),
    unary main_v42 main_v50 (broadcastInDim S1600000x8x1 ![0, 1] bcast_S1600000x8_S1600000x8x1_0_1 : (⟨S1600000x8, .f32⟩ : BufTy).Contents (Elt F) → (⟨S1600000x8x1, .f32⟩ : BufTy).Contents (Elt F)),
    unary main_v50 main_v51 (broadcastInDim S1600000x8x16 ![0, 1, 2] bcast_S1600000x8x1_S1600000x8x16_0_1_2 : (⟨S1600000x8x1, .f32⟩ : BufTy).Contents (Elt F) → (⟨S1600000x8x16, .f32⟩ : BufTy).Contents (Elt F)),
    binary main_v49 main_v51 main_v52 (mulf : (⟨S1600000x8x16, .f32⟩ : BufTy).Contents (Elt F) → (⟨S1600000x8x16, .f32⟩ : BufTy).Contents (Elt F) → (⟨S1600000x8x16, .f32⟩ : BufTy).Contents (Elt F)),
    nullary main_cst_8 (constant S_ .f32 0x00000000#32),
    unary main_cst_8 main_v53 (broadcastInDim S50000x8x16 ![] bcast_S_S50000x8x16 : (⟨S_, .f32⟩ : BufTy).Contents (Elt F) → (⟨S50000x8x16, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S50000x8x16_S1600000x1_S1600000x8x16_12_0_0_1 x i u) : (⟨S50000x8x16, .f32⟩ : BufTy).Contents (Elt F) → (⟨S1600000x1, .i32⟩ : BufTy).Contents (Elt F) → (⟨S1600000x8x16, .f32⟩ : BufTy).Contents (Elt F) → (⟨S50000x8x16, .f32⟩ : BufTy).Contents (Elt F)),
    nullary main_cst_9 (constant S_ .f32 0x00000000#32),
    unary main_cst_9 main_v56 (broadcastInDim S50000x8 ![] bcast_S_S50000x8 : (⟨S_, .f32⟩ : BufTy).Contents (Elt F) → (⟨S50000x8, .f32⟩ : BufTy).Contents (Elt F)),
    unary main_v3 main_v57 (broadcastInDim S1600000x1 ![0] bcast_S1600000_S1600000x1_0 : (⟨S1600000, .i32⟩ : BufTy).Contents (Elt F) → (⟨S1600000x1, .i32⟩ : BufTy).Contents (Elt F)),
    ternary main_v56 main_v57 main_v42 main_v58 ((fun x i u => Host.scatterAdd scatter_S50000x8_S1600000x1_S1600000x8_1_0_0_1 x i u) : (⟨S50000x8, .f32⟩ : BufTy).Contents (Elt F) → (⟨S1600000x1, .i32⟩ : BufTy).Contents (Elt F) → (⟨S1600000x8, .f32⟩ : BufTy).Contents (Elt F) → (⟨S50000x8, .f32⟩ : BufTy).Contents (Elt F)),
    unary main_v58 main_v59 (broadcastInDim S50000x8x1 ![0, 1] bcast_S50000x8_S50000x8x1_0_1 : (⟨S50000x8, .f32⟩ : BufTy).Contents (Elt F) → (⟨S50000x8x1, .f32⟩ : BufTy).Contents (Elt F)),
    nullary main_cst_10 (constant S_ .f32 0x358637BD#32),
    unary main_cst_10 main_v60 (broadcastInDim S50000x8x1 ![] bcast_S_S50000x8x1 : (⟨S_, .f32⟩ : BufTy).Contents (Elt F) → (⟨S50000x8x1, .f32⟩ : BufTy).Contents (Elt F)),
    binary main_v59 main_v60 main_v61 (addf : (⟨S50000x8x1, .f32⟩ : BufTy).Contents (Elt F) → (⟨S50000x8x1, .f32⟩ : BufTy).Contents (Elt F) → (⟨S50000x8x1, .f32⟩ : BufTy).Contents (Elt F)),
    unary main_v61 main_v62 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    binary main_v55 main_v62 main_v63 (Host.divf : (⟨S50000x8x16, .f32⟩ : BufTy).Contents (Elt F) → (⟨S50000x8x16, .f32⟩ : BufTy).Contents (Elt F) → (⟨S50000x8x16, .f32⟩ : BufTy).Contents (Elt F)),
    reshape main_v63 main_v64 rfl shapeCasts_S50000x8x16_S50000x128,
    binary main_arg0 main_v64 main_v65 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v65 main_cst_11 main_v66 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call1.cst (constant S_ .f32 0x00000000#32),
    TRef.binary (.of main_v65 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v65 : TRef sig ⟨S50000x128, .f32⟩) main_call1.v4 main_call1.v5 subf,
    TRef.binary main_call1.v5 main_call1.v5 main_call1.v6 mulf,
    TRef.unary (.of main_c_13 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v68 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v65 main_v71 main_v72 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v73 (broadcastInDim S128 ![] bcast_S_S128 : (⟨S_, .f32⟩ : BufTy).Contents (Elt F) → (⟨S128, .f32⟩ : BufTy).Contents (Elt F)),
    binary main_v69 main_v73 main_v74 (addf : (⟨S128, .f32⟩ : BufTy).Contents (Elt F) → (⟨S128, .f32⟩ : BufTy).Contents (Elt F) → (⟨S128, .f32⟩ : BufTy).Contents (Elt F)),
    unary main_v74 main_v75 (Host.rsqrt : (⟨S128, .f32⟩ : BufTy).Contents (Elt F) → (⟨S128, .f32⟩ : BufTy).Contents (Elt F)),
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v72 main_v77 main_v78 (mulf : (⟨S50000x128, .f32⟩ : BufTy).Contents (Elt F) → (⟨S50000x128, .f32⟩ : BufTy).Contents (Elt F) → (⟨S50000x128, .f32⟩ : BufTy).Contents (Elt F)),
    unary main_arg9 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_arg10 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)) ]

/-- The two-layer perceptron, `main_v85` … `main_v95`: the first dense layer with its bias (`main_v89`), the rectifier (the call of @relu, three operations over `main_call2`; result `main_v90`), the second dense layer with its bias (`main_v95`). -/
abbrev opsC : List (HloOp τ sig (Elt F)) :=
  [ unary main_arg11 main_v85 ((transpose S128x256 [1, 0] · transposes_S256x128_S128x256_1_0) : (⟨S256x128, .f32⟩ : BufTy).Contents (Elt F) → (⟨S128x256, .f32⟩ : BufTy).Contents (Elt F)),
    binary main_v84 main_v85 main_v86 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg12 main_v87 (broadcastInDim S1x256 ![1] bcast_S256_S1x256_1 : (⟨S256, .f32⟩ : BufTy).Contents (Elt F) → (⟨S1x256, .f32⟩ : BufTy).Contents (Elt F)),
    unary main_v87 main_v88 (broadcastInDim S50000x256 ![0, 1] bcast_S1x256_S50000x256_0_1 : (⟨S1x256, .f32⟩ : BufTy).Contents (Elt F) → (⟨S50000x256, .f32⟩ : BufTy).Contents (Elt F)),
    binary main_v86 main_v88 main_v89 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v89 : TRef sig ⟨S50000x256, .f32⟩) main_call2.v0 main_call2.v1 maximumf,
    unary main_arg13 main_v91 ((transpose S256x128 [1, 0] · transposes_S128x256_S256x128_1_0) : (⟨S128x256, .f32⟩ : BufTy).Contents (Elt F) → (⟨S256x128, .f32⟩ : BufTy).Contents (Elt F)),
    binary main_v90 main_v91 main_v92 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg14 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)) ]

/-- The second residual sum `main_v96`, its column mean `main_v99`, its column variance (the second call of @_var, over `main_call3` with its @_where over `main_call3.call0`; result `main_v100`) and the second batch normalisation, `main_v115` the result: `main_v96` … `main_v115`. -/
abbrev opsD : List (HloOp τ sig (Elt F)) :=
  [ binary main_v84 main_v95 main_v96 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v96 main_cst_15 main_v97 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v98 (broadcastInDim S128 ![] bcast_S_S128 : (⟨S_, .f32⟩ : BufTy).Contents (Elt F) → (⟨S128, .f32⟩ : BufTy).Contents (Elt F)),
    binary main_v97 main_v98 main_v99 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call3.cst (constant S_ .f32 0x00000000#32),
    TRef.binary (.of main_v96 : TRef sig ⟨S50000x128, .f32⟩) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v96 : TRef sig ⟨S50000x128, .f32⟩) main_call3.v4 main_call3.v5 subf,
    TRef.binary main_call3.v5 main_call3.v5 main_call3.v6 mulf,
    TRef.unary (.of main_c_17 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v99 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v96 main_v102 main_v103 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v104 (broadcastInDim S128 ![] bcast_S_S128 : (⟨S_, .f32⟩ : BufTy).Contents (Elt F) → (⟨S128, .f32⟩ : BufTy).Contents (Elt F)),
    binary main_v100 main_v104 main_v105 (addf : (⟨S128, .f32⟩ : BufTy).Contents (Elt F) → (⟨S128, .f32⟩ : BufTy).Contents (Elt F) → (⟨S128, .f32⟩ : BufTy).Contents (Elt F)),
    unary main_v105 main_v106 (Host.rsqrt : (⟨S128, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v103 main_v108 main_v109 (mulf : (⟨S50000x128, .f32⟩ : BufTy).Contents (Elt F) → (⟨S50000x128, .f32⟩ : BufTy).Contents (Elt F) → (⟨S50000x128, .f32⟩ : BufTy).Contents (Elt F)),
    unary main_arg15 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (mulf : (⟨S50000x128, .f32⟩ : BufTy).Contents (Elt F) → (⟨S50000x128, .f32⟩ : BufTy).Contents (Elt F) → (⟨S50000x128, .f32⟩ : BufTy).Contents (Elt F)),
    unary main_arg16 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v112 main_v114 main_v115 (addf : (⟨S50000x128, .f32⟩ : BufTy).Contents (Elt F) → (⟨S50000x128, .f32⟩ : BufTy).Contents (Elt F) → (⟨S50000x128, .f32⟩ : BufTy).Contents (Elt F)) ]

/-- @main's 186 operations in order: the four stages one after the other. -/
abbrev ops : List (HloOp τ sig (Elt F)) := opsA ++ opsB ++ opsC ++ opsD

/-! ## The program is the list -/

-- @main is stated as three consecutive windows of statements; the stages cut it elsewhere. Each window is the
-- run of its own stretch of the list (a call's body unfolds to its operations over the call's record, and the
-- binds re-associate, by computation), and stretches run in a row are their concatenation run as one.
set_option maxRecDepth 8192 in
set_option maxHeartbeats 4000000 in
theorem main_part0_eq (c : Dev nD) : main_part0 (F := F) c = seq (opsA ++ opsB.take 44) := rfl
set_option maxRecDepth 8192 in
set_option maxHeartbeats 4000000 in
theorem main_part1_eq (c : Dev nD) : main_part1 (F := F) c = seq (opsB.drop 44 ++ opsC ++ opsD.take 7) := rfl
set_option maxRecDepth 8192 in
set_option maxHeartbeats 4000000 in
theorem main_part2_eq (c : Dev nD) : main_part2 (F := F) c = seq (opsD.drop 7) := rfl

/-- The windows' stretches in a row are the four stages in a row. -/
theorem windows_eq : (opsA ++ opsB.take 44) ++ ((opsB.drop 44 ++ opsC ++ opsD.take 7) ++ opsD.drop 7) = (ops : List (HloOp τ sig (Elt F))) := by
  have hB := List.take_append_drop 44 (opsB : List (HloOp τ sig (Elt F)))
  have hD := List.take_append_drop 7 (opsD : List (HloOp τ sig (Elt F)))
  simp only [ops, List.append_assoc]
  rw [hD, ← List.append_assoc (List.take 44 opsB), hB]

theorem main_eq (c : Dev nD) : main (F := F) c = seq ops := by
  rw [← windows_eq, seq_append (opsA ++ opsB.take 44), seq_append (opsB.drop 44 ++ opsC ++ opsD.take 7),
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem opsA_sub : (opsA : List (HloOp τ sig (Elt F))).Forall fun op => op.bufs ⊆ tcRefs τ sig :=
  ⟨unary_bufs_sub .., reshape_bufs_sub .., unary_bufs_sub .., reshape_bufs_sub .., unary_bufs_sub .., binary_bufs_sub ..,
    reshape_bufs_sub .., unary_bufs_sub .., binary_bufs_sub .., reshape_bufs_sub .., unary_bufs_sub .., binary_bufs_sub ..,
    reshape_bufs_sub .., unary_bufs_sub .., binary_bufs_sub .., reshape_bufs_sub .., unary_bufs_sub .., binary_bufs_sub ..,
    unary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., binary_bufs_sub .., nullary_bufs_sub .., unary_bufs_sub ..,
    binary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., unary_bufs_sub ..,
    ternary_bufs_sub .., unary_bufs_sub .., nullary_bufs_sub .., unary_bufs_sub .., binary_bufs_sub .., unary_bufs_sub ..,
    binary_bufs_sub .., reshape_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩
theorem opsC_sub : (opsC : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩
set_option maxRecDepth 8192 in
theorem opsD_sub : (opsD : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsA_sub op h, List.forall_iff_forall_mem.mp opsB_sub op h,
      List.forall_iff_forall_mem.mp opsC_sub op h, List.forall_iff_forall_mem.mp opsD_sub op h]

/-! ## The run -/

/-- On every device, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-- The fold over the whole list is the stages' folds one after the other. -/
theorem after_ops (V : Valuation τ sig (Elt F)) :
    after ops V = after opsD (after opsC (after opsB (after opsA V))) := by
  simp only [ops, StableHlo.after_append]

/-! ## What the operations write, and that no argument is among it

Each operation writes exactly its result buffer (by computation); a stage's written buffers are listed in order, and a
buffer outside all four lists is, after the run, what it was before. The seventeen arguments are such buffers. -/

/-- An operation whose one written buffer is in a list writes inside the list. -/
theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

local macro "wr " y:ident : term => `(writes_sub_of_mem $y rfl (by decide))

/-- The references stage A's operations write, in order. -/
abbrev WA : List (Ref sig .tc) :=
  [ main_v0, main_v1, main_v2, main_v3, main_v4, main_v5, main_v6, main_v7, main_v8, main_v9,
    main_v10, main_v11, main_v12, main_v13, main_v14, main_v15, main_v16, main_v17, main_v18, main_v19,
    main_v20 ]
theorem opsA_writes : (opsA : List (HloOp τ sig (Elt F))).Forall fun op => op.writes ⊆ (WA.map (Proc.devRef (τ := τ) .tc)).toFinset :=
  ⟨wr main_v0, wr main_v1, wr main_v2, wr main_v3, wr main_v4, wr main_v5, wr main_v6, wr main_v7,
    wr main_v8, wr main_v9, wr main_v10, wr main_v11, wr main_v12, wr main_v13, wr main_v14, wr main_v15,
    wr main_v16, wr main_v17, wr main_v18, wr main_v19, wr main_v20⟩
/-- The references stage B's operations write, in order. -/
abbrev WB : List (Ref sig .tc) :=
  [ main_c, main_v21, main_v22, main_c_0, main_v23, main_v24, main_v25, main_v26, main_v27, main_c_1,
    main_v28, main_v29, main_c_2, main_v30, main_v31, main_v32, main_v33, main_v34, main_v35, main_v36,
    main_cst, main_v37, main_cst_3, main_v38, main_v39, main_v40, main_cst_4, main_cst_5, main_call0_v0, main_call0_v1,
    main_call0_v2, main_call0_v3, main_call0_v4, main_v41, main_v42, main_c_6, main_v43, main_v44, main_c_7, main_v45,
    main_v46, main_v47, main_v48, main_v49, main_v50, main_v51, main_v52, main_cst_8, main_v53, main_v54,
    main_v55, main_cst_9, main_v56, main_v57, main_v58, main_v59, main_cst_10, main_v60, main_v61, main_v62,
    main_v63, main_v64, main_v65, main_cst_11, main_v66, main_cst_12, main_v67, main_v68, main_c_13, main_call1_cst,
    main_call1_v0, main_call1_v1, main_call1_cst_0, main_call1_v2, main_call1_v3, main_call1_v4, main_call1_v5, main_call1_v6, main_call1_v7, main_call1_cst_1,
    main_call1_v8, main_call1_cst_2, main_call1_v9, main_call1_v10, main_call1_v11, main_call1_cst_3, main_call1_v12, main_call1_cst_4, main_call1_call0_v0, main_call1_call0_v1,
    main_v69, main_v70, main_v71, main_v72, main_cst_14, main_v73, main_v74, main_v75, main_v76, main_v77,
    main_v78, main_v79, main_v80, main_v81, main_v82, main_v83, main_v84 ]
set_option maxRecDepth 8192 in
theorem opsB_writes : (opsB : List (HloOp τ sig (Elt F))).Forall fun op => op.writes ⊆ (WB.map (Proc.devRef (τ := τ) .tc)).toFinset :=
  ⟨wr main_c, wr main_v21, wr main_v22, wr main_c_0, wr main_v23, wr main_v24, wr main_v25, wr main_v26,
    wr main_v27, wr main_c_1, wr main_v28, wr main_v29, wr main_c_2, wr main_v30, wr main_v31, wr main_v32,
    wr main_v33, wr main_v34, wr main_v35, wr main_v36, wr main_cst, wr main_v37, wr main_cst_3, wr main_v38,
    wr main_v39, wr main_v40, wr main_cst_4, wr main_cst_5, wr main_call0_v0, wr main_call0_v1, wr main_call0_v2, wr main_call0_v3,
    wr main_call0_v4, wr main_v41, wr main_v42, wr main_c_6, wr main_v43, wr main_v44, wr main_c_7, wr main_v45,
    wr main_v46, wr main_v47, wr main_v48, wr main_v49, wr main_v50, wr main_v51, wr main_v52, wr main_cst_8,
    wr main_v53, wr main_v54, wr main_v55, wr main_cst_9, wr main_v56, wr main_v57, wr main_v58, wr main_v59,
    wr main_cst_10, wr main_v60, wr main_v61, wr main_v62, wr main_v63, wr main_v64, wr main_v65, wr main_cst_11,
    wr main_v66, wr main_cst_12, wr main_v67, wr main_v68, wr main_c_13, wr main_call1_cst, wr main_call1_v0, wr main_call1_v1,
    wr main_call1_cst_0, wr main_call1_v2, wr main_call1_v3, wr main_call1_v4, wr main_call1_v5, wr main_call1_v6, wr main_call1_v7, wr main_call1_cst_1,
    wr main_call1_v8, wr main_call1_cst_2, wr main_call1_v9, wr main_call1_v10, wr main_call1_v11, wr main_call1_cst_3, wr main_call1_v12, wr main_call1_cst_4,
    wr main_call1_call0_v0, wr main_call1_call0_v1, wr main_v69, wr main_v70, wr main_v71, wr main_v72, wr main_cst_14, wr main_v73,
    wr main_v74, wr main_v75, wr main_v76, wr main_v77, wr main_v78, wr main_v79, wr main_v80, wr main_v81,
    wr main_v82, wr main_v83, wr main_v84⟩
/-- The references stage C's operations write, in order. -/
abbrev WC : List (Ref sig .tc) :=
  [ main_v85, main_v86, main_v87, main_v88, main_v89, main_call2_cst, main_call2_v0, main_v90, main_v91, main_v92,
    main_v93, main_v94, main_v95 ]
theorem opsC_writes : (opsC : List (HloOp τ sig (Elt F))).Forall fun op => op.writes ⊆ (WC.map (Proc.devRef (τ := τ) .tc)).toFinset :=
  ⟨wr main_v85, wr main_v86, wr main_v87, wr main_v88, wr main_v89, wr main_call2_cst, wr main_call2_v0, wr main_v90,
    wr main_v91, wr main_v92, wr main_v93, wr main_v94, wr main_v95⟩
/-- The references stage D's operations write, in order. -/
abbrev WD : List (Ref sig .tc) :=
  [ main_v96, main_cst_15, main_v97, main_cst_16, main_v98, main_v99, main_c_17, main_call3_cst, main_call3_v0, main_call3_v1,
    main_call3_cst_0, main_call3_v2, main_call3_v3, main_call3_v4, main_call3_v5, main_call3_v6, main_call3_v7, main_call3_cst_1, main_call3_v8, main_call3_cst_2,
    main_call3_v9, main_call3_v10, main_call3_v11, main_call3_cst_3, main_call3_v12, main_call3_cst_4, main_call3_call0_v0, main_call3_call0_v1, main_v100, main_v101,
    main_v102, main_v103, main_cst_18, main_v104, main_v105, main_v106, main_v107, main_v108, main_v109, main_v110,
    main_v111, main_v112, main_v113, main_v114, main_v115 ]
set_option maxRecDepth 8192 in
theorem opsD_writes : (opsD : List (HloOp τ sig (Elt F))).Forall fun op => op.writes ⊆ (WD.map (Proc.devRef (τ := τ) .tc)).toFinset :=
  ⟨wr main_v96, wr main_cst_15, wr main_v97, wr main_cst_16, wr main_v98, wr main_v99, wr main_c_17, wr main_call3_cst,
    wr main_call3_v0, wr main_call3_v1, wr main_call3_cst_0, wr main_call3_v2, wr main_call3_v3, wr main_call3_v4, wr main_call3_v5, wr main_call3_v6,
    wr main_call3_v7, wr main_call3_cst_1, wr main_call3_v8, wr main_call3_cst_2, wr main_call3_v9, wr main_call3_v10, wr main_call3_v11, wr main_call3_cst_3,
    wr main_call3_v12, wr main_call3_cst_4, wr main_call3_call0_v0, wr main_call3_call0_v1, wr main_v100, wr main_v101, wr main_v102, wr main_v103,
    wr main_cst_18, wr main_v104, wr main_v105, wr main_v106, wr main_v107, wr main_v108, wr main_v109, wr main_v110,
    wr main_v111, wr main_v112, wr main_v113, wr main_v114, wr main_v115⟩

/-- A buffer none of the four stages writes keeps its contents through the whole run. -/
theorem after_ops_of_not_mem (V : Valuation τ sig (Elt F)) (r : Ref sig .tc)
    (hA : r ∉ WA) (hB : r ∉ WB) (hC : r ∉ WC) (hD : r ∉ WD) :
    after ops V (r : DevRef τ sig) = V (r : DevRef τ sig) := by
  rw [after_ops, after_of_writes_sub opsD _ opsD_writes hD, after_of_writes_sub opsC _ opsC_writes hC,
    after_of_writes_sub opsB _ opsB_writes hB, after_of_writes_sub opsA _ opsA_writes hA]

theorem arg_eq_0 (V : Valuation τ sig (Elt F)) : StableHlo.after ops V (main_arg0 : DevRef τ sig) = V (main_arg0 : DevRef τ sig) :=
  after_ops_of_not_mem V main_arg0 (by decide) (by decide) (by decide) (by decide)
theorem arg_eq_1 (V : Valuation τ sig (Elt F)) : StableHlo.after ops V (main_arg1 : DevRef τ sig) = V (main_arg1 : DevRef τ sig) :=
  after_ops_of_not_mem V main_arg1 (by decide) (by decide) (by decide) (by decide)
theorem arg_eq_2 (V : Valuation τ sig (Elt F)) : StableHlo.after ops V (main_arg2 : DevRef τ sig) = V (main_arg2 : DevRef τ sig) :=
  after_ops_of_not_mem V main_arg2 (by decide) (by decide) (by decide) (by decide)
theorem arg_eq_3 (V : Valuation τ sig (Elt F)) : StableHlo.after ops V (main_arg3 : DevRef τ sig) = V (main_arg3 : DevRef τ sig) :=
  after_ops_of_not_mem V main_arg3 (by decide) (by decide) (by decide) (by decide)
theorem arg_eq_4 (V : Valuation τ sig (Elt F)) : StableHlo.after ops V (main_arg4 : DevRef τ sig) = V (main_arg4 : DevRef τ sig) :=
  after_ops_of_not_mem V main_arg4 (by decide) (by decide) (by decide) (by decide)
theorem arg_eq_5 (V : Valuation τ sig (Elt F)) : StableHlo.after ops V (main_arg5 : DevRef τ sig) = V (main_arg5 : DevRef τ sig) :=
  after_ops_of_not_mem V main_arg5 (by decide) (by decide) (by decide) (by decide)
theorem arg_eq_6 (V : Valuation τ sig (Elt F)) : StableHlo.after ops V (main_arg6 : DevRef τ sig) = V (main_arg6 : DevRef τ sig) :=
  after_ops_of_not_mem V main_arg6 (by decide) (by decide) (by decide) (by decide)
theorem arg_eq_7 (V : Valuation τ sig (Elt F)) : StableHlo.after ops V (main_arg7 : DevRef τ sig) = V (main_arg7 : DevRef τ sig) :=
  after_ops_of_not_mem V main_arg7 (by decide) (by decide) (by decide) (by decide)
theorem arg_eq_8 (V : Valuation τ sig (Elt F)) : StableHlo.after ops V (main_arg8 : DevRef τ sig) = V (main_arg8 : DevRef τ sig) :=
  after_ops_of_not_mem V main_arg8 (by decide) (by decide) (by decide) (by decide)
theorem arg_eq_9 (V : Valuation τ sig (Elt F)) : StableHlo.after ops V (main_arg9 : DevRef τ sig) = V (main_arg9 : DevRef τ sig) :=
  after_ops_of_not_mem V main_arg9 (by decide) (by decide) (by decide) (by decide)
theorem arg_eq_10 (V : Valuation τ sig (Elt F)) : StableHlo.after ops V (main_arg10 : DevRef τ sig) = V (main_arg10 : DevRef τ sig) :=
  after_ops_of_not_mem V main_arg10 (by decide) (by decide) (by decide) (by decide)
theorem arg_eq_11 (V : Valuation τ sig (Elt F)) : StableHlo.after ops V (main_arg11 : DevRef τ sig) = V (main_arg11 : DevRef τ sig) :=
  after_ops_of_not_mem V main_arg11 (by decide) (by decide) (by decide) (by decide)
theorem arg_eq_12 (V : Valuation τ sig (Elt F)) : StableHlo.after ops V (main_arg12 : DevRef τ sig) = V (main_arg12 : DevRef τ sig) :=
  after_ops_of_not_mem V main_arg12 (by decide) (by decide) (by decide) (by decide)
theorem arg_eq_13 (V : Valuation τ sig (Elt F)) : StableHlo.after ops V (main_arg13 : DevRef τ sig) = V (main_arg13 : DevRef τ sig) :=
  after_ops_of_not_mem V main_arg13 (by decide) (by decide) (by decide) (by decide)
theorem arg_eq_14 (V : Valuation τ sig (Elt F)) : StableHlo.after ops V (main_arg14 : DevRef τ sig) = V (main_arg14 : DevRef τ sig) :=
  after_ops_of_not_mem V main_arg14 (by decide) (by decide) (by decide) (by decide)
theorem arg_eq_15 (V : Valuation τ sig (Elt F)) : StableHlo.after ops V (main_arg15 : DevRef τ sig) = V (main_arg15 : DevRef τ sig) :=
  after_ops_of_not_mem V main_arg15 (by decide) (by decide) (by decide) (by decide)
theorem arg_eq_16 (V : Valuation τ sig (Elt F)) : StableHlo.after ops V (main_arg16 : DevRef τ sig) = V (main_arg16 : DevRef τ sig) :=
  after_ops_of_not_mem V main_arg16 (by decide) (by decide) (by decide) (by decide)

end Cert.ReferenceIdeal.Hand

end
-- ==== Proof.Ref.Frame.lean ====
/- The reference program's frame: from any memory with zero counters every weakly fair execution of @main terminates
   with each of the seventeen argument arrays as it was launched (no operation of the list writes an argument), and
   with the result array at the fold of the operation list over the launch contents. -/
import proofs.«101283_j438086664594_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main runs (terminates, no fault) and its argument arrays end unchanged: each is read back through `run_main` as the
    fold at that buffer, which is the launch contents since no operation writes it (`arg_eq_K`). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c main_arg0).trans (arg_eq_0 _),
     (h c main_arg1).trans (arg_eq_1 _),
     (h c main_arg2).trans (arg_eq_2 _),
     (h c main_arg3).trans (arg_eq_3 _),
     (h c main_arg4).trans (arg_eq_4 _),
     (h c main_arg5).trans (arg_eq_5 _),
     (h c main_arg6).trans (arg_eq_6 _),
     (h c main_arg7).trans (arg_eq_7 _),
     (h c main_arg8).trans (arg_eq_8 _),
     (h c main_arg9).trans (arg_eq_9 _),
     (h c main_arg10).trans (arg_eq_10 _),
     (h c main_arg11).trans (arg_eq_11 _),
     (h c main_arg12).trans (arg_eq_12 _),
     (h c main_arg13).trans (arg_eq_13 _),
     (h c main_arg14).trans (arg_eq_14 _),
     (h c main_arg15).trans (arg_eq_15 _),
     (h c main_arg16).trans (arg_eq_16 _)⟩)
    (run_main m ρ)

/-- The same run, keeping the result: `main_v115` ends at the fold of the operation list over the launch contents, the
    arguments unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v115) = StableHlo.after ops (StableHlo.launchContents m c) (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c main_v115,
     (h c main_arg0).trans (arg_eq_0 _),
     (h c main_arg1).trans (arg_eq_1 _),
     (h c main_arg2).trans (arg_eq_2 _),
     (h c main_arg3).trans (arg_eq_3 _),
     (h c main_arg4).trans (arg_eq_4 _),
     (h c main_arg5).trans (arg_eq_5 _),
     (h c main_arg6).trans (arg_eq_6 _),
     (h c main_arg7).trans (arg_eq_7 _),
     (h c main_arg8).trans (arg_eq_8 _),
     (h c main_arg9).trans (arg_eq_9 _),
     (h c main_arg10).trans (arg_eq_10 _),
     (h c main_arg11).trans (arg_eq_11 _),
     (h c main_arg12).trans (arg_eq_12 _),
     (h c main_arg13).trans (arg_eq_13 _),
     (h c main_arg14).trans (arg_eq_14 _),
     (h c main_arg15).trans (arg_eq_15 _),
     (h c main_arg16).trans (arg_eq_16 _)⟩)
    (run_main m ρ)

end Cert.ReferenceIdeal.Hand

end
-- ==== Proof.Spec.lean ====
/-
  The plain mathematics the kernel regions compute, on extended reals, over index functions of literal shapes:
  a matrix product  A · B  (row r, column c: the sum over k of A (r, k) * B (k, c)),  the same plus a bias row, and
  the two-layer feed-forward block  max (x · W₁ + b₁, 0) · W₂ + b₂.
-/
import Idealize.ShloMosaic.Lib.ValueIdx
import Idealize.ShloMosaic.PureOps.Ideal

noncomputable section

namespace Cert.Spec

open Idealize.ShloMosaic Idealize.ShloMosaic.ValueIdx

variable {M K N : ℕ}

/-- The matrix product: entry (r, c) is the sum over k of `A (r, k) * B (k, c)`. -/
def mm (A : (⟨2, ![M, K]⟩ : Shape).Idx → EReal) (B : (⟨2, ![K, N]⟩ : Shape).Idx → EReal) : (⟨2, ![M, N]⟩ : Shape).Idx → EReal :=
  fun i => ∑ k : Fin K, A (ix2 (i 0 : Fin M) k) * B (ix2 k (i 1 : Fin N))

/-- The matrix product plus a bias row `b : [1, N]` added to every row. -/
def mmBias (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun i => mm A B i + b (ix2 (0 : Fin 1) (i 1 : Fin N))

/-- The rectified first layer: `max (x · W₁ + b₁, 0)`. -/
def hidden {H : ℕ} (x : (⟨2, ![M, K]⟩ : Shape).Idx → EReal) (W₁ : (⟨2, ![K, H]⟩ : Shape).Idx → EReal)
    (b₁ : (⟨2, ![1, H]⟩ : Shape).Idx → EReal) : (⟨2, ![M, H]⟩ : Shape).Idx → EReal :=
  fun i => max (mmBias x W₁ b₁ i) 0

/-- The feed-forward block: `max (x · W₁ + b₁, 0) · W₂ + b₂`. -/
def ffn {H : ℕ} (x : (⟨2, ![M, K]⟩ : Shape).Idx → EReal) (W₁ : (⟨2, ![K, H]⟩ : Shape).Idx → EReal)
    (b₁ : (⟨2, ![1, H]⟩ : Shape).Idx → EReal) (W₂ : (⟨2, ![H, N]⟩ : Shape).Idx → EReal)
    (b₂ : (⟨2, ![1, N]⟩ : Shape).Idx → EReal) : (⟨2, ![M, N]⟩ : Shape).Idx → EReal :=
  mmBias (hidden x W₁ b₁) W₂ b₂

end Cert.Spec

end
-- ==== Proof.LibPlainDot.lean ====
/-
  A plain matrix product on the extended reals, read at an entry.

  For dimension numbers that contract the left operand's second axis with the right operand's first and have no
  batch axis, the product of an [M, K] and a [K, N] matrix into the zero accumulator has, at row r and column c,
  the entry  sum over k < K of  lhs (r, k) * rhs (k, c).  The contraction position of the dimension numbers is a
  one-coordinate index; the sum over it is re-indexed through the bijection with that coordinate.  The two facts
  about the non-contracted coordinates (the left index keeps the row, the right index keeps the column) depend on
  the particular dimension numbers and are taken as hypotheses: for literal dimension numbers each is decided by
  unfolding the index map once.
-/
import Idealize.ShloMosaic.Lib.ValueIdx
import Idealize.ShloMosaic.PureOps.Ideal.Laws

noncomputable section

namespace Cert.LibPlainDot

open Idealize.ShloMosaic Idealize.ShloMosaic.ValueIdx

variable {M K N : ℕ} {φ₁ φ₂ : FTy}

/-- The sum over the one-coordinate contraction position is the sum over that coordinate, with the operands read at
    (row, k) and (k, column). -/
theorem contr_sum_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (lhs : FVec Ideal ⟨2, ![M, K]⟩ φ₁) (rhs : FVec Ideal ⟨2, ![K, N]⟩ φ₂) (r : Fin M) (c : Fin N) :
    (∑ q : d.contr.Idx, lhs (d.lhsIdx (ix2 r c) q) * rhs (d.rhsIdx (ix2 r c) q))
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact hr1 _ _)
  rw [el, er]

/-- A matrix product into the zero accumulator, at (r, c), is the sum over k of lhs (r, k) * rhs (k, c). -/
theorem matmul_zero_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) :=
  (Ideal.matmul_constant_zero_apply d prec lhs rhs (ix2 r c)).trans
    (contr_sum_ix2 d hr hs hlc hrc hl0 hr1 lhs rhs r c)

end Cert.LibPlainDot

end
-- ==== Proof.KI.Arrays0.lean ====
/-
  Region 0 on the extended reals: what the projection kernel leaves in its output array, as one function of the
  arrays it reads.  Each of the ten grid points stores, in its tile of 5000 rows, the product of the row tile of the
  input with the whole weight block; read at an entry that is a sum over the 128 contracted positions.  A tile's row r
  is row t * 5000 + r of the array, the weight block is the whole weight array, so point t writes block t of the
  matrix product of the two arrays; the ten blocks cover the output array (row i lies in block i / 5000), hence the
  array ends as that product.
-/
import proofs.«101283_j438086664594_1_alg».proof.Proof.KI.Data
import proofs.«101283_j438086664594_1_alg».proof.Proof.Spec
import proofs.«101283_j438086664594_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, on the extended reals
variable (V : (c : Dev nD) → (b : Ref sig .tc) → Buf (Elt Ideal) ((c : Thread nD τ).loc b))

/-- The zero offsets of a whole-tile rectangle, as the constant function. -/
theorem zeroOff0 : (![0, 0] : Fin 2 → Nat) = fun _ => 0 := funext fun a => by fin_cases a <;> rfl

/-- The tile product at an entry: the stored value at row r, column cc of the tile is the sum over k of the row tile
    at (r, k) times the weight block at (k, cc) (the narrowing to bf16 and the same-shape casts are the identity on
    extended reals; the accumulator starts at zero). -/
theorem pay0_apply (x0 : Vec Ideal S5000x128 .f32) (x1 : Vec Ideal S128x384 .f32) (r : Fin 5000) (cc : Fin 384) :
    k0_pay1 x0 x1 (ix2 r cc) = ∑ k : Fin 128, x0 (ix2 r k) * x1 (ix2 k cc) := by
  unfold k0_pay1
  refine (Cert.LibPlainDot.matmul_zero_ix2 dot_S5000x128_S128x384_S5000x384_1_0_0_1_n_n rfl rfl rfl rfl
    (fun _ _ => rfl) (fun _ _ => rfl) none _ _ r cc).trans ?_
  refine Finset.sum_congr rfl fun k _ => ?_
  rw [truncf_apply, truncf_apply, shapeCast_self]

/-- The index maps over the grid: the row-tiled windows sit at block (t, 0), the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0_2_eq (c : Dev nD) (t : Fin cfg0.N) :
    (dat0 (F := Ideal) V c).flushed 2 t
      = ((cfg0.win 2).blk t).view.read (Elt Ideal) (Cert.Spec.mm (V c main_arg0) (V c main_v5)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x384) zeroOff0]
  obtain ⟨e00, e01, e10, e11, e20, e21⟩ := idx0 t
  funext j
  obtain ⟨r, cc, rfl⟩ : ∃ (r : Fin 5000) (cc : Fin 384), j = ix2 r cc := ⟨j 0, j 1, eq_ix2 j⟩
  show k0_pay1 (iblk0 V c 0 t) (iblk0 V c 1 t) (ix2 r cc)
    = Cert.Spec.mm (V c main_arg0) (V c main_v5) (((cfg0.win 2).blk t).view.emb (ix2 r cc))
  refine (pay0_apply _ _ r cc).trans ?_
  refine Finset.sum_congr rfl fun k _ => ?_
  have h0 : iblk0 V c 0 t (ix2 r k)
      = V c main_arg0 (ix2 ((((cfg0.win 2).blk t).view.emb (ix2 r cc)) 0 : Fin 50000) k) := by
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have h1 : iblk0 V c 1 t (ix2 k cc)
      = V c main_v5 (ix2 k ((((cfg0.win 2).blk t).view.emb (ix2 r cc)) 1 : Fin 384)) := by
    show V c main_v5 (((cfg0.win 1).blk t).view.emb (ix2 k cc)) = _
    refine congrArg (V c main_v5) ?_
    funext a; apply Fin.ext
    match a with
    | ⟨0, _⟩ => show win0_1.index t (0 : Fin 2) * 128 + 1 * k.val = k.val; omega
    | ⟨1, _⟩ => show win0_1.index t (1 : Fin 2) * 384 + 1 * cc.val = win0_2.index t (1 : Fin 2) * 384 + 1 * cc.val; omega
  rw [h0, h1]

/-- An index of the output array is in point t's block iff each coordinate is in the block's range on its axis. -/
theorem mem_blk0_2 (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v6).slice (win0_2.rect t)).set ↔ _
  rw [View.set_slice_whole, Rect.mem_set_unit]
  exact Iff.rfl

/-- Every index of the output array lies in the block of the point its row falls in: row / 5000. -/
theorem cover0_2 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : grid0.N = 10 := Gen.N_0
  let t : Fin cfg0.N := ⟨(i 0).val / 5000, by show (i 0).val / 5000 < grid0.N; omega⟩
  obtain ⟨-, -, -, -, e20, e21⟩ := idx0 t
  have ht : t.val = (i 0).val / 5000 := rfl
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 384 ≤ (i 1).val ∧ (i 1).val < win0_2.index t (1 : Fin 2) * 384 + 384; omega

/-- After region 0 the output array is the product of the input array with the weight array. -/
theorem arr0_2 (c : Dev nD) :
    (dat0 (F := Ideal) V c).arrAt 2 cfg0.N = Cert.Spec.mm (V c main_arg0) (V c main_v5) :=
  (dat0 V c).arrAt_eq_of_cover 2 _ (fun t _ => flushed0_2_eq V c t) cover0_2

end Cert.KernelIdeal.Hand

end
-- ==== Proof.KI.Arrays1.lean ====
/-
  Region 1 on the extended reals: what the edge-projection kernel leaves in its two output arrays, each as one
  function of the arrays it reads.  Each of the two hundred grid points reads one tile of 8000 rows of the edge array
  and stores, in the same rows of the first output, the tile times the whole feature weight, and in the same rows of
  the second output, the tile times the whole bias weight plus the bias row; read at an entry each product is a sum
  over the 128 contracted positions.  A tile's row r is row t * 8000 + r of the array, so point t writes block t of
  the matrix product (plus the bias row, for the second output); the two hundred blocks cover each output array
  (row i lies in block i / 8000), hence the arrays end as those functions.
-/
import proofs.«101283_j438086664594_1_alg».proof.Proof.KI.Data
import proofs.«101283_j438086664594_1_alg».proof.Proof.Spec
import proofs.«101283_j438086664594_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, on the extended reals
variable (V : (c : Dev nD) → (b : Ref sig .tc) → Buf (Elt Ideal) ((c : Thread nD τ).loc b))

/-- The zero offsets of a whole-tile rectangle, as the constant function. -/
theorem zeroOff1 : (![0, 0] : Fin 2 → Nat) = fun _ => 0 := funext fun a => by fin_cases a <;> rfl

/-- The edge-feature tile at an entry: the sum over k of the edge tile at (r, k) times the feature weight at (k, cc)
    (the narrowing to bf16 and the same-shape casts are the identity on extended reals; the accumulator starts at zero). -/
theorem pay1_4_apply (x0 : Vec Ideal S8000x128 .f32) (x1 : Vec Ideal S128x128 .f32) (r : Fin 8000) (cc : Fin 128) :
    k1_pay2 x0 x1 (ix2 r cc) = ∑ k : Fin 128, x0 (ix2 r k) * x1 (ix2 k cc) := by
  unfold k1_pay2 k1_pay1
  refine (Cert.LibPlainDot.matmul_zero_ix2 dot_S8000x128_S128x128_S8000x128_1_0_0_1_n_n rfl rfl rfl rfl
    (fun _ _ => rfl) (fun _ _ => rfl) none _ _ r cc).trans ?_
  refine Finset.sum_congr rfl fun k _ => ?_
  rw [truncf_apply, truncf_apply, shapeCast_self]

/-- The edge-bias tile at an entry: the same sum against the bias weight, plus the bias row at the column. -/
theorem pay1_5_apply (x0 : Vec Ideal S8000x128 .f32) (x2 : Vec Ideal S128x8 .f32) (x3 : Vec Ideal S1x8 .f32)
    (r : Fin 8000) (cc : Fin 8) :
    k1_pay3 x0 x2 x3 (ix2 r cc) = (∑ k : Fin 128, x0 (ix2 r k) * x2 (ix2 k cc)) + x3 (ix2 (0 : Fin 1) cc) := by
  unfold k1_pay3 k1_pay1
  refine (addf_apply _ _ (ix2 r cc)).trans ?_
  refine congrArg₂ (· + ·)
    ((Cert.LibPlainDot.matmul_zero_ix2 dot_S8000x128_S128x8_S8000x8_1_0_0_1_n_n rfl rfl rfl rfl
      (fun _ _ => rfl) (fun _ _ => rfl) none _ _ r cc).trans ?_)
    ((broadcastTo_1b_ab_apply _ _ r cc).trans ?_)
  · refine Finset.sum_congr rfl fun k _ => ?_
    rw [truncf_apply, truncf_apply, shapeCast_self]
  · rw [shapeCast_self]

/-- The index maps over the grid: the row-tiled windows sit at block (t, 0), the weight and bias windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The edge tile at point t, row r, is row t * 8000 + r of the edge array. -/
theorem iblk1_0_apply (c : Dev nD) (t : Fin cfg1.N) (r : Fin 8000) (k : Fin 128) (R : Fin 1600000)
    (hR : R.val = t.val * 8000 + r.val) : iblk1 V c 0 t (ix2 r k) = V c main_arg2 (ix2 R k) := by
  obtain ⟨e00, e01, -⟩ := idx1 t
  show V c main_arg2 (((cfg1.win 0).blk t).view.emb (ix2 r k)) = _
  refine congrArg (V c main_arg2) ?_
  funext a; apply Fin.ext
  match a with
  | ⟨0, _⟩ => show win1_0.index t (0 : Fin 2) * 8000 + 1 * r.val = R.val; omega
  | ⟨1, _⟩ => show win1_0.index t (1 : Fin 2) * 128 + 1 * k.val = k.val; omega

/-- The feature-weight block at any point is the whole feature-weight array. -/
theorem iblk1_1_apply (c : Dev nD) (t : Fin cfg1.N) (k : Fin 128) (cc C : Fin 128) (hC : C.val = cc.val) :
    iblk1 V c 1 t (ix2 k cc) = V c main_v13 (ix2 k C) := by
  obtain ⟨-, -, e10, e11, -⟩ := idx1 t
  show V c main_v13 (((cfg1.win 1).blk t).view.emb (ix2 k cc)) = _
  refine congrArg (V c main_v13) ?_
  funext a; apply Fin.ext
  match a with
  | ⟨0, _⟩ => show win1_1.index t (0 : Fin 2) * 128 + 1 * k.val = k.val; omega
  | ⟨1, _⟩ => show win1_1.index t (1 : Fin 2) * 128 + 1 * cc.val = C.val; omega

/-- The bias-weight block at any point is the whole bias-weight array. -/
theorem iblk1_2_apply (c : Dev nD) (t : Fin cfg1.N) (k : Fin 128) (cc C : Fin 8) (hC : C.val = cc.val) :
    iblk1 V c 2 t (ix2 k cc) = V c main_v14 (ix2 k C) := by
  obtain ⟨-, -, -, -, e20, e21, -⟩ := idx1 t
  show V c main_v14 (((cfg1.win 2).blk t).view.emb (ix2 k cc)) = _
  refine congrArg (V c main_v14) ?_
  funext a; apply Fin.ext
  match a with
  | ⟨0, _⟩ => show win1_2.index t (0 : Fin 2) * 128 + 1 * k.val = k.val; omega
  | ⟨1, _⟩ => show win1_2.index t (1 : Fin 2) * 8 + 1 * cc.val = C.val; omega

/-- The bias-row block at any point is the whole bias row. -/
theorem iblk1_3_apply (c : Dev nD) (t : Fin cfg1.N) (cc C : Fin 8) (hC : C.val = cc.val) :
    iblk1 V c 3 t (ix2 (0 : Fin 1) cc) = V c main_v15 (ix2 (0 : Fin 1) C) := by
  obtain ⟨-, -, -, -, -, -, e30, e31, -⟩ := idx1 t
  show V c main_v15 (((cfg1.win 3).blk t).view.emb (ix2 (0 : Fin 1) cc)) = _
  refine congrArg (V c main_v15) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 8 + 1 * cc.val = C.val; omega

/-! ## The edge-feature output (window 4) -/

/-- Where the feature tile's entry (r, cc) at point t sits in the output array: row t * 8000 + r, column cc. -/
theorem emb1_4 (t : Fin cfg1.N) (r : Fin 8000) (cc : Fin 128) :
    ((((cfg1.win 4).blk t).view.emb (ix2 r cc)) (0 : Fin 2)).val = t.val * 8000 + r.val
      ∧ ((((cfg1.win 4).blk t).view.emb (ix2 r cc)) (1 : Fin 2)).val = cc.val := by
  obtain ⟨-, -, -, -, -, -, -, -, e40, e41, -⟩ := idx1 t
  constructor
  · show win1_4.index t (0 : Fin 2) * 8000 + 1 * r.val = _; omega
  · show win1_4.index t (1 : Fin 2) * 128 + 1 * cc.val = _; omega

/-- What point t writes back to the feature output is block t of the product of the edge array with the feature weight. -/
theorem flushed1_4_eq (c : Dev nD) (t : Fin cfg1.N) :
    (dat1 (F := Ideal) V c).flushed 4 t
      = ((cfg1.win 4).blk t).view.read (Elt Ideal) (Cert.Spec.mm (V c main_arg2) (V c main_v13)) := by
  show (cfg1.win 4).cut (grid1.coords t) ((dat1 V c).after 4 t) = _
  rw [after1_4]
  unfold out1_4
  rw [View.canon_unit_zero zeroOff1]
  simp only [View.ld_unit_zero (S := S8000x128) zeroOff1, View.ld_unit_zero (S := S128x128) zeroOff1]
  funext j
  obtain ⟨r, cc, rfl⟩ : ∃ (r : Fin 8000) (cc : Fin 128), j = ix2 r cc := ⟨j 0, j 1, eq_ix2 j⟩
  show k1_pay2 (iblk1 V c 0 t) (iblk1 V c 1 t) (ix2 r cc)
    = Cert.Spec.mm (V c main_arg2) (V c main_v13) (((cfg1.win 4).blk t).view.emb (ix2 r cc))
  refine (pay1_4_apply _ _ r cc).trans ?_
  refine Finset.sum_congr rfl fun k _ => ?_
  rw [iblk1_0_apply V c t r k _ (emb1_4 t r cc).1, iblk1_1_apply V c t k cc _ (emb1_4 t r cc).2]

/-- An index of the feature output is in point t's block iff each coordinate is in the block's range on its axis. -/
theorem mem_blk1_4 (t : Fin cfg1.N) (i : S1600000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v16_0).slice (win1_4.rect t)).set ↔ _
  rw [View.set_slice_whole, Rect.mem_set_unit]
  exact Iff.rfl

/-- Every index of the feature output lies in the block of the point its row falls in: row / 8000. -/
theorem cover1_4 (i : S1600000x128.Idx) :
    ∃ t : Fin cfg1.N, (cfg1.win 4).flush t = true ∧ i ∈ ((cfg1.win 4).blk t).view.set := by
  have hi0 : (i 0).val < 1600000 := (i 0).isLt
  have hi1 : (i 1).val < 128 := (i 1).isLt
  have hN : grid1.N = 200 := Gen.N_1
  let t : Fin cfg1.N := ⟨(i 0).val / 8000, by show (i 0).val / 8000 < grid1.N; omega⟩
  obtain ⟨-, -, -, -, -, -, -, -, e40, e41, -⟩ := idx1 t
  have ht : t.val = (i 0).val / 8000 := rfl
  refine ⟨t, flush1_4 t, ?_⟩
  rw [mem_blk1_4]
  intro a
  match a with
  | ⟨0, _⟩ => show win1_4.index t (0 : Fin 2) * 8000 ≤ (i 0).val ∧ (i 0).val < win1_4.index t (0 : Fin 2) * 8000 + 8000; omega
  | ⟨1, _⟩ => show win1_4.index t (1 : Fin 2) * 128 ≤ (i 1).val ∧ (i 1).val < win1_4.index t (1 : Fin 2) * 128 + 128; omega

/-- After region 1 the feature output is the product of the edge array with the feature weight. -/
theorem arr1_4 (c : Dev nD) :
    (dat1 (F := Ideal) V c).arrAt 4 cfg1.N = Cert.Spec.mm (V c main_arg2) (V c main_v13) :=
  (dat1 V c).arrAt_eq_of_cover 4 _ (fun t _ => flushed1_4_eq V c t) cover1_4

/-! ## The edge-bias output (window 5) -/

/-- Where the bias tile's entry (r, cc) at point t sits in the output array: row t * 8000 + r, column cc. -/
theorem emb1_5 (t : Fin cfg1.N) (r : Fin 8000) (cc : Fin 8) :
    ((((cfg1.win 5).blk t).view.emb (ix2 r cc)) (0 : Fin 2)).val = t.val * 8000 + r.val
      ∧ ((((cfg1.win 5).blk t).view.emb (ix2 r cc)) (1 : Fin 2)).val = cc.val := by
  obtain ⟨-, -, -, -, -, -, -, -, -, -, e50, e51⟩ := idx1 t
  constructor
  · show win1_5.index t (0 : Fin 2) * 8000 + 1 * r.val = _; omega
  · show win1_5.index t (1 : Fin 2) * 8 + 1 * cc.val = _; omega

/-- What point t writes back to the bias output is block t of the product of the edge array with the bias weight,
    plus the bias row. -/
theorem flushed1_5_eq (c : Dev nD) (t : Fin cfg1.N) :
    (dat1 (F := Ideal) V c).flushed 5 t
      = ((cfg1.win 5).blk t).view.read (Elt Ideal) (Cert.Spec.mmBias (V c main_arg2) (V c main_v14) (V c main_v15)) := by
  show (cfg1.win 5).cut (grid1.coords t) ((dat1 V c).after 5 t) = _
  rw [after1_5]
  unfold out1_5
  rw [View.canon_unit_zero zeroOff1]
  simp only [View.ld_unit_zero (S := S8000x128) zeroOff1, View.ld_unit_zero (S := S128x8) zeroOff1,
    View.ld_unit_zero (S := S1x8) zeroOff1]
  funext j
  obtain ⟨r, cc, rfl⟩ : ∃ (r : Fin 8000) (cc : Fin 8), j = ix2 r cc := ⟨j 0, j 1, eq_ix2 j⟩
  show k1_pay3 (iblk1 V c 0 t) (iblk1 V c 2 t) (iblk1 V c 3 t) (ix2 r cc)
    = Cert.Spec.mmBias (V c main_arg2) (V c main_v14) (V c main_v15) (((cfg1.win 5).blk t).view.emb (ix2 r cc))
  refine (pay1_5_apply _ _ _ r cc).trans ?_
  refine congrArg₂ (· + ·) (Finset.sum_congr rfl fun k _ => ?_) ?_
  · rw [iblk1_0_apply V c t r k _ (emb1_5 t r cc).1, iblk1_2_apply V c t k cc _ (emb1_5 t r cc).2]
  · rw [iblk1_3_apply V c t cc _ (emb1_5 t r cc).2]

/-- An index of the bias output is in point t's block iff each coordinate is in the block's range on its axis. -/
theorem mem_blk1_5 (t : Fin cfg1.N) (i : S1600000x8.Idx) :
    i ∈ ((cfg1.win 5).blk t).view.set ↔ ∀ a : Fin 2, win1_5.index t a * S8000x8.size a ≤ (i a).val ∧ (i a).val < win1_5.index t a * S8000x8.size a + S8000x8.size a := by
  show i ∈ ((View.whole main_v16_1).slice (win1_5.rect t)).set ↔ _
  rw [View.set_slice_whole, Rect.mem_set_unit]
  exact Iff.rfl

/-- Every index of the bias output lies in the block of the point its row falls in: row / 8000. -/
theorem cover1_5 (i : S1600000x8.Idx) :
    ∃ t : Fin cfg1.N, (cfg1.win 5).flush t = true ∧ i ∈ ((cfg1.win 5).blk t).view.set := by
  have hi0 : (i 0).val < 1600000 := (i 0).isLt
  have hi1 : (i 1).val < 8 := (i 1).isLt
  have hN : grid1.N = 200 := Gen.N_1
  let t : Fin cfg1.N := ⟨(i 0).val / 8000, by show (i 0).val / 8000 < grid1.N; omega⟩
  obtain ⟨-, -, -, -, -, -, -, -, -, -, e50, e51⟩ := idx1 t
  have ht : t.val = (i 0).val / 8000 := rfl
  refine ⟨t, flush1_5 t, ?_⟩
  rw [mem_blk1_5]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 8 ≤ (i 1).val ∧ (i 1).val < win1_5.index t (1 : Fin 2) * 8 + 8; omega

/-- After region 1 the bias output is the product of the edge array with the bias weight, plus the bias row. -/
theorem arr1_5 (c : Dev nD) :
    (dat1 (F := Ideal) V c).arrAt 5 cfg1.N = Cert.Spec.mmBias (V c main_arg2) (V c main_v14) (V c main_v15) :=
  (dat1 V c).arrAt_eq_of_cover 5 _ (fun t _ => flushed1_5_eq V c t) cover1_5

end Cert.KernelIdeal.Hand

end
-- ==== Proof.KI.Arrays2.lean ====
/-
  Region 2 on the extended reals: what the feed-forward kernel leaves in its output array, as one function of the
  arrays it reads.  Each of the ten grid points reads one tile of 5000 rows of the input and stores, in the same rows
  of the output, the second layer applied to the rectified first layer of the tile: at an entry, the sum over the 256
  hidden positions of max (row · first weight + first bias, 0) times the second weight, plus the second bias.  A
  tile's row r is row t * 5000 + r of the array and the weights and biases are whole arrays, so point t writes block
  t of the feed-forward block of the arrays; the ten blocks cover the output array (row i lies in block i / 5000),
  hence the array ends as that function.
-/
import proofs.«101283_j438086664594_1_alg».proof.Proof.KI.Data
import proofs.«101283_j438086664594_1_alg».proof.Proof.Spec
import proofs.«101283_j438086664594_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, on the extended reals
variable (V : (c : Dev nD) → (b : Ref sig .tc) → Buf (Elt Ideal) ((c : Thread nD τ).loc b))

/-- The zero offsets of a whole-tile rectangle, as the constant function. -/
theorem zeroOff2 : (![0, 0] : Fin 2 → Nat) = fun _ => 0 := funext fun a => by fin_cases a <;> rfl

/-- The feed-forward tile at an entry: the rectified first layer of row r — at hidden position h, the maximum with
    zero of the sum over k of the row tile at (r, k) times the first weight at (k, h) plus the first bias at h — times
    the second weight, summed over the 256 hidden positions, plus the second bias at the column (the narrowings to
    bf16 and the same-shape casts are the identity on extended reals; both accumulators start at zero). -/
theorem pay2_apply (x0 : Vec Ideal S5000x128 .f32) (x1 : Vec Ideal S128x256 .f32) (x2 : Vec Ideal S1x256 .f32)
    (x3 : Vec Ideal S256x128 .f32) (x4 : Vec Ideal S1x128 .f32) (r : Fin 5000) (cc : Fin 128) :
    k2_pay1 x0 x1 x2 x3 x4 (ix2 r cc)
      = (∑ h : Fin 256, max ((∑ k : Fin 128, x0 (ix2 r k) * x1 (ix2 k h)) + x2 (ix2 (0 : Fin 1) h)) 0 * x3 (ix2 h cc))
        + x4 (ix2 (0 : Fin 1) cc) := by
  unfold k2_pay1
  refine (addf_apply _ _ (ix2 r cc)).trans ?_
  refine congrArg₂ (· + ·)
    ((Cert.LibPlainDot.matmul_zero_ix2 dot_S5000x256_S256x128_S5000x128_1_0_0_1_n_n rfl rfl rfl rfl
      (fun _ _ => rfl) (fun _ _ => rfl) none _ _ r cc).trans ?_)
    ((broadcastTo_1b_ab_apply _ _ r cc).trans ?_)
  · refine Finset.sum_congr rfl fun h _ => ?_
    refine congrArg₂ (· * ·) ?_ ?_
    · refine (truncf_apply (ψ := .bf16) _ bitsLt_bf16_f32 (ix2 r h)).trans ?_
      refine (maximumf_apply _ _ (ix2 r h)).trans ?_
      refine congrArg₂ max ?_ ?_
      · refine (addf_apply _ _ (ix2 r h)).trans ?_
        refine congrArg₂ (· + ·)
          ((Cert.LibPlainDot.matmul_zero_ix2 dot_S5000x128_S128x256_S5000x256_1_0_0_1_n_n rfl rfl rfl rfl
            (fun _ _ => rfl) (fun _ _ => rfl) none _ _ r h).trans ?_)
          ((broadcastTo_1b_ab_apply _ _ r h).trans ?_)
        · refine Finset.sum_congr rfl fun k _ => ?_
          rw [truncf_apply, truncf_apply, shapeCast_self, shapeCast_self]
        · rw [shapeCast_self]
      · exact (broadcast_apply _ (ix2 r h)).trans Ideal.ofBits_zero_f32
    · rw [truncf_apply, shapeCast_self]
  · rw [shapeCast_self]

/-- The index maps over the grid: the row-tiled windows sit at block (t, 0), the weight and bias windows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row tile at point t, row r, is row t * 5000 + r of the input array. -/
theorem iblk2_0_apply (c : Dev nD) (t : Fin cfg2.N) (r : Fin 5000) (k : Fin 128) (R : Fin 50000)
    (hR : R.val = t.val * 5000 + r.val) : iblk2 V c 0 t (ix2 r k) = V c main_v81 (ix2 R k) := by
  obtain ⟨e00, e01, -⟩ := idx2 t
  show V c main_v81 (((cfg2.win 0).blk t).view.emb (ix2 r k)) = _
  refine congrArg (V c main_v81) ?_
  funext a; apply Fin.ext
  match a with
  | ⟨0, _⟩ => show win2_0.index t (0 : Fin 2) * 5000 + 1 * r.val = R.val; omega
  | ⟨1, _⟩ => show win2_0.index t (1 : Fin 2) * 128 + 1 * k.val = k.val; omega

/-- The first-weight block at any point is the whole first-weight array. -/
theorem iblk2_1_apply (c : Dev nD) (t : Fin cfg2.N) (k : Fin 128) (h : Fin 256) :
    iblk2 V c 1 t (ix2 k h) = V c main_v82 (ix2 k h) := by
  obtain ⟨-, -, e10, e11, -⟩ := idx2 t
  show V c main_v82 (((cfg2.win 1).blk t).view.emb (ix2 k h)) = _
  refine congrArg (V c main_v82) ?_
  funext a; apply Fin.ext
  match a with
  | ⟨0, _⟩ => show win2_1.index t (0 : Fin 2) * 128 + 1 * k.val = k.val; omega
  | ⟨1, _⟩ => show win2_1.index t (1 : Fin 2) * 256 + 1 * h.val = h.val; omega

/-- The first-bias block at any point is the whole first-bias row. -/
theorem iblk2_2_apply (c : Dev nD) (t : Fin cfg2.N) (h : Fin 256) :
    iblk2 V c 2 t (ix2 (0 : Fin 1) h) = V c main_v84 (ix2 (0 : Fin 1) h) := by
  obtain ⟨-, -, -, -, e20, e21, -⟩ := idx2 t
  show V c main_v84 (((cfg2.win 2).blk t).view.emb (ix2 (0 : Fin 1) h)) = _
  refine congrArg (V c main_v84) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 256 + 1 * h.val = h.val; omega

/-- The second-weight block at any point is the whole second-weight array. -/
theorem iblk2_3_apply (c : Dev nD) (t : Fin cfg2.N) (h : Fin 256) (cc C : Fin 128) (hC : C.val = cc.val) :
    iblk2 V c 3 t (ix2 h cc) = V c main_v83 (ix2 h C) := by
  obtain ⟨-, -, -, -, -, -, e30, e31, -⟩ := idx2 t
  show V c main_v83 (((cfg2.win 3).blk t).view.emb (ix2 h cc)) = _
  refine congrArg (V c main_v83) ?_
  funext a; apply Fin.ext
  match a with
  | ⟨0, _⟩ => show win2_3.index t (0 : Fin 2) * 256 + 1 * h.val = h.val; omega
  | ⟨1, _⟩ => show win2_3.index t (1 : Fin 2) * 128 + 1 * cc.val = C.val; omega

/-- The second-bias block at any point is the whole second-bias row. -/
theorem iblk2_4_apply (c : Dev nD) (t : Fin cfg2.N) (cc C : Fin 128) (hC : C.val = cc.val) :
    iblk2 V c 4 t (ix2 (0 : Fin 1) cc) = V c main_v85 (ix2 (0 : Fin 1) C) := by
  obtain ⟨-, -, -, -, -, -, -, -, e40, e41, -⟩ := idx2 t
  show V c main_v85 (((cfg2.win 4).blk t).view.emb (ix2 (0 : Fin 1) cc)) = _
  refine congrArg (V c main_v85) ?_
  funext a; apply Fin.ext
  match a with
  | ⟨0, _⟩ => show win2_4.index t (0 : Fin 2) * 1 + 1 * (0 : Fin 1).val = (0 : Fin 1).val; omega
  | ⟨1, _⟩ => show win2_4.index t (1 : Fin 2) * 128 + 1 * cc.val = C.val; omega

/-- Where the output tile's entry (r, cc) at point t sits in the output array: row t * 5000 + r, column cc. -/
theorem emb2_5 (t : Fin cfg2.N) (r : Fin 5000) (cc : Fin 128) :
    ((((cfg2.win 5).blk t).view.emb (ix2 r cc)) (0 : Fin 2)).val = t.val * 5000 + r.val
      ∧ ((((cfg2.win 5).blk t).view.emb (ix2 r cc)) (1 : Fin 2)).val = cc.val := by
  obtain ⟨-, -, -, -, -, -, -, -, -, -, e50, e51⟩ := idx2 t
  constructor
  · show win2_5.index t (0 : Fin 2) * 5000 + 1 * r.val = _; omega
  · show win2_5.index t (1 : Fin 2) * 128 + 1 * cc.val = _; omega

/-- What point t writes back is block t of the feed-forward block of the arrays as the region finds them. -/
theorem flushed2_5_eq (c : Dev nD) (t : Fin cfg2.N) :
    (dat2 (F := Ideal) V c).flushed 5 t
      = ((cfg2.win 5).blk t).view.read (Elt Ideal)
          (Cert.Spec.ffn (V c main_v81) (V c main_v82) (V c main_v84) (V c main_v83) (V c main_v85)) := by
  show (cfg2.win 5).cut (grid2.coords t) ((dat2 V c).after 5 t) = _
  rw [after2_5]
  unfold out2_5
  rw [View.canon_unit_zero zeroOff2]
  simp only [View.ld_unit_zero (S := S5000x128) zeroOff2, View.ld_unit_zero (S := S128x256) zeroOff2,
    View.ld_unit_zero (S := S1x256) zeroOff2, View.ld_unit_zero (S := S256x128) zeroOff2,
    View.ld_unit_zero (S := S1x128) zeroOff2]
  funext j
  obtain ⟨r, cc, rfl⟩ : ∃ (r : Fin 5000) (cc : Fin 128), j = ix2 r cc := ⟨j 0, j 1, eq_ix2 j⟩
  show k2_pay1 (iblk2 V c 0 t) (iblk2 V c 1 t) (iblk2 V c 2 t) (iblk2 V c 3 t) (iblk2 V c 4 t) (ix2 r cc)
    = Cert.Spec.ffn (V c main_v81) (V c main_v82) (V c main_v84) (V c main_v83) (V c main_v85)
        (((cfg2.win 5).blk t).view.emb (ix2 r cc))
  refine (pay2_apply _ _ _ _ _ r cc).trans ?_
  refine congrArg₂ (· + ·) (Finset.sum_congr rfl fun h _ => congrArg₂ (· * ·) (congrArg₂ max
    (congrArg₂ (· + ·) (Finset.sum_congr rfl fun k _ => ?_) ?_) rfl) ?_) ?_
  · rw [iblk2_0_apply V c t r k _ (emb2_5 t r cc).1, iblk2_1_apply V c t k h]
  · rw [iblk2_2_apply V c t h]
  · rw [iblk2_3_apply V c t h cc _ (emb2_5 t r cc).2]
  · rw [iblk2_4_apply V c t cc _ (emb2_5 t r cc).2]

/-- An index of the output array is in point t's block iff each coordinate is in the block's range on its axis. -/
theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v86).slice (win2_5.rect t)).set ↔ _
  rw [View.set_slice_whole, Rect.mem_set_unit]
  exact Iff.rfl

/-- Every index of the output array lies in the block of the point its row falls in: row / 5000. -/
theorem cover2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := Gen.N_2
  let t : Fin cfg2.N := ⟨(i 0).val / 5000, by show (i 0).val / 5000 < grid2.N; omega⟩
  obtain ⟨-, -, -, -, -, -, -, -, -, -, e50, e51⟩ := idx2 t
  have ht : t.val = (i 0).val / 5000 := rfl
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After region 2 the output array is the feed-forward block of the input array with the two weights and biases. -/
theorem arr2_5 (c : Dev nD) :
    (dat2 (F := Ideal) V c).arrAt 5 cfg2.N
      = Cert.Spec.ffn (V c main_v81) (V c main_v82) (V c main_v84) (V c main_v83) (V c main_v85) :=
  (dat2 V c).arrAt_eq_of_cover 5 _ (fun t _ => flushed2_5_eq V c t) cover2_5

end Cert.KernelIdeal.Hand

end
-- ==== Proof.Val.Proj.lean ====
/-
  Matrix products of the two programs read as plain mathematics on the extended reals.

  * The host's `dot_general` contracting the left operand's columns with the right operand's rows is the matrix
    product  (A · B)(r, c) = sum over k of A (r, k) * B (k, c).
  * Adding a bias vector broadcast over the rows is adding the bias, reshaped to one row, to every row.
  * A column band of  h · (stack of W₀, W₁, W₂)ᵀ  is  h · W_pᵀ : column o + c of the transposed stack is row c of the
    p-th matrix, where o is the number of rows stacked before it.
  * The reference's feed-forward chain (product, bias, maximum with zero, product, bias) is the feed-forward block.
-/
import proofs.«101283_j438086664594_1_alg».proof.Proof.Spec
import proofs.«101283_j438086664594_1_alg».proof.Proof.LibPlainDot
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.Spec

variable {M K N : ℕ}

/-- The host's matrix product is the matrix product. -/
theorem dot_eq_mm (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (A : FVec Ideal ⟨2, ![M, K]⟩ .f32) (B : FVec Ideal ⟨2, ![K, N]⟩ .f32) :
    Host.dotGeneral (F := Ideal) d none A B = mm A B := by
  funext i
  obtain ⟨r, c, rfl⟩ : ∃ (r : Fin M) (c : Fin N), i = ix2 r c := ⟨i 0, i 1, eq_ix2 i⟩
  simp only [Host.dotGeneral]
  rw [Ideal.dotGeneral_apply]
  exact Cert.LibPlainDot.contr_sum_ix2 d hr hs hlc hrc hl0 hr1 A B r c

/-- A bias vector broadcast to one row and then over all rows, added to a matrix, is the bias row added to each row. -/
theorem add_bias_rows (X : (⟨2, ![M, N]⟩ : Shape).Idx → EReal) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) X (broadcastInDim ⟨2, ![M, N]⟩ ![0, 1] h2 (broadcastInDim ⟨2, ![1, N]⟩ ![1] h1 b))
      = fun i => X i + shapeCast ⟨2, ![1, N]⟩ b hc (ix2 (0 : Fin 1) (i 1 : Fin N)) := by
  funext i
  obtain ⟨r, c, rfl⟩ : ∃ (r : Fin M) (c : Fin N), i = ix2 r c := ⟨i 0, i 1, eq_ix2 i⟩
  rw [addf_apply]
  refine congrArg (X (ix2 r c) + ·) ?_
  show broadcastInDim ⟨2, ![M, N]⟩ ![0, 1] h2 (broadcastInDim ⟨2, ![1, N]⟩ ![1] h1 b) (ix2 r c)
      = shapeCast ⟨2, ![1, N]⟩ b hc (ix2 (0 : Fin 1) c)
  refine Eq.trans ?_ (shapeCast_a_1a_apply b hc (0 : Fin 1) c).symm
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- The host's product plus the broadcast bias is the product-with-bias of the specification. -/
theorem dot_add_bias (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (A : FVec Ideal ⟨2, ![M, K]⟩ .f32) (B : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (Host.dotGeneral (F := Ideal) d none A B)
        (broadcastInDim ⟨2, ![M, N]⟩ ![0, 1] h2 (broadcastInDim ⟨2, ![1, N]⟩ ![1] h1 b))
      = mmBias A B (shapeCast ⟨2, ![1, N]⟩ b hc) := by
  rw [dot_eq_mm d hr hs hlc hrc hl0 hr1, add_bias_rows _ b h1 h2 hc]
  rfl

/-- A column band of  h · (stack)ᵀ : columns o … o + N of the product with the transposed stack are the product with
    the transpose of the piece whose rows sit at o … o + N of the stack. -/
theorem band_of_stack {N3 : ℕ} (h : (⟨2, ![M, K]⟩ : Shape).Idx → EReal) (xs : List ((s : Shape) × (s.Idx → EReal)))
    (hcat : Shape.Concatenates (xs.map (·.1)) ⟨2, ![N3, K]⟩ (0 : Fin 2))
    (ht : (⟨2, ![N3, K]⟩ : Shape).Transposes [1, 0] ⟨2, ![K, N3]⟩)
    (o : ℕ) (hs : (⟨2, ![M, N3]⟩ : Shape).Slices ![0, o] ⟨2, ![M, N]⟩)
    (p : ℕ) (hp : p < xs.length) (w : (⟨2, ![N, K]⟩ : Shape).Idx → EReal) (hxp : xs[p] = ⟨⟨2, ![N, K]⟩, w⟩)
    (hpre : (((xs.take p).map (·.1)).map fun s => if h : s.rank = (⟨2, ![N3, K]⟩ : Shape).rank
      then s.size ((0 : Fin (⟨2, ![N3, K]⟩ : Shape).rank).cast h.symm) else 0).sum = o)
    (hoN : o + N ≤ N3)
    (ht' : (⟨2, ![N, K]⟩ : Shape).Transposes [1, 0] ⟨2, ![K, N]⟩) :
    extractStridedSlice ⟨2, ![M, N]⟩ ![0, o]
        (mm h (transpose ⟨2, ![K, N3]⟩ [1, 0] (concatenate ⟨2, ![N3, K]⟩ (0 : Fin 2) xs hcat) ht)) hs
      = mm h (transpose ⟨2, ![K, N]⟩ [1, 0] w ht') := by
  funext i
  obtain ⟨r, c, rfl⟩ : ∃ (r : Fin M) (c : Fin N), i = ix2 r c := ⟨i 0, i 1, eq_ix2 i⟩
  have hc := c.isLt
  rw [slice2_axis1_apply o _ hs r c ⟨o + c.val, by omega⟩ rfl]
  show (∑ k : Fin K, h (ix2 r k) * transpose ⟨2, ![K, N3]⟩ [1, 0] (concatenate ⟨2, ![N3, K]⟩ (0 : Fin 2) xs hcat) ht
        (ix2 k (⟨o + c.val, by omega⟩ : Fin N3)))
      = ∑ k : Fin K, h (ix2 r k) * transpose ⟨2, ![K, N]⟩ [1, 0] w ht' (ix2 k c)
  refine Finset.sum_congr rfl fun k _ => congrArg (h (ix2 r k) * ·) ?_
  rw [transpose_ix2_apply, transpose_ix2_apply]
  exact concatenate_apply_piece (0 : Fin 2) xs hcat (ix2 (⟨o + c.val, by omega⟩ : Fin N3) k) p hp _ w hxp rfl o hpre
    (ix2 c k) (fun b hb => by
      match b with
      | ⟨0, _⟩ => exact absurd rfl hb
      | ⟨1, _⟩ => rfl) rfl

/-- The reference's feed-forward chain — product, bias, maximum with the zero splat, product, bias — is the
    feed-forward block with the two biases reshaped to one row each. -/
theorem ffn_chain {H : ℕ}
    (d1 : DotDims (⟨2, ![M, K]⟩ : Shape) ⟨2, ![K, H]⟩ ⟨2, ![M, H]⟩)
    (hr1 : d1.contr.rank = 1) (hs1 : d1.contr.size ⟨0, by omega⟩ = K)
    (hlc1 : d1.lhsContracting = [(1 : Fin 2)]) (hrc1 : d1.rhsContracting = [(0 : Fin 2)])
    (hl01 : ∀ (j : (⟨2, ![M, H]⟩ : Shape).Idx) (q : d1.contr.Idx), (d1.lhsIdx j q (0 : Fin 2)).val = (j (0 : Fin 2)).val)
    (hr11 : ∀ (j : (⟨2, ![M, H]⟩ : Shape).Idx) (q : d1.contr.Idx), (d1.rhsIdx j q (1 : Fin 2)).val = (j (1 : Fin 2)).val)
    (d2 : DotDims (⟨2, ![M, H]⟩ : Shape) ⟨2, ![H, N]⟩ ⟨2, ![M, N]⟩)
    (hr2 : d2.contr.rank = 1) (hs2 : d2.contr.size ⟨0, by omega⟩ = H)
    (hlc2 : d2.lhsContracting = [(1 : Fin 2)]) (hrc2 : d2.rhsContracting = [(0 : Fin 2)])
    (hl02 : ∀ (j : (⟨2, ![M, N]⟩ : Shape).Idx) (q : d2.contr.Idx), (d2.lhsIdx j q (0 : Fin 2)).val = (j (0 : Fin 2)).val)
    (hr12 : ∀ (j : (⟨2, ![M, N]⟩ : Shape).Idx) (q : d2.contr.Idx), (d2.rhsIdx j q (1 : Fin 2)).val = (j (1 : Fin 2)).val)
    (x : FVec Ideal ⟨2, ![M, K]⟩ .f32) (W1 : FVec Ideal ⟨2, ![K, H]⟩ .f32) (b1 : FVec Ideal ⟨1, ![H]⟩ .f32)
    (W2 : FVec Ideal ⟨2, ![H, N]⟩ .f32) (b2 : FVec Ideal ⟨1, ![N]⟩ .f32)
    (g1 : (⟨1, ![H]⟩ : Shape).BroadcastsInDim ⟨2, ![1, H]⟩ ![1]) (g2 : (⟨2, ![1, H]⟩ : Shape).BroadcastsInDim ⟨2, ![M, H]⟩ ![0, 1])
    (c1 : (⟨1, ![H]⟩ : Shape).ShapeCasts ⟨2, ![1, H]⟩)
    (e1 : (⟨1, ![N]⟩ : Shape).BroadcastsInDim ⟨2, ![1, N]⟩ ![1]) (e2 : (⟨2, ![1, N]⟩ : Shape).BroadcastsInDim ⟨2, ![M, N]⟩ ![0, 1])
    (c2 : (⟨1, ![N]⟩ : Shape).ShapeCasts ⟨2, ![1, N]⟩)
    (hz : (⟨0, ![]⟩ : Shape).BroadcastsInDim ⟨2, ![M, H]⟩ ![]) :
    addf (F := Ideal) (φ := .f32)
        (Host.dotGeneral (F := Ideal) d2 none
          (maximumf (F := Ideal) (φ := .f32)
            (addf (F := Ideal) (φ := .f32) (Host.dotGeneral (F := Ideal) d1 none x W1)
              (broadcastInDim ⟨2, ![M, H]⟩ ![0, 1] g2 (broadcastInDim ⟨2, ![1, H]⟩ ![1] g1 b1)))
            (broadcastInDim ⟨2, ![M, H]⟩ ![] hz (constant (F := Ideal) ⟨0, ![]⟩ .f32 0x00000000#32))) W2)
        (broadcastInDim ⟨2, ![M, N]⟩ ![0, 1] e2 (broadcastInDim ⟨2, ![1, N]⟩ ![1] e1 b2))
      = ffn x W1 (shapeCast ⟨2, ![1, H]⟩ b1 c1) W2 (shapeCast ⟨2, ![1, N]⟩ b2 c2) := by
  rw [dot_eq_mm d1 hr1 hs1 hlc1 hrc1 hl01 hr11, add_bias_rows _ b1 g1 g2 c1]
  have hmax : maximumf (F := Ideal) (φ := .f32)
        (fun i => mm x W1 i + shapeCast ⟨2, ![1, H]⟩ b1 c1 (ix2 (0 : Fin 1) (i 1 : Fin H)))
        (broadcastInDim ⟨2, ![M, H]⟩ ![] hz (constant (F := Ideal) ⟨0, ![]⟩ .f32 0x00000000#32))
      = hidden x W1 (shapeCast ⟨2, ![1, H]⟩ b1 c1) := by
    funext i
    rw [maximumf_apply]
    have hzv : broadcastInDim ⟨2, ![M, H]⟩ ![] hz (constant (F := Ideal) ⟨0, ![]⟩ .f32 0x00000000#32) i = (0 : EReal) := by
      refine (broadcastInDim_apply _ hz _ i ix0 fun a => a.elim0).trans ?_
      rw [constant_apply]
      exact Ideal.ofBits_zero_f32
    rw [hzv]
    rfl
  rw [hmax, dot_eq_mm d2 hr2 hs2 hlc2 hrc2 hl02 hr12, add_bias_rows _ b2 e1 e2 c2]
  rfl

/-! ## The same laws read from the specification's side, with any bias row -/

/-- A row broadcast over all rows, added to a matrix, is the row added to each row. -/
theorem add_row (X : (⟨2, ![M, N]⟩ : Shape).Idx → EReal) (bb : (⟨2, ![1, N]⟩ : Shape).Idx → EReal)
    (h2 : (⟨2, ![1, N]⟩ : Shape).BroadcastsInDim ⟨2, ![M, N]⟩ ![0, 1]) :
    addf (F := Ideal) (φ := .f32) X (broadcastInDim ⟨2, ![M, N]⟩ ![0, 1] h2 bb)
      = fun i => X i + bb (ix2 (0 : Fin 1) (i 1 : Fin N)) := by
  funext i
  obtain ⟨r, c, rfl⟩ : ∃ (r : Fin M) (c : Fin N), i = ix2 r c := ⟨i 0, i 1, eq_ix2 i⟩
  rw [addf_apply]
  refine congrArg (X (ix2 r c) + ·) ?_
  show broadcastInDim ⟨2, ![M, N]⟩ ![0, 1] h2 bb (ix2 r c) = bb (ix2 (0 : Fin 1) c)
  refine broadcastInDim_apply _ h2 _ (ix2 r c) (ix2 (0 : Fin 1) c) fun a => ?_
  match a with
  | ⟨0, _⟩ => rfl
  | ⟨1, _⟩ =>
    show c.val = if N = 1 then 0 else c.val
    split
    · have := c.isLt; omega
    · rfl

/-- The matrix product is the host's. -/
theorem mm_eq_dot (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (A : FVec Ideal ⟨2, ![M, K]⟩ .f32) (B : FVec Ideal ⟨2, ![K, N]⟩ .f32) :
    mm A B = Host.dotGeneral (F := Ideal) d none A B :=
  (dot_eq_mm d hr hs hlc hrc hl0 hr1 A B).symm

/-- The product plus a bias row is the host's product plus the row broadcast over the rows. -/
theorem mmBias_eq_chain (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (h2 : (⟨2, ![1, N]⟩ : Shape).BroadcastsInDim ⟨2, ![M, N]⟩ ![0, 1])
    (A : FVec Ideal ⟨2, ![M, K]⟩ .f32) (B : FVec Ideal ⟨2, ![K, N]⟩ .f32) (bb : FVec Ideal ⟨2, ![1, N]⟩ .f32) :
    mmBias A B bb = addf (F := Ideal) (φ := .f32) (Host.dotGeneral (F := Ideal) d none A B)
        (broadcastInDim ⟨2, ![M, N]⟩ ![0, 1] h2 bb) := by
  rw [dot_eq_mm d hr hs hlc hrc hl0 hr1, add_row _ bb h2]
  rfl

/-- The feed-forward block is the host's chain: product, bias row, maximum with the zero splat, product, bias row. -/
theorem ffn_eq_chain {H : ℕ}
    (d1 : DotDims (⟨2, ![M, K]⟩ : Shape) ⟨2, ![K, H]⟩ ⟨2, ![M, H]⟩)
    (hr1 : d1.contr.rank = 1) (hs1 : d1.contr.size ⟨0, by omega⟩ = K)
    (hlc1 : d1.lhsContracting = [(1 : Fin 2)]) (hrc1 : d1.rhsContracting = [(0 : Fin 2)])
    (hl01 : ∀ (j : (⟨2, ![M, H]⟩ : Shape).Idx) (q : d1.contr.Idx), (d1.lhsIdx j q (0 : Fin 2)).val = (j (0 : Fin 2)).val)
    (hr11 : ∀ (j : (⟨2, ![M, H]⟩ : Shape).Idx) (q : d1.contr.Idx), (d1.rhsIdx j q (1 : Fin 2)).val = (j (1 : Fin 2)).val)
    (d2 : DotDims (⟨2, ![M, H]⟩ : Shape) ⟨2, ![H, N]⟩ ⟨2, ![M, N]⟩)
    (hr2 : d2.contr.rank = 1) (hs2 : d2.contr.size ⟨0, by omega⟩ = H)
    (hlc2 : d2.lhsContracting = [(1 : Fin 2)]) (hrc2 : d2.rhsContracting = [(0 : Fin 2)])
    (hl02 : ∀ (j : (⟨2, ![M, N]⟩ : Shape).Idx) (q : d2.contr.Idx), (d2.lhsIdx j q (0 : Fin 2)).val = (j (0 : Fin 2)).val)
    (hr12 : ∀ (j : (⟨2, ![M, N]⟩ : Shape).Idx) (q : d2.contr.Idx), (d2.rhsIdx j q (1 : Fin 2)).val = (j (1 : Fin 2)).val)
    (g2 : (⟨2, ![1, H]⟩ : Shape).BroadcastsInDim ⟨2, ![M, H]⟩ ![0, 1])
    (e2 : (⟨2, ![1, N]⟩ : Shape).BroadcastsInDim ⟨2, ![M, N]⟩ ![0, 1])
    (hz : (⟨0, ![]⟩ : Shape).BroadcastsInDim ⟨2, ![M, H]⟩ ![])
    (x : FVec Ideal ⟨2, ![M, K]⟩ .f32) (W1 : FVec Ideal ⟨2, ![K, H]⟩ .f32) (bb1 : FVec Ideal ⟨2, ![1, H]⟩ .f32)
    (W2 : FVec Ideal ⟨2, ![H, N]⟩ .f32) (bb2 : FVec Ideal ⟨2, ![1, N]⟩ .f32) :
    ffn x W1 bb1 W2 bb2
      = addf (F := Ideal) (φ := .f32)
        (Host.dotGeneral (F := Ideal) d2 none
          (maximumf (F := Ideal) (φ := .f32)
            (addf (F := Ideal) (φ := .f32) (Host.dotGeneral (F := Ideal) d1 none x W1)
              (broadcastInDim ⟨2, ![M, H]⟩ ![0, 1] g2 bb1))
            (broadcastInDim ⟨2, ![M, H]⟩ ![] hz (constant (F := Ideal) ⟨0, ![]⟩ .f32 0x00000000#32))) W2)
        (broadcastInDim ⟨2, ![M, N]⟩ ![0, 1] e2 bb2) := by
  rw [dot_eq_mm d1 hr1 hs1 hlc1 hrc1 hl01 hr11, add_row _ bb1 g2]
  have hmax : maximumf (F := Ideal) (φ := .f32)
        (fun i => mm x W1 i + bb1 (ix2 (0 : Fin 1) (i 1 : Fin H)))
        (broadcastInDim ⟨2, ![M, H]⟩ ![] hz (constant (F := Ideal) ⟨0, ![]⟩ .f32 0x00000000#32))
      = hidden x W1 bb1 := by
    funext i
    rw [maximumf_apply]
    have hzv : broadcastInDim ⟨2, ![M, H]⟩ ![] hz (constant (F := Ideal) ⟨0, ![]⟩ .f32 0x00000000#32) i = (0 : EReal) := by
      refine (broadcastInDim_apply _ hz _ i ix0 fun a => a.elim0).trans ?_
      rw [constant_apply]
      exact Ideal.ofBits_zero_f32
    rw [hzv]
    rfl
  rw [hmax, dot_eq_mm d2 hr2 hs2 hlc2 hrc2 hl02 hr12, add_row _ bb2 e2]
  rfl

/-- A vector reshaped to one row is the vector broadcast to one row. -/
theorem row_cast_eq_bcast (b : (⟨1, ![N]⟩ : Shape).Idx → EReal)
    (hc : (⟨1, ![N]⟩ : Shape).ShapeCasts ⟨2, ![1, N]⟩) (h1 : (⟨1, ![N]⟩ : Shape).BroadcastsInDim ⟨2, ![1, N]⟩ ![1]) :
    shapeCast ⟨2, ![1, N]⟩ b hc = broadcastInDim ⟨2, ![1, N]⟩ ![1] h1 b := by
  funext j
  obtain ⟨u, i, rfl⟩ : ∃ (u : Fin 1) (i : Fin N), j = ix2 u i := ⟨j 0, j 1, eq_ix2 j⟩
  rw [shapeCast_a_1a_apply]
  refine (broadcastInDim_apply _ h1 b (ix2 u i) (ix1 i) fun a => ?_).symm
  match a with
  | ⟨0, _⟩ =>
    show i.val = if N = 1 then 0 else i.val
    split
    · have := i.isLt; omega
    · rfl

/-- The word 0x3E800000 denotes one quarter and 0x40800000 denotes four. -/
theorem ofBits_quarter : Ideal.ofBits .f32 0x3E800000#32 = ((1 / 4 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num

/-- Multiplying by the splat of one quarter is dividing by the splat of four, on every extended real. -/
theorem mul_quarter_eq_div_four {s : Shape} (x : FVec Ideal s .f32) (h : (⟨0, ![]⟩ : Shape).BroadcastsInDim s ![]) :
    mulf (F := Ideal) (φ := .f32) x (broadcastInDim s ![] h (constant (F := Ideal) ⟨0, ![]⟩ .f32 0x3E800000#32))
      = Host.divf (F := Ideal) (φ := .f32) x (broadcastInDim s ![] h (constant (F := Ideal) ⟨0, ![]⟩ .f32 0x40800000#32)) := by
  funext i
  have e1 : broadcastInDim s ![] h (constant (F := Ideal) ⟨0, ![]⟩ .f32 0x3E800000#32) i = ((1 / 4 : ℝ) : EReal) := by
    refine (broadcastInDim_apply _ h _ i ix0 fun a => a.elim0).trans ?_
    rw [constant_apply]; exact ofBits_quarter
  have e2 : broadcastInDim s ![] h (constant (F := Ideal) ⟨0, ![]⟩ .f32 0x40800000#32) i = ((4 : ℝ) : EReal) := by
    refine (broadcastInDim_apply _ h _ i ix0 fun a => a.elim0).trans ?_
    rw [constant_apply]; exact ofBits_four
  show x i * _ = Ideal.div (x i) _
  rw [e1, e2, Ideal.div_coe (by norm_num : (4 : ℝ) ≠ 0)]

end Cert.Bridge

end
-- ==== Proof.KI.Pure.lean ====
/-
  Each kernel region, seen from the host program, is a pure operation on whole arrays: what the core's buffers
  hold when a region is left is what they held when it was entered with the region's output array(s) replaced by
  the matrix product of the node features with the stacked weights (region 0), the two edge projections (region 1:
  the host's matrix product, and the host's matrix product plus the bias vector broadcast over the rows), the
  feed-forward block (region 2: product, bias, maximum with zero, product, bias, the biases broadcast from their
  vectors).  Regions 1 and 2 are stated with the host's own operations, whose values the specification's equal.
-/
import proofs.«101283_j438086664594_1_alg».proof.Proof.Gen.KernelIdeal.Launch
import proofs.«101283_j438086664594_1_alg».proof.Proof.Gen.KernelIdeal.Skeleton
import proofs.«101283_j438086664594_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«101283_j438086664594_1_alg».proof.Proof.KI.Fold
import proofs.«101283_j438086664594_1_alg».proof.Proof.KI.Arrays0
import proofs.«101283_j438086664594_1_alg».proof.Proof.KI.Arrays1
import proofs.«101283_j438086664594_1_alg».proof.Proof.KI.Arrays2
import proofs.«101283_j438086664594_1_alg».proof.Proof.Gen.KernelIdeal.Regions
import proofs.«101283_j438086664594_1_alg».proof.Proof.Gen.ReferenceIdeal
import proofs.«101283_j438086664594_1_alg».proof.Proof.Spec
import proofs.«101283_j438086664594_1_alg».proof.Proof.Val.Proj
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx

variable (m : (ℓ : Loc nD τ sig) → Buf (Elt Ideal) ℓ)

/-- Region 0 as one operation: the projection array is the product of the node features with the stacked weights. -/
def op0 : HloOp τ sig (Elt Ideal) :=
  StableHlo.binary main_arg0 main_v5 main_v6
    ((fun a b => Cert.Spec.mm a b) : (⟨S50000x128, .f32⟩ : BufTy).Contents (Elt Ideal) → (⟨S128x384, .f32⟩ : BufTy).Contents (Elt Ideal) → (⟨S50000x384, .f32⟩ : BufTy).Contents (Elt Ideal))

/-- Region 1's first output: the host's product of the edge features with the (transposed) feature weight. -/
def op1a : HloOp τ sig (Elt Ideal) :=
  StableHlo.binary main_arg2 main_v13 main_v16_0
    ((fun l r => Host.dotGeneral (F := Ideal) (φ₁ := .f32) (φ₂ := .f32) Cert.ReferenceIdeal.dot_S1600000x128_S128x128_S1600000x128_1_0_0_1_n_n none l r) : (⟨Cert.ReferenceIdeal.S1600000x128, .f32⟩ : BufTy).Contents (Elt Ideal) → (⟨Cert.ReferenceIdeal.S128x128, .f32⟩ : BufTy).Contents (Elt Ideal) → (⟨Cert.ReferenceIdeal.S1600000x128, .f32⟩ : BufTy).Contents (Elt Ideal))

/-- The host's product plus a bias vector broadcast to one row and over all rows. -/
abbrev edgeBias (a : (⟨Cert.ReferenceIdeal.S1600000x128, .f32⟩ : BufTy).Contents (Elt Ideal)) (b : (⟨Cert.ReferenceIdeal.S128x8, .f32⟩ : BufTy).Contents (Elt Ideal))
    (v : (⟨Cert.ReferenceIdeal.S8, .f32⟩ : BufTy).Contents (Elt Ideal)) : (⟨Cert.ReferenceIdeal.S1600000x8, .f32⟩ : BufTy).Contents (Elt Ideal) :=
  addf (F := Ideal) (φ := .f32) (Host.dotGeneral (F := Ideal) (φ₁ := .f32) (φ₂ := .f32) Cert.ReferenceIdeal.dot_S1600000x128_S128x8_S1600000x8_1_0_0_1_n_n none a b)
    (broadcastInDim Cert.ReferenceIdeal.S1600000x8 ![0, 1] Cert.ReferenceIdeal.Gen.bcast_S1x8_S1600000x8_0_1 (broadcastInDim Cert.ReferenceIdeal.S1x8 ![1] Cert.ReferenceIdeal.Gen.bcast_S8_S1x8_1 v))

/-- Region 1's second output: that, of the edge features, the (transposed) bias weight and the bias vector. -/
def op1b : HloOp τ sig (Elt Ideal) :=
  StableHlo.ternary main_arg2 main_v14 main_arg8 main_v16_1 (fun a b v => edgeBias a b v)

/-- The host's feed-forward chain: product, bias, maximum with the zero splat, product, bias. -/
abbrev ffnHost (x : (⟨Cert.ReferenceIdeal.S50000x128, .f32⟩ : BufTy).Contents (Elt Ideal)) (w1 : (⟨Cert.ReferenceIdeal.S128x256, .f32⟩ : BufTy).Contents (Elt Ideal))
    (b1 : (⟨Cert.ReferenceIdeal.S256, .f32⟩ : BufTy).Contents (Elt Ideal)) (w2 : (⟨Cert.ReferenceIdeal.S256x128, .f32⟩ : BufTy).Contents (Elt Ideal))
    (b2 : (⟨Cert.ReferenceIdeal.S128, .f32⟩ : BufTy).Contents (Elt Ideal)) : (⟨Cert.ReferenceIdeal.S50000x128, .f32⟩ : BufTy).Contents (Elt Ideal) :=
  addf (F := Ideal) (φ := .f32) (Host.dotGeneral (F := Ideal) (φ₁ := .f32) (φ₂ := .f32) Cert.ReferenceIdeal.dot_S50000x256_S256x128_S50000x128_1_0_0_1_n_n none
      (maximumf (F := Ideal) (φ := .f32) (addf (F := Ideal) (φ := .f32) (Host.dotGeneral (F := Ideal) (φ₁ := .f32) (φ₂ := .f32) Cert.ReferenceIdeal.dot_S50000x128_S128x256_S50000x256_1_0_0_1_n_n none x w1)
          (broadcastInDim Cert.ReferenceIdeal.S50000x256 ![0, 1] Cert.ReferenceIdeal.Gen.bcast_S1x256_S50000x256_0_1 (broadcastInDim Cert.ReferenceIdeal.S1x256 ![1] Cert.ReferenceIdeal.Gen.bcast_S256_S1x256_1 b1)))
        (broadcastInDim Cert.ReferenceIdeal.S50000x256 ![] Cert.ReferenceIdeal.Gen.bcast_S_S50000x256 (constant (F := Ideal) Cert.ReferenceIdeal.S_ .f32 0x00000000#32))) w2)
    (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b2))

/-- Region 2 as one operation: the feed-forward chain of the normalised features, the two (transposed) weights and
    the two bias vectors. -/
def op2 : HloOp τ sig (Elt Ideal) :=
  StableHlo.nary ![main_v81, main_v82, main_arg12, main_v83, main_arg14] main_v86
    (fun u => ffnHost (u 0) (u 1) (u 2) (u 3) (u 4))

/-! ## What each of these operations leaves at a buffer -/

theorem op0_result (G : Valuation τ sig (Elt Ideal)) :
    (op0).result G (no_index (Proc.devRef .tc main_v6)) = Cert.Spec.mm (G (Proc.devRef .tc main_arg0)) (G (Proc.devRef .tc main_v5)) := by
  unfold op0; exact StableHlo.binary_result main_arg0 main_v5 main_v6 _ _ _ _ G
theorem op0_result_ne (G : Valuation τ sig (Elt Ideal)) {r : Ref sig .tc} (h : r ≠ main_v6) :
    (op0).result G (no_index (Proc.devRef .tc r)) = G (Proc.devRef .tc r) :=
  HloOp.result_of_not_mem _ _ (by unfold op0; rw [StableHlo.binary_writes, Finset.mem_singleton]; exact StableHlo.devRef_ne_of_ne h)
theorem op1a_result (G : Valuation τ sig (Elt Ideal)) :
    (op1a).result G (no_index (Proc.devRef .tc main_v16_0))
      = Host.dotGeneral (F := Ideal) (φ₁ := .f32) (φ₂ := .f32) Cert.ReferenceIdeal.dot_S1600000x128_S128x128_S1600000x128_1_0_0_1_n_n none (G (Proc.devRef .tc main_arg2)) (G (Proc.devRef .tc main_v13)) := by
  unfold op1a; exact StableHlo.binary_result main_arg2 main_v13 main_v16_0 _ _ _ _ G
theorem op1a_result_ne (G : Valuation τ sig (Elt Ideal)) {r : Ref sig .tc} (h : r ≠ main_v16_0) :
    (op1a).result G (no_index (Proc.devRef .tc r)) = G (Proc.devRef .tc r) :=
  HloOp.result_of_not_mem _ _ (by unfold op1a; rw [StableHlo.binary_writes, Finset.mem_singleton]; exact StableHlo.devRef_ne_of_ne h)
theorem op1b_result (G : Valuation τ sig (Elt Ideal)) :
    (op1b).result G (no_index (Proc.devRef .tc main_v16_1))
      = edgeBias (G (Proc.devRef .tc main_arg2)) (G (Proc.devRef .tc main_v14)) (G (Proc.devRef .tc main_arg8)) := by
  unfold op1b; exact StableHlo.ternary_result main_arg2 main_v14 main_arg8 main_v16_1 _ _ _ _ _ G
theorem op1b_result_ne (G : Valuation τ sig (Elt Ideal)) {r : Ref sig .tc} (h : r ≠ main_v16_1) :
    (op1b).result G (no_index (Proc.devRef .tc r)) = G (Proc.devRef .tc r) :=
  HloOp.result_of_not_mem _ _ (by unfold op1b; rw [StableHlo.ternary_writes, Finset.mem_singleton]; exact StableHlo.devRef_ne_of_ne h)
theorem op2_result (G : Valuation τ sig (Elt Ideal)) :
    (op2).result G (no_index (Proc.devRef .tc main_v86))
      = ffnHost (G (Proc.devRef .tc main_v81)) (G (Proc.devRef .tc main_v82)) (G (Proc.devRef .tc main_arg12))
          (G (Proc.devRef .tc main_v83)) (G (Proc.devRef .tc main_arg14)) := by
  unfold op2
  exact (StableHlo.nary_result ![main_v81, main_v82, main_arg12, main_v83, main_arg14] main_v86
    (fun u => ffnHost (u 0) (u 1) (u 2) (u 3) (u 4)) _ _ G).trans rfl
theorem op2_result_ne (G : Valuation τ sig (Elt Ideal)) {r : Ref sig .tc} (h : r ≠ main_v86) :
    (op2).result G (no_index (Proc.devRef .tc r)) = G (Proc.devRef .tc r) :=
  HloOp.result_of_not_mem _ _ (by unfold op2; rw [StableHlo.nary_writes, Finset.mem_singleton]; exact StableHlo.devRef_ne_of_ne h)

/-- Three [128, 128] matrices stacked along the rows. -/
def stack3 (a b c : (⟨S128x128, .f32⟩ : BufTy).Contents (Elt Ideal)) : (⟨S384x128, .f32⟩ : BufTy).Contents (Elt Ideal) :=
  concatenate S384x128 0 [⟨S128x128, a⟩, ⟨S128x128, b⟩, ⟨S128x128, c⟩] concatenates_S128x128_S128x128_S128x128_S384x128_d0

/-- The stack of the three node weights, as an operation on three named buffers. -/
def catOp : HloOp τ sig (Elt Ideal) :=
  StableHlo.nary ![main_arg3, main_arg4, main_arg5] main_v4 (fun u => concatenate S384x128 0 [⟨S128x128, u 0⟩, ⟨S128x128, u 1⟩, ⟨S128x128, u 2⟩] concatenates_S128x128_S128x128_S128x128_S384x128_d0)
theorem catOp_result (G : Valuation τ sig (Elt Ideal)) :
    (catOp).result G (no_index (Proc.devRef .tc main_v4))
      = stack3 (G (Proc.devRef .tc main_arg3)) (G (Proc.devRef .tc main_arg4)) (G (Proc.devRef .tc main_arg5)) := by
  unfold catOp
  exact (StableHlo.nary_result ![main_arg3, main_arg4, main_arg5] main_v4
    (fun u => concatenate S384x128 0 [⟨S128x128, u 0⟩, ⟨S128x128, u 1⟩, ⟨S128x128, u 2⟩] concatenates_S128x128_S128x128_S128x128_S384x128_d0) _ _ G).trans rfl
theorem catOp_result_ne (G : Valuation τ sig (Elt Ideal)) {r : Ref sig .tc} (h : r ≠ main_v4) :
    (catOp).result G (no_index (Proc.devRef .tc r)) = G (Proc.devRef .tc r) :=
  HloOp.result_of_not_mem _ _ (by unfold catOp; rw [StableHlo.nary_writes, Finset.mem_singleton]; exact StableHlo.devRef_ne_of_ne h)

/-- The first host stretch with the stack named. -/
theorem hostOps0_eq : (hostOps0 : List (HloOp τ sig (Elt Ideal))) =
    [ StableHlo.unary main_arg1 main_v0 ((extractStridedSlice S1x1600000 ![0, 0] · slices_S2x1600000_S1x1600000_0_0) : (⟨S2x1600000, .i32⟩ : BufTy).Contents (Elt Ideal) → (⟨S1x1600000, .i32⟩ : BufTy).Contents (Elt Ideal)),
      StableHlo.reshape main_v0 main_v1 rfl shapeCasts_S1x1600000_S1600000,
      StableHlo.unary main_arg1 main_v2 ((extractStridedSlice S1x1600000 ![1, 0] · slices_S2x1600000_S1x1600000_1_0) : (⟨S2x1600000, .i32⟩ : BufTy).Contents (Elt Ideal) → (⟨S1x1600000, .i32⟩ : BufTy).Contents (Elt Ideal)),
      StableHlo.reshape main_v2 main_v3 rfl shapeCasts_S1x1600000_S1600000,
      catOp,
      StableHlo.unary main_v4 main_v5 ((transpose S128x384 [1, 0] · transposes_S384x128_S128x384_1_0) : (⟨S384x128, .f32⟩ : BufTy).Contents (Elt Ideal) → (⟨S128x384, .f32⟩ : BufTy).Contents (Elt Ideal)) ] := rfl

/-! ## The regions' exits are these operations applied to their entries -/

theorem W2_eq (c : Dev nD) : W2 (F := Ideal) m c = (op0).result (W1 m c) := by
  funext b
  by_cases hb : b = Proc.devRef .tc main_v6
  · subst hb
    rw [show (Proc.devRef .tc main_v6 : DevRef τ sig) = Proc.devRef .tc (Pipeline.arrRef spec0 2) from rfl, W2_arr, arr0_2]
    exact (op0_result (W1 m c)).symm
  · rw [HloOp.result_of_not_mem _ _ (by unfold op0; rw [StableHlo.binary_writes, Finset.mem_singleton]; exact hb)]
    by_cases hw : ∃ w, Proc.devRef (τ := τ) .tc (Pipeline.arrRef spec0 w) = b
    · obtain ⟨w, rfl⟩ := hw
      rw [W2_arr]
      match w with
      | ⟨0, _⟩ => exact ((dat0 (V1 m) c).arrAt_in 0 rfl _).trans (A_eq0 (V1 m) c 0)
      | ⟨1, _⟩ => exact ((dat0 (V1 m) c).arrAt_in 1 rfl _).trans (A_eq0 (V1 m) c 1)
      | ⟨2, _⟩ => exact absurd rfl hb
    · unfold W2 Pipeline.withArrays
      rw [dif_neg hw]

/-- The bias row region 1 reads is the bias vector reshaped to one row; the vector itself is as launched. -/
theorem V3_v15 (c : Dev nD) : V3 (F := Ideal) m c main_v15
    = shapeCast ⟨2, ![1, 8]⟩ (W3 (F := Ideal) m c (Proc.devRef .tc main_arg8)) shapeCasts_S8_S1x8 := by
  have h8 : W3 (F := Ideal) m c (Proc.devRef .tc main_arg8) = W2 m c (Proc.devRef .tc main_arg8) :=
    StableHlo.after_of_writes_sub hostOps1 _ Gen.hostOps1_writes (by decide)
  rw [h8]
  show StableHlo.after hostOps1 (W2 m c) (Proc.devRef .tc main_v15) = _
  after_results_simp
  rfl

theorem W4_eq (c : Dev nD) : W4 (F := Ideal) m c = (op1b).result ((op1a).result (W3 m c)) := by
  funext b
  by_cases hb5 : b = Proc.devRef .tc main_v16_1
  · subst hb5
    rw [show (Proc.devRef .tc main_v16_1 : DevRef τ sig) = Proc.devRef .tc (Pipeline.arrRef spec1 5) from rfl, W4_arr, arr1_5]
    refine Eq.trans ?_ (op1b_result ((op1a).result (W3 m c))).symm
    rw [op1a_result_ne (W3 m c) (r := main_arg2) (by decide), op1a_result_ne (W3 m c) (r := main_v14) (by decide),
      op1a_result_ne (W3 m c) (r := main_arg8) (by decide), V3_v15]
    exact (Cert.Bridge.dot_add_bias Cert.ReferenceIdeal.dot_S1600000x128_S128x8_S1600000x8_1_0_0_1_n_n rfl rfl rfl rfl (fun _ _ => rfl) (fun _ _ => rfl)
      _ _ _ Cert.ReferenceIdeal.Gen.bcast_S8_S1x8_1 Cert.ReferenceIdeal.Gen.bcast_S1x8_S1600000x8_0_1 shapeCasts_S8_S1x8).symm
  · rw [HloOp.result_of_not_mem _ _ (by unfold op1b; rw [StableHlo.ternary_writes, Finset.mem_singleton]; exact hb5)]
    by_cases hb4 : b = Proc.devRef .tc main_v16_0
    · subst hb4
      rw [show (Proc.devRef .tc main_v16_0 : DevRef τ sig) = Proc.devRef .tc (Pipeline.arrRef spec1 4) from rfl, W4_arr, arr1_4]
      refine Eq.trans ?_ (op1a_result (W3 m c)).symm
      exact Cert.Bridge.mm_eq_dot Cert.ReferenceIdeal.dot_S1600000x128_S128x128_S1600000x128_1_0_0_1_n_n rfl rfl rfl rfl (fun _ _ => rfl) (fun _ _ => rfl) _ _
    · rw [HloOp.result_of_not_mem _ _ (by unfold op1a; rw [StableHlo.binary_writes, Finset.mem_singleton]; exact hb4)]
      by_cases hw : ∃ w, Proc.devRef (τ := τ) .tc (Pipeline.arrRef spec1 w) = b
      · obtain ⟨w, rfl⟩ := hw
        rw [W4_arr]
        match w with
        | ⟨0, _⟩ => exact ((dat1 (V3 m) c).arrAt_in 0 rfl _).trans (A_eq1 (V3 m) c 0)
        | ⟨1, _⟩ => exact ((dat1 (V3 m) c).arrAt_in 1 rfl _).trans (A_eq1 (V3 m) c 1)
        | ⟨2, _⟩ => exact ((dat1 (V3 m) c).arrAt_in 2 rfl _).trans (A_eq1 (V3 m) c 2)
        | ⟨3, _⟩ => exact ((dat1 (V3 m) c).arrAt_in 3 rfl _).trans (A_eq1 (V3 m) c 3)
        | ⟨4, _⟩ => exact absurd rfl hb4
        | ⟨5, _⟩ => exact absurd rfl hb5
      · unfold W4 Pipeline.withArrays
        rw [dif_neg hw]

/-- The two bias rows region 2 reads are the bias vectors reshaped to one row each. -/
theorem V9_v84 (c : Dev nD) : V9 (F := Ideal) m c main_v84
    = shapeCast ⟨2, ![1, 256]⟩ (W9 (F := Ideal) m c (Proc.devRef .tc main_arg12)) shapeCasts_S256_S1x256 := by
  have h12 : W9 (F := Ideal) m c (Proc.devRef .tc main_arg12) = W8 m c (Proc.devRef .tc main_arg12) :=
    StableHlo.after_of_writes_sub hostOps2_4 _ Gen.hostOps2_4_writes (by decide)
  rw [h12]
  show StableHlo.after hostOps2_4 (W8 m c) (Proc.devRef .tc main_v84) = _
  after_results_simp
  rfl
theorem V9_v85 (c : Dev nD) : V9 (F := Ideal) m c main_v85
    = shapeCast ⟨2, ![1, 128]⟩ (W9 (F := Ideal) m c (Proc.devRef .tc main_arg14)) shapeCasts_S128_S1x128 := by
  have h14 : W9 (F := Ideal) m c (Proc.devRef .tc main_arg14) = W8 m c (Proc.devRef .tc main_arg14) :=
    StableHlo.after_of_writes_sub hostOps2_4 _ Gen.hostOps2_4_writes (by decide)
  rw [h14]
  show StableHlo.after hostOps2_4 (W8 m c) (Proc.devRef .tc main_v85) = _
  after_results_simp
  rfl

theorem W10_eq (c : Dev nD) : W10 (F := Ideal) m c = (op2).result (W9 m c) := by
  funext b
  by_cases hb : b = Proc.devRef .tc main_v86
  · subst hb
    rw [show (Proc.devRef .tc main_v86 : DevRef τ sig) = Proc.devRef .tc (Pipeline.arrRef spec2 5) from rfl, W10_arr, arr2_5]
    refine Eq.trans ?_ (op2_result (W9 m c)).symm
    rw [V9_v84, V9_v85]
    exact (Cert.Bridge.ffn_chain Cert.ReferenceIdeal.dot_S50000x128_S128x256_S50000x256_1_0_0_1_n_n rfl rfl rfl rfl (fun _ _ => rfl) (fun _ _ => rfl)
      Cert.ReferenceIdeal.dot_S50000x256_S256x128_S50000x128_1_0_0_1_n_n rfl rfl rfl rfl (fun _ _ => rfl) (fun _ _ => rfl)
      _ _ _ _ _ Cert.ReferenceIdeal.Gen.bcast_S256_S1x256_1 Cert.ReferenceIdeal.Gen.bcast_S1x256_S50000x256_0_1 shapeCasts_S256_S1x256
      Cert.ReferenceIdeal.Gen.bcast_S128_S1x128_1 Cert.ReferenceIdeal.Gen.bcast_S1x128_S50000x128_0_1 shapeCasts_S128_S1x128 Cert.ReferenceIdeal.Gen.bcast_S_S50000x256).symm
  · rw [HloOp.result_of_not_mem _ _ (by unfold op2; rw [StableHlo.nary_writes, Finset.mem_singleton]; exact hb)]
    by_cases hw : ∃ w, Proc.devRef (τ := τ) .tc (Pipeline.arrRef spec2 w) = b
    · obtain ⟨w, rfl⟩ := hw
      rw [W10_arr]
      match w with
      | ⟨0, _⟩ => exact ((dat2 (V9 m) c).arrAt_in 0 rfl _).trans (A_eq2 (V9 m) c 0)
      | ⟨1, _⟩ => exact ((dat2 (V9 m) c).arrAt_in 1 rfl _).trans (A_eq2 (V9 m) c 1)
      | ⟨2, _⟩ => exact ((dat2 (V9 m) c).arrAt_in 2 rfl _).trans (A_eq2 (V9 m) c 2)
      | ⟨3, _⟩ => exact ((dat2 (V9 m) c).arrAt_in 3 rfl _).trans (A_eq2 (V9 m) c 3)
      | ⟨4, _⟩ => exact ((dat2 (V9 m) c).arrAt_in 4 rfl _).trans (A_eq2 (V9 m) c 4)
      | ⟨5, _⟩ => exact absurd rfl hb
    · unfold W10 Pipeline.withArrays
      rw [dif_neg hw]

end Cert.KernelIdeal.Hand

end
-- ==== Proof.Val.Bridge.lean ====
/-
  The reference's result array is the kernel program's.

  Both programs are folds of pure operations from memories that agree on the arguments.  Unfolded, the two result
  arrays are the same composition of operations except at five places: the three node projections (a column band of
  h · (stack of Wq, Wk, Wv)ᵀ  against  h · Wᵀ), the edge projections (the specification's products against the host's),
  the score scaling (times one quarter against divided by four), and the feed-forward block (the specification's block
  against the host's chain product, bias, maximum with zero, product, bias).  Each is rewritten by its law; what is
  left is one term on both sides.
-/
import proofs.«101283_j438086664594_1_alg».proof.Proof.KI.Pure
import proofs.«101283_j438086664594_1_alg».proof.Proof.Ref.Run
import proofs.«101283_j438086664594_1_alg».proof.Proof.Val.Proj

set_option maxRecDepth 65536

noncomputable section

namespace Cert.Bridge

open Idealize.ShloMosaic Idealize.ShloMosaic.TcCoe Idealize.ShloMosaic.StableHlo Idealize.ShloMosaic.ValueIdx
open Cert.KernelIdeal.Hand

/-- One pass that unfolds a fold of operations at a buffer: the library's result lemmas and those of the regions'
    operations. -/
local macro "unfold_folds" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      op0_result, op0_result_ne, op1a_result, op1a_result_ne, op1b_result, op1b_result_ne, op2_result, op2_result_ne,
      catOp_result, catOp_result_ne]))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel program's last fold, with the regions as operations. -/
theorem W13_fold (c : Dev Cert.KernelIdeal.nD) : W13 (F := Ideal) m c
    = after Cert.KernelIdeal.Gen.hostOps3_2 (after Cert.KernelIdeal.Gen.hostOps3_1 (after Cert.KernelIdeal.Gen.hostOps3 ((op2).result
        (after Cert.KernelIdeal.Gen.hostOps2_4 (after Cert.KernelIdeal.Gen.hostOps2_3 (after Cert.KernelIdeal.Gen.hostOps2_2 (after Cert.KernelIdeal.Gen.hostOps2_1
          (after Cert.KernelIdeal.Gen.hostOps2 ((op1b).result ((op1a).result (after Cert.KernelIdeal.Gen.hostOps1 ((op0).result
            (after Cert.KernelIdeal.Gen.hostOps0 (W0 m c)))))))))))))) := by
  show after Cert.KernelIdeal.Gen.hostOps3_2 (after Cert.KernelIdeal.Gen.hostOps3_1 (after Cert.KernelIdeal.Gen.hostOps3 (W10 m c))) = _
  rw [W10_eq]
  show after _ (after _ (after _ ((op2).result (after Cert.KernelIdeal.Gen.hostOps2_4 (after Cert.KernelIdeal.Gen.hostOps2_3 (after Cert.KernelIdeal.Gen.hostOps2_2
    (after Cert.KernelIdeal.Gen.hostOps2_1 (after Cert.KernelIdeal.Gen.hostOps2 (W4 m c)))))))))  = _
  rw [W4_eq]
  show after _ (after _ (after _ ((op2).result (after _ (after _ (after _ (after _ (after _ ((op1b).result ((op1a).result
    (after Cert.KernelIdeal.Gen.hostOps1 (W2 m c))))))))))))  = _
  rw [W2_eq]

/-- A column band of the fused projection is the projection by the band's own weight (three bands). -/
theorem band0 (h : (⟨Cert.KernelIdeal.S50000x128, .f32⟩ : BufTy).Contents (Elt Ideal)) (w0 w1 w2 : (⟨Cert.KernelIdeal.S128x128, .f32⟩ : BufTy).Contents (Elt Ideal)) :
    @extractStridedSlice Cert.KernelIdeal.S50000x384 (Elt Ideal EltTy.f32) Cert.KernelIdeal.S50000x128 ![0, 0]
        (Cert.Spec.mm (M := 50000) (K := 128) (N := 384) h (@transpose Cert.KernelIdeal.S384x128 (Elt Ideal EltTy.f32) Cert.KernelIdeal.S128x384 [1, 0] (stack3 w0 w1 w2) Cert.KernelIdeal.Gen.transposes_S384x128_S128x384_1_0))
        Cert.KernelIdeal.Gen.slices_S50000x384_S50000x128_0_0
      = Cert.Spec.mm (M := 50000) (K := 128) (N := 128) h (@transpose Cert.KernelIdeal.S128x128 (Elt Ideal EltTy.f32) Cert.KernelIdeal.S128x128 [1, 0] w0 Cert.KernelIdeal.Gen.transposes_S128x128_S128x128_1_0) := by
  unfold stack3
  exact band_of_stack (M := 50000) (K := 128) (N := 128) (N3 := 384) h _ _ _ 0 _ 0 (by simp) w0 rfl (by rfl) (by omega) _
theorem band1 (h : (⟨Cert.KernelIdeal.S50000x128, .f32⟩ : BufTy).Contents (Elt Ideal)) (w0 w1 w2 : (⟨Cert.KernelIdeal.S128x128, .f32⟩ : BufTy).Contents (Elt Ideal)) :
    @extractStridedSlice Cert.KernelIdeal.S50000x384 (Elt Ideal EltTy.f32) Cert.KernelIdeal.S50000x128 ![0, 128]
        (Cert.Spec.mm (M := 50000) (K := 128) (N := 384) h (@transpose Cert.KernelIdeal.S384x128 (Elt Ideal EltTy.f32) Cert.KernelIdeal.S128x384 [1, 0] (stack3 w0 w1 w2) Cert.KernelIdeal.Gen.transposes_S384x128_S128x384_1_0))
        Cert.KernelIdeal.Gen.slices_S50000x384_S50000x128_0_128
      = Cert.Spec.mm (M := 50000) (K := 128) (N := 128) h (@transpose Cert.KernelIdeal.S128x128 (Elt Ideal EltTy.f32) Cert.KernelIdeal.S128x128 [1, 0] w1 Cert.KernelIdeal.Gen.transposes_S128x128_S128x128_1_0) := by
  unfold stack3
  exact band_of_stack (M := 50000) (K := 128) (N := 128) (N3 := 384) h _ _ _ 128 _ 1 (by simp) w1 rfl (by rfl) (by omega) _
theorem band2 (h : (⟨Cert.KernelIdeal.S50000x128, .f32⟩ : BufTy).Contents (Elt Ideal)) (w0 w1 w2 : (⟨Cert.KernelIdeal.S128x128, .f32⟩ : BufTy).Contents (Elt Ideal)) :
    @extractStridedSlice Cert.KernelIdeal.S50000x384 (Elt Ideal EltTy.f32) Cert.KernelIdeal.S50000x128 ![0, 256]
        (Cert.Spec.mm (M := 50000) (K := 128) (N := 384) h (@transpose Cert.KernelIdeal.S384x128 (Elt Ideal EltTy.f32) Cert.KernelIdeal.S128x384 [1, 0] (stack3 w0 w1 w2) Cert.KernelIdeal.Gen.transposes_S384x128_S128x384_1_0))
        Cert.KernelIdeal.Gen.slices_S50000x384_S50000x128_0_256
      = Cert.Spec.mm (M := 50000) (K := 128) (N := 128) h (@transpose Cert.KernelIdeal.S128x128 (Elt Ideal EltTy.f32) Cert.KernelIdeal.S128x128 [1, 0] w2 Cert.KernelIdeal.Gen.transposes_S128x128_S128x128_1_0) := by
  unfold stack3
  exact band_of_stack (M := 50000) (K := 128) (N := 128) (N3 := 384) h _ _ _ 256 _ 2 (by simp) w2 rfl (by rfl) (by omega) _

/-- Multiplying the scores by one quarter is dividing them by four. -/
theorem quarter (x : (⟨Cert.KernelIdeal.S1600000x8, .f32⟩ : BufTy).Contents (Elt Ideal)) :
    mulf (F := Ideal) (φ := .f32) x (broadcastInDim (α := Elt Ideal EltTy.f32) Cert.KernelIdeal.S1600000x8 ![] Cert.KernelIdeal.Gen.bcast_S_S1600000x8 (constant (F := Ideal) Cert.KernelIdeal.S_ .f32 0x3E800000#32))
      = Host.divf (F := Ideal) (φ := .f32) x (broadcastInDim (α := Elt Ideal EltTy.f32) Cert.ReferenceIdeal.S1600000x8 ![] Cert.ReferenceIdeal.Gen.bcast_S_S1600000x8 (constant (F := Ideal) Cert.ReferenceIdeal.S_ .f32 0x40800000#32)) :=
  mul_quarter_eq_div_four x _

set_option maxHeartbeats 16000000 in
theorem result_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    after Cert.ReferenceIdeal.Hand.ops (launchContents m' c) (Proc.devRef .tc Cert.ReferenceIdeal.main_v115)
      = W13 (F := Ideal) m c (Proc.devRef .tc Cert.KernelIdeal.main_v106) := by
  obtain ⟨h0, h1, h2, h3, h4, h5, h6, h7, h8, h9, h10, h11, h12, h13, h14, h15, h16⟩ := hag
  have e0 : launchContents m' c (Proc.devRef .tc Cert.ReferenceIdeal.main_arg0) = W0 (F := Ideal) m c (Proc.devRef .tc Cert.KernelIdeal.main_arg0) := h0
  have e1 : launchContents m' c (Proc.devRef .tc Cert.ReferenceIdeal.main_arg1) = W0 (F := Ideal) m c (Proc.devRef .tc Cert.KernelIdeal.main_arg1) := h1
  have e2 : launchContents m' c (Proc.devRef .tc Cert.ReferenceIdeal.main_arg2) = W0 (F := Ideal) m c (Proc.devRef .tc Cert.KernelIdeal.main_arg2) := h2
  have e3 : launchContents m' c (Proc.devRef .tc Cert.ReferenceIdeal.main_arg3) = W0 (F := Ideal) m c (Proc.devRef .tc Cert.KernelIdeal.main_arg3) := h3
  have e4 : launchContents m' c (Proc.devRef .tc Cert.ReferenceIdeal.main_arg4) = W0 (F := Ideal) m c (Proc.devRef .tc Cert.KernelIdeal.main_arg4) := h4
  have e5 : launchContents m' c (Proc.devRef .tc Cert.ReferenceIdeal.main_arg5) = W0 (F := Ideal) m c (Proc.devRef .tc Cert.KernelIdeal.main_arg5) := h5
  have e6 : launchContents m' c (Proc.devRef .tc Cert.ReferenceIdeal.main_arg6) = W0 (F := Ideal) m c (Proc.devRef .tc Cert.KernelIdeal.main_arg6) := h6
  have e7 : launchContents m' c (Proc.devRef .tc Cert.ReferenceIdeal.main_arg7) = W0 (F := Ideal) m c (Proc.devRef .tc Cert.KernelIdeal.main_arg7) := h7
  have e8 : launchContents m' c (Proc.devRef .tc Cert.ReferenceIdeal.main_arg8) = W0 (F := Ideal) m c (Proc.devRef .tc Cert.KernelIdeal.main_arg8) := h8
  have e9 : launchContents m' c (Proc.devRef .tc Cert.ReferenceIdeal.main_arg9) = W0 (F := Ideal) m c (Proc.devRef .tc Cert.KernelIdeal.main_arg9) := h9
  have e10 : launchContents m' c (Proc.devRef .tc Cert.ReferenceIdeal.main_arg10) = W0 (F := Ideal) m c (Proc.devRef .tc Cert.KernelIdeal.main_arg10) := h10
  have e11 : launchContents m' c (Proc.devRef .tc Cert.ReferenceIdeal.main_arg11) = W0 (F := Ideal) m c (Proc.devRef .tc Cert.KernelIdeal.main_arg11) := h11
  have e12 : launchContents m' c (Proc.devRef .tc Cert.ReferenceIdeal.main_arg12) = W0 (F := Ideal) m c (Proc.devRef .tc Cert.KernelIdeal.main_arg12) := h12
  have e13 : launchContents m' c (Proc.devRef .tc Cert.ReferenceIdeal.main_arg13) = W0 (F := Ideal) m c (Proc.devRef .tc Cert.KernelIdeal.main_arg13) := h13
  have e14 : launchContents m' c (Proc.devRef .tc Cert.ReferenceIdeal.main_arg14) = W0 (F := Ideal) m c (Proc.devRef .tc Cert.KernelIdeal.main_arg14) := h14
  have e15 : launchContents m' c (Proc.devRef .tc Cert.ReferenceIdeal.main_arg15) = W0 (F := Ideal) m c (Proc.devRef .tc Cert.KernelIdeal.main_arg15) := h15
  have e16 : launchContents m' c (Proc.devRef .tc Cert.ReferenceIdeal.main_arg16) = W0 (F := Ideal) m c (Proc.devRef .tc Cert.KernelIdeal.main_arg16) := h16
  rw [W13_fold, hostOps0_eq, Cert.ReferenceIdeal.Hand.after_ops]
  -- both result arrays as compositions of pure operations of the launch contents
  unfold_folds
  -- the reference's arguments are the kernel program's
  generalize launchContents m' c (Proc.devRef .tc Cert.ReferenceIdeal.main_arg0) = x0 at e0 ⊢
  subst e0
  generalize launchContents m' c (Proc.devRef .tc Cert.ReferenceIdeal.main_arg1) = x1 at e1 ⊢
  subst e1
  generalize launchContents m' c (Proc.devRef .tc Cert.ReferenceIdeal.main_arg2) = x2 at e2 ⊢
  subst e2
  generalize launchContents m' c (Proc.devRef .tc Cert.ReferenceIdeal.main_arg3) = x3 at e3 ⊢
  subst e3
  generalize launchContents m' c (Proc.devRef .tc Cert.ReferenceIdeal.main_arg4) = x4 at e4 ⊢
  subst e4
  generalize launchContents m' c (Proc.devRef .tc Cert.ReferenceIdeal.main_arg5) = x5 at e5 ⊢
  subst e5
  generalize launchContents m' c (Proc.devRef .tc Cert.ReferenceIdeal.main_arg6) = x6 at e6 ⊢
  subst e6
  generalize launchContents m' c (Proc.devRef .tc Cert.ReferenceIdeal.main_arg7) = x7 at e7 ⊢
  subst e7
  generalize launchContents m' c (Proc.devRef .tc Cert.ReferenceIdeal.main_arg8) = x8 at e8 ⊢
  subst e8
  generalize launchContents m' c (Proc.devRef .tc Cert.ReferenceIdeal.main_arg9) = x9 at e9 ⊢
  subst e9
  generalize launchContents m' c (Proc.devRef .tc Cert.ReferenceIdeal.main_arg10) = x10 at e10 ⊢
  subst e10
  generalize launchContents m' c (Proc.devRef .tc Cert.ReferenceIdeal.main_arg11) = x11 at e11 ⊢
  subst e11
  generalize launchContents m' c (Proc.devRef .tc Cert.ReferenceIdeal.main_arg12) = x12 at e12 ⊢
  subst e12
  generalize launchContents m' c (Proc.devRef .tc Cert.ReferenceIdeal.main_arg13) = x13 at e13 ⊢
  subst e13
  generalize launchContents m' c (Proc.devRef .tc Cert.ReferenceIdeal.main_arg14) = x14 at e14 ⊢
  subst e14
  generalize launchContents m' c (Proc.devRef .tc Cert.ReferenceIdeal.main_arg15) = x15 at e15 ⊢
  subst e15
  generalize launchContents m' c (Proc.devRef .tc Cert.ReferenceIdeal.main_arg16) = x16 at e16 ⊢
  subst e16
  -- the three column bands of the fused projection are the three projections
  rw [band0 (W0 (F := Ideal) m c (Proc.devRef .tc Cert.KernelIdeal.main_arg0)) (W0 (F := Ideal) m c (Proc.devRef .tc Cert.KernelIdeal.main_arg3)) (W0 (F := Ideal) m c (Proc.devRef .tc Cert.KernelIdeal.main_arg4)) (W0 (F := Ideal) m c (Proc.devRef .tc Cert.KernelIdeal.main_arg5)), band1 (W0 (F := Ideal) m c (Proc.devRef .tc Cert.KernelIdeal.main_arg0)) (W0 (F := Ideal) m c (Proc.devRef .tc Cert.KernelIdeal.main_arg3)) (W0 (F := Ideal) m c (Proc.devRef .tc Cert.KernelIdeal.main_arg4)) (W0 (F := Ideal) m c (Proc.devRef .tc Cert.KernelIdeal.main_arg5)),
    band2 (W0 (F := Ideal) m c (Proc.devRef .tc Cert.KernelIdeal.main_arg0)) (W0 (F := Ideal) m c (Proc.devRef .tc Cert.KernelIdeal.main_arg3)) (W0 (F := Ideal) m c (Proc.devRef .tc Cert.KernelIdeal.main_arg4)) (W0 (F := Ideal) m c (Proc.devRef .tc Cert.KernelIdeal.main_arg5))]
  -- the specification's product is the host's; a quarter is a division by four
  simp only [mm_eq_dot Cert.ReferenceIdeal.dot_S50000x128_S128x128_S50000x128_1_0_0_1_n_n rfl rfl rfl rfl (fun _ _ => rfl) (fun _ _ => rfl)]
  rw [quarter]
  rfl

end Cert.Bridge

end
-- ==== Proof.lean ====
/-
  The certificate of the sparse graph-attention layer: a kernel program with three tiled matrix-product regions
  (the fused node projections  h · [Wq; Wk; Wv]ᵀ,  the two edge projections sharing one read of the edge features,
  the two-layer feed-forward block) among host operations (index rows, gathers, per-head scores, clip, exponential,
  two scatter-adds, the normalised residual, two batch normalisations), against the plain reference.

  Frames.  Each kernel region is a pipeline over row tiles whose body loads its tiles whole, computes, and stores
  each output tile whole; the three bodies' triples (Proof/K*/Body*.lean) feed the launch theorem for a program of
  several regions (Proof/K*/Run.lean), which yields every unscoped buffer at the end of the run as a fold of the host
  operations and the regions' write-backs from the launch memory; no item writes an argument.  The reference is a
  straight line of host operations (Proof/Ref/Run.lean).

  Values, on the extended reals.  Every region's output array is one whole-array function of its input arrays
  (Proof/KI/Arrays*.lean): a matrix product, a matrix product plus a bias row, the feed-forward block.  Hence the
  kernel program is one fold of pure operations (Proof/KI/Pure.lean), and it computes what the reference computes
  (Proof/Val/Bridge.lean): a column band of  h · (stack)ᵀ  is  h · Wᵀ;  multiplying by one quarter is dividing by
  four on every extended real; the remaining operations are the same on both sides, applied to equal operands.
  No rewrite was applied by the idealisation, so its preservation statement is trivial.
-/
import proofs.«101283_j438086664594_1_alg».proof.Defs
import proofs.«101283_j438086664594_1_alg».proof.Proof.Gen.Kernel
import proofs.«101283_j438086664594_1_alg».proof.Proof.Gen.KernelIdeal
import proofs.«101283_j438086664594_1_alg».proof.Proof.Gen.ReferenceIdeal
import proofs.«101283_j438086664594_1_alg».proof.Proof.Gen.Pre_finite_inputs
import proofs.«101283_j438086664594_1_alg».proof.Proof.K.Run
import proofs.«101283_j438086664594_1_alg».proof.Proof.K.Body0
import proofs.«101283_j438086664594_1_alg».proof.Proof.K.Body1
import proofs.«101283_j438086664594_1_alg».proof.Proof.K.Body2
import proofs.«101283_j438086664594_1_alg».proof.Proof.KI.Run
import proofs.«101283_j438086664594_1_alg».proof.Proof.KI.Body0
import proofs.«101283_j438086664594_1_alg».proof.Proof.KI.Body1
import proofs.«101283_j438086664594_1_alg».proof.Proof.KI.Body2
import proofs.«101283_j438086664594_1_alg».proof.Proof.Ref.Frame
import proofs.«101283_j438086664594_1_alg».proof.Proof.Val.Bridge
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_Kernel : Cert.frame_Kernel := fun m ρ _ =>
  Cert.Kernel.Hand.frame (fun V c => Cert.Kernel.Hand.body_obligation0 V c) (fun V c => Cert.Kernel.Hand.body_obligation1 V c)
    (fun V c => Cert.Kernel.Hand.body_obligation2 V c) m ρ

/-- So does the kernel program read at the exact extended reals. -/
theorem frame_KernelIdeal : Cert.frame_KernelIdeal := fun m ρ _ =>
  Cert.KernelIdeal.Hand.frame (fun V c => Cert.KernelIdeal.Hand.body_obligation0 V c) (fun V c => Cert.KernelIdeal.Hand.body_obligation1 V c)
    (fun V c => Cert.KernelIdeal.Hand.body_obligation2 V c) m ρ

/-- And the reference. -/
theorem frame_ReferenceIdeal : Cert.frame_ReferenceIdeal := fun m ρ _ => Cert.ReferenceIdeal.Hand.frame m ρ

/-- The idealisation rewrote nothing. -/
theorem preserves : Cert.preserves_Kernel_KernelIdeal := trivial

/-- From memories agreeing on the arguments both programs end with the same result array: the kernel program's last
    fold at its result buffer, which the reference's fold equals (`Cert.Bridge.result_eq`). -/
theorem algebraic : Cert.algebraic_KernelIdeal_ReferenceIdeal := by
  intro m ρ m' ρ' _ hagree
  refine ⟨fun c => Cert.KernelIdeal.Hand.W13 (F := Ideal) m c (Proc.devRef .tc Cert.KernelIdeal.main_v106),
    Cert.KernelIdeal.Hand.run_value (fun V c => Cert.KernelIdeal.Hand.body_obligation0 V c)
      (fun V c => Cert.KernelIdeal.Hand.body_obligation1 V c) (fun V c => Cert.KernelIdeal.Hand.body_obligation2 V c) m ρ, ?_⟩
  refine (θ_run Cert.ReferenceIdeal.defs _ _).mono (fun r h c => ⟨(h c).1.trans (Cert.Bridge.result_eq m m' c (hagree c)), (h c).2⟩)
    (Cert.ReferenceIdeal.Hand.run_value (F := Ideal) m' ρ')

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
